-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S32x5x5 : Shape := ⟨3, ![32, 5, 5]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel
  bcast_S_S32x5x5 : S_.BroadcastsInDim S32x5x5 (![] : Fin 0 → Fin S32x5x5.rank)
  reducesTo_S32x5x5_S_d0_1_2 : S32x5x5.ReducesTo [0, 1, 2] S_

variable [Facts]

def fn {F : FTy → Type} [FloatOps F] (main_arg0 : FVec F S16x32x256x256 .f32) (main_arg1 : FVec F S32x5x5 .f32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_v4 : FVec F S32x5x5 .f32 := Host.absf main_arg1
  let main_cst_0 : FVec F S_ .f32 := constant S_ .f32 0x7F800000#32
  let main_v5 : FVec F S32x5x5 .f32 := broadcastInDim S32x5x5 ![] bcast_S_S32x5x5 main_cst_0
  let main_v6 : IVec S32x5x5 1 := cmpf .olt main_v4 main_v5
  let main_c_1 : IVec S_ 1 := constantI S_ 1 1#1
  let main_v7 : IVec S_ 1 := (fun x v => Host.reduce IntOp.andi x v reducesTo_S32x5x5_S_d0_1_2 h_S_) main_v6 main_c_1
  let main_v8 : IVec S_ 1 := andi main_v3 main_v7
  main_v8
-- ==== Kernel.lean ====
abbrev S16x32x256x256 : Shape := ⟨4, ![16, 32, 256, 256]⟩
abbrev S32x5x5 : Shape := ⟨3, ![32, 5, 5]⟩
abbrev S1x32x256x256 : Shape := ⟨4, ![1, 32, 256, 256]⟩
abbrev S256x256 : Shape := ⟨2, ![256, 256]⟩
abbrev S1x1x256x256 : Shape := ⟨4, ![1, 1, 256, 256]⟩
abbrev S2x256 : Shape := ⟨2, ![2, 256]⟩
abbrev S260x256 : Shape := ⟨2, ![260, 256]⟩
abbrev S260x2 : Shape := ⟨2, ![260, 2]⟩
abbrev S260x260 : Shape := ⟨2, ![260, 260]⟩
abbrev S8x256x256 : Shape := ⟨3, ![8, 256, 256]⟩
abbrev S1x8x256x256 : Shape := ⟨4, ![1, 8, 256, 256]⟩
abbrev S8x5x5 : Shape := ⟨3, ![8, 5, 5]⟩
abbrev S8x1x1 : Shape := ⟨3, ![8, 1, 1]⟩
abbrev S8 : Shape := ⟨1, ![8]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x32x256x256, .f32⟩
  | .hbm, ⟨1, _⟩ => ⟨S32x5x5, .f32⟩
  | .hbm, ⟨2, _⟩ => ⟨S16x32x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S32x5x5, .f32⟩
  | .local _ .vmem, ⟨3, _⟩ => ⟨S1x32x256x256, .f32⟩
  | .local _ .vmem, ⟨4, _⟩ => ⟨S1x32x256x256, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (k0_t1 : Fin k0_t1_loop.trips) : Fin 4 → Nat :=
  let c0_833 : Index := 0#32
  let c0_i32 : BitVec 32 := 0#32
  let c1_i32 : BitVec 32 := 1#32
  let arg4 : BitVec 32 := Scf.iv c0_i32 c1_i32 k0_t1
  let v1429 : Index := Scalar.indexCast arg4
  let c0_834 : Index := 0#32
  let c0_835 : Index := 0#32
  ![0, v1429.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x1x256x256 : 0 < S1x1x256x256.numel
  shapeCasts_S1x1x256x256_S256x256 : S1x1x256x256.ShapeCasts S256x256
  concatenates_S2x256_S256x256_S2x256_S260x256_d0 : Shape.Concatenates [S2x256, S256x256, S2x256] S260x256 0
  concatenates_S260x2_S260x256_S260x2_S260x260_d1 : Shape.Concatenates [S260x2, S260x256, S260x2] S260x260 1
  inb_S1x32x256x256_S1x8x256x256_0_0_0_0 : ∀ a, (![0, 0, 0, 0] : Fin 4 → Nat) a + S1x8x256x256.size a ≤ S1x32x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  inb_S32x5x5_S8x5x5_0_0_0 : ∀ a, (![0, 0, 0] : Fin 3 → Nat) a + S8x5x5.size a ≤ S32x5x5.size a
  h_S8x5x5 : 0 < S8x5x5.numel
  slices_S260x260_o0_0_S256x256 : S260x260.Slices ![0, 0] S256x256
  slices_S8x5x5_o0_0_0_S8x1x1 : S8x5x5.Slices ![0, 0, 0] S8x1x1
  shapeCasts_S8x1x1_S8 : S8x1x1.ShapeCasts S8
  shapeCasts_S8_S8x1x1 : S8.ShapeCasts S8x1x1
  shapeCasts_S256x256_S1x256x256 : S256x256.ShapeCasts S1x256x256
  broadcasts_S1x256x256_S8x256x256 : S1x256x256.Broadcasts S8x256x256
  broadcasts_S8x1x1_S8x256x256 : S8x1x1.Broadcasts S8x256x256
  slices_S260x260_o0_1_S256x256 : S260x260.Slices ![0, 1] S256x256
  slices_S8x5x5_o0_0_1_S8x1x1 : S8x5x5.Slices ![0, 0, 1] S8x1x1
  slices_S260x260_o0_2_S256x256 : S260x260.Slices ![0, 2] S256x256
  slices_S8x5x5_o0_0_2_S8x1x1 : S8x5x5.Slices ![0, 0, 2] S8x1x1
  slices_S260x260_o0_3_S256x256 : S260x260.Slices ![0, 3] S256x256
  slices_S8x5x5_o0_0_3_S8x1x1 : S8x5x5.Slices ![0, 0, 3] S8x1x1
  slices_S260x260_o0_4_S256x256 : S260x260.Slices ![0, 4] S256x256
  slices_S8x5x5_o0_0_4_S8x1x1 : S8x5x5.Slices ![0, 0, 4] S8x1x1
  slices_S260x260_o1_0_S256x256 : S260x260.Slices ![1, 0] S256x256
  slices_S8x5x5_o0_1_0_S8x1x1 : S8x5x5.Slices ![0, 1, 0] S8x1x1
  slices_S260x260_o1_1_S256x256 : S260x260.Slices ![1, 1] S256x256
  slices_S8x5x5_o0_1_1_S8x1x1 : S8x5x5.Slices ![0, 1, 1] S8x1x1
  slices_S260x260_o1_2_S256x256 : S260x260.Slices ![1, 2] S256x256
  slices_S8x5x5_o0_1_2_S8x1x1 : S8x5x5.Slices ![0, 1, 2] S8x1x1
  slices_S260x260_o1_3_S256x256 : S260x260.Slices ![1, 3] S256x256
  slices_S8x5x5_o0_1_3_S8x1x1 : S8x5x5.Slices ![0, 1, 3] S8x1x1
  slices_S260x260_o1_4_S256x256 : S260x260.Slices ![1, 4] S256x256
  slices_S8x5x5_o0_1_4_S8x1x1 : S8x5x5.Slices ![0, 1, 4] S8x1x1
  slices_S260x260_o2_0_S256x256 : S260x260.Slices ![2, 0] S256x256
  slices_S8x5x5_o0_2_0_S8x1x1 : S8x5x5.Slices ![0, 2, 0] S8x1x1
  slices_S260x260_o2_1_S256x256 : S260x260.Slices ![2, 1] S256x256
  slices_S8x5x5_o0_2_1_S8x1x1 : S8x5x5.Slices ![0, 2, 1] S8x1x1
  slices_S260x260_o2_2_S256x256 : S260x260.Slices ![2, 2] S256x256
  slices_S8x5x5_o0_2_2_S8x1x1 : S8x5x5.Slices ![0, 2, 2] S8x1x1
  slices_S260x260_o2_3_S256x256 : S260x260.Slices ![2, 3] S256x256
  slices_S8x5x5_o0_2_3_S8x1x1 : S8x5x5.Slices ![0, 2, 3] S8x1x1
  slices_S260x260_o2_4_S256x256 : S260x260.Slices ![2, 4] S256x256
  slices_S8x5x5_o0_2_4_S8x1x1 : S8x5x5.Slices ![0, 2, 4] S8x1x1
  slices_S260x260_o3_0_S256x256 : S260x260.Slices ![3, 0] S256x256
  slices_S8x5x5_o0_3_0_S8x1x1 : S8x5x5.Slices ![0, 3, 0] S8x1x1
  slices_S260x260_o3_1_S256x256 : S260x260.Slices ![3, 1] S256x256
  slices_S8x5x5_o0_3_1_S8x1x1 : S8x5x5.Slices ![0, 3, 1] S8x1x1
  slices_S260x260_o3_2_S256x256 : S260x260.Slices ![3, 2] S256x256
  slices_S8x5x5_o0_3_2_S8x1x1 : S8x5x5.Slices ![0, 3, 2] S8x1x1
  slices_S260x260_o3_3_S256x256 : S260x260.Slices ![3, 3] S256x256
  slices_S8x5x5_o0_3_3_S8x1x1 : S8x5x5.Slices ![0, 3, 3] S8x1x1
  slices_S260x260_o3_4_S256x256 : S260x260.Slices ![3, 4] S256x256
  slices_S8x5x5_o0_3_4_S8x1x1 : S8x5x5.Slices ![0, 3, 4] S8x1x1
  slices_S260x260_o4_0_S256x256 : S260x260.Slices ![4, 0] S256x256
  slices_S8x5x5_o0_4_0_S8x1x1 : S8x5x5.Slices ![0, 4, 0] S8x1x1
  slices_S260x260_o4_1_S256x256 : S260x260.Slices ![4, 1] S256x256
  slices_S8x5x5_o0_4_1_S8x1x1 : S8x5x5.Slices ![0, 4, 1] S8x1x1
  slices_S260x260_o4_2_S256x256 : S260x260.Slices ![4, 2] S256x256
  slices_S8x5x5_o0_4_2_S8x1x1 : S8x5x5.Slices ![0, 4, 2] S8x1x1
  slices_S260x260_o4_3_S256x256 : S260x260.Slices ![4, 3] S256x256
  slices_S8x5x5_o0_4_3_S8x1x1 : S8x5x5.Slices ![0, 4, 3] S8x1x1
  slices_S260x260_o4_4_S256x256 : S260x260.Slices ![4, 4] S256x256
  slices_S8x5x5_o0_4_4_S8x1x1 : S8x5x5.Slices ![0, 4, 4] S8x1x1
  inb_S1x32x256x256_S1x8x256x256_0_8_0_0 : ∀ a, (![0, 8, 0, 0] : Fin 4 → Nat) a + S1x8x256x256.size a ≤ S1x32x256x256.size a
  inb_S32x5x5_S8x5x5_8_0_0 : ∀ a, (![8, 0, 0] : Fin 3 → Nat) a + S8x5x5.size a ≤ S32x5x5.size a
  inb_S1x32x256x256_S1x8x256x256_0_16_0_0 : ∀ a, (![0, 16, 0, 0] : Fin 4 → Nat) a + S1x8x256x256.size a ≤ S1x32x256x256.size a
  inb_S32x5x5_S8x5x5_16_0_0 : ∀ a, (![16, 0, 0] : Fin 3 → Nat) a + S8x5x5.size a ≤ S32x5x5.size a
  inb_S1x32x256x256_S1x8x256x256_0_24_0_0 : ∀ a, (![0, 24, 0, 0] : Fin 4 → Nat) a + S1x8x256x256.size a ≤ S1x32x256x256.size a
  inb_S32x5x5_S8x5x5_24_0_0 : ∀ a, (![24, 0, 0] : Fin 3 → Nat) a + S8x5x5.size a ≤ S32x5x5.size a
  hrank0 : 0 < grid0.rank
  k0_t1_ok : k0_t1_loop.OK
  k0_off1_inb : ∀ k0_t1 : Fin k0_t1_loop.trips, ∀ a, (k0_off1 k0_t1) a + S1x1x256x256.size a ≤ S1x32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S16x32x256x256.size a
  hwx0_0 : ∀ i : grid0.Coords, EltTy.bits .f32 = 32 ∨ (Rect.block (s := S16x32x256x256) S1x32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x5x5.size a ≤ S32x5x5.size a
  hwx0_1 : ∀ i : grid0.Coords, EltTy.bits .f32 = 32 ∨ (Rect.block (s := S32x5x5) S32x5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x256.size a ≤ S16x32x256x256.size a
  hwx0_2 : ∀ i : grid0.Coords, EltTy.bits .f32 = 32 ∨ (Rect.block (s := S16x32x256x256) S1x32x256x256.size (cc0_transform_2 i) (hinb0_2 i)).WholeWords (EltTy.packing .f32)

variable [Facts₀]

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x256x256 : Shape := ⟨4, ![16, 32, 256, 256]⟩
abbrev S32x5x5 : Shape := ⟨3, ![32, 5, 5]⟩
abbrev S_ : Shape := ⟨0, ![]⟩
abbrev S16x256x256 : Shape := ⟨3, ![16, 256, 256]⟩
abbrev S16x260x260 : Shape := ⟨3, ![16, 260, 260]⟩
abbrev S16x1x256x256 : Shape := ⟨4, ![16, 1, 256, 256]⟩
abbrev S32x1x1 : Shape := ⟨3, ![32, 1, 1]⟩
abbrev S32 : Shape := ⟨1, ![32]⟩
abbrev S1x32x1x1 : Shape := ⟨4, ![1, 32, 1, 1]⟩

abbrev nBuf : Space → Nat
  | .hbm => 234
  | .vmem => 0
  | .smem => 0
  | _ => 0

abbrev hbmTy0_0 (i : Nat) : BufTy := match i % 128 with
  | 0 => ⟨S16x32x256x256, .f32⟩
  | 1 => ⟨S32x5x5, .f32⟩
  | 2 => ⟨S_, .f32⟩
  | 3 => ⟨S16x256x256, .f32⟩
  | 4 => ⟨S_, .f32⟩
  | 5 => ⟨S_, .f32⟩
  | 6 => ⟨S16x260x260, .f32⟩
  | 7 => ⟨S_, .f32⟩
  | 8 => ⟨S16x32x256x256, .f32⟩
  | 9 => ⟨S16x256x256, .f32⟩
  | 10 => ⟨S16x1x256x256, .f32⟩
  | 11 => ⟨S32x1x1, .f32⟩
  | 12 => ⟨S32, .f32⟩
  | 13 => ⟨S1x32x1x1, .f32⟩
  | 14 => ⟨S16x32x256x256, .f32⟩
  | 15 => ⟨S16x32x256x256, .f32⟩
  | 16 => ⟨S16x32x256x256, .f32⟩
  | 17 => ⟨S16x32x256x256, .f32⟩
  | 18 => ⟨S16x256x256, .f32⟩
  | 19 => ⟨S16x1x256x256, .f32⟩
  | 20 => ⟨S32x1x1, .f32⟩
  | 21 => ⟨S32, .f32⟩
  | 22 => ⟨S1x32x1x1, .f32⟩
  | 23 => ⟨S16x32x256x256, .f32⟩
  | 24 => ⟨S16x32x256x256, .f32⟩
  | 25 => ⟨S16x32x256x256, .f32⟩
  | 26 => ⟨S16x32x256x256, .f32⟩
  | 27 => ⟨S16x256x256, .f32⟩
  | 28 => ⟨S16x1x256x256, .f32⟩
  | 29 => ⟨S32x1x1, .f32⟩
  | 30 => ⟨S32, .f32⟩
  | 31 => ⟨S1x32x1x1, .f32⟩
  | 32 => ⟨S16x32x256x256, .f32⟩
  | 33 => ⟨S16x32x256x256, .f32⟩
  | 34 => ⟨S16x32x256x256, .f32⟩
  | 35 => ⟨S16x32x256x256, .f32⟩
  | 36 => ⟨S16x256x256, .f32⟩
  | 37 => ⟨S16x1x256x256, .f32⟩
  | 38 => ⟨S32x1x1, .f32⟩
  | 39 => ⟨S32, .f32⟩
  | 40 => ⟨S1x32x1x1, .f32⟩
  | 41 => ⟨S16x32x256x256, .f32⟩
  | 42 => ⟨S16x32x256x256, .f32⟩
  | 43 => ⟨S16x32x256x256, .f32⟩
  | 44 => ⟨S16x32x256x256, .f32⟩
  | 45 => ⟨S16x256x256, .f32⟩
  | 46 => ⟨S16x1x256x256, .f32⟩
  | 47 => ⟨S32x1x1, .f32⟩
  | 48 => ⟨S32, .f32⟩
  | 49 => ⟨S1x32x1x1, .f32⟩
  | 50 => ⟨S16x32x256x256, .f32⟩
  | 51 => ⟨S16x32x256x256, .f32⟩
  | 52 => ⟨S16x32x256x256, .f32⟩
  | 53 => ⟨S16x32x256x256, .f32⟩
  | 54 => ⟨S16x256x256, .f32⟩
  | 55 => ⟨S16x1x256x256, .f32⟩
  | 56 => ⟨S32x1x1, .f32⟩
  | 57 => ⟨S32, .f32⟩
  | 58 => ⟨S1x32x1x1, .f32⟩
  | 59 => ⟨S16x32x256x256, .f32⟩
  | 60 => ⟨S16x32x256x256, .f32⟩
  | 61 => ⟨S16x32x256x256, .f32⟩
  | 62 => ⟨S16x32x256x256, .f32⟩
  | 63 => ⟨S16x256x256, .f32⟩
  | 64 => ⟨S16x1x256x256, .f32⟩
  | 65 => ⟨S32x1x1, .f32⟩
  | 66 => ⟨S32, .f32⟩
  | 67 => ⟨S1x32x1x1, .f32⟩
  | 68 => ⟨S16x32x256x256, .f32⟩
  | 69 => ⟨S16x32x256x256, .f32⟩
  | 70 => ⟨S16x32x256x256, .f32⟩
  | 71 => ⟨S16x32x256x256, .f32⟩
  | 72 => ⟨S16x256x256, .f32⟩
  | 73 => ⟨S16x1x256x256, .f32⟩
  | 74 => ⟨S32x1x1, .f32⟩
  | 75 => ⟨S32, .f32⟩
  | 76 => ⟨S1x32x1x1, .f32⟩
  | 77 => ⟨S16x32x256x256, .f32⟩
  | 78 => ⟨S16x32x256x256, .f32⟩
  | 79 => ⟨S16x32x256x256, .f32⟩
  | 80 => ⟨S16x32x256x256, .f32⟩
  | 81 => ⟨S16x256x256, .f32⟩
  | 82 => ⟨S16x1x256x256, .f32⟩
  | 83 => ⟨S32x1x1, .f32⟩
  | 84 => ⟨S32, .f32⟩
  | 85 => ⟨S1x32x1x1, .f32⟩
  | 86 => ⟨S16x32x256x256, .f32⟩
  | 87 => ⟨S16x32x256x256, .f32⟩
  | 88 => ⟨S16x32x256x256, .f32⟩
  | 89 => ⟨S16x32x256x256, .f32⟩
  | 90 => ⟨S16x256x256, .f32⟩
  | 91 => ⟨S16x1x256x256, .f32⟩
  | 92 => ⟨S32x1x1, .f32⟩
  | 93 => ⟨S32, .f32⟩
  | 94 => ⟨S1x32x1x1, .f32⟩
  | 95 => ⟨S16x32x256x256, .f32⟩
  | 96 => ⟨S16x32x256x256, .f32⟩
  | 97 => ⟨S16x32x256x256, .f32⟩
  | 98 => ⟨S16x32x256x256, .f32⟩
  | 99 => ⟨S16x256x256, .f32⟩
  | 100 => ⟨S16x1x256x256, .f32⟩
  | 101 => ⟨S32x1x1, .f32⟩
  | 102 => ⟨S32, .f32⟩
  | 103 => ⟨S1x32x1x1, .f32⟩
  | 104 => ⟨S16x32x256x256, .f32⟩
  | 105 => ⟨S16x32x256x256, .f32⟩
  | 106 => ⟨S16x32x256x256, .f32⟩
  | 107 => ⟨S16x32x256x256, .f32⟩
  | 108 => ⟨S16x256x256, .f32⟩
  | 109 => ⟨S16x1x256x256, .f32⟩
  | 110 => ⟨S32x1x1, .f32⟩
  | 111 => ⟨S32, .f32⟩
  | 112 => ⟨S1x32x1x1, .f32⟩
  | 113 => ⟨S16x32x256x256, .f32⟩
  | 114 => ⟨S16x32x256x256, .f32⟩
  | 115 => ⟨S16x32x256x256, .f32⟩
  | 116 => ⟨S16x32x256x256, .f32⟩
  | 117 => ⟨S16x256x256, .f32⟩
  | 118 => ⟨S16x1x256x256, .f32⟩
  | 119 => ⟨S32x1x1, .f32⟩
  | 120 => ⟨S32, .f32⟩
  | 121 => ⟨S1x32x1x1, .f32⟩
  | 122 => ⟨S16x32x256x256, .f32⟩
  | 123 => ⟨S16x32x256x256, .f32⟩
  | 124 => ⟨S16x32x256x256, .f32⟩
  | 125 => ⟨S16x32x256x256, .f32⟩
  | 126 => ⟨S16x256x256, .f32⟩
  | 127 => ⟨S16x1x256x256, .f32⟩
  | _ => ⟨S16x32x256x256, .f32⟩

abbrev hbmTy0_1 (i : Nat) : BufTy := match i % 128 with
  | 0 => ⟨S32x1x1, .f32⟩
  | 1 => ⟨S32, .f32⟩
  | 2 => ⟨S1x32x1x1, .f32⟩
  | 3 => ⟨S16x32x256x256, .f32⟩
  | 4 => ⟨S16x32x256x256, .f32⟩
  | 5 => ⟨S16x32x256x256, .f32⟩
  | 6 => ⟨S16x32x256x256, .f32⟩
  | 7 => ⟨S16x256x256, .f32⟩
  | 8 => ⟨S16x1x256x256, .f32⟩
  | 9 => ⟨S32x1x1, .f32⟩
  | 10 => ⟨S32, .f32⟩
  | 11 => ⟨S1x32x1x1, .f32⟩
  | 12 => ⟨S16x32x256x256, .f32⟩
  | 13 => ⟨S16x32x256x256, .f32⟩
  | 14 => ⟨S16x32x256x256, .f32⟩
  | 15 => ⟨S16x32x256x256, .f32⟩
  | 16 => ⟨S16x256x256, .f32⟩
  | 17 => ⟨S16x1x256x256, .f32⟩
  | 18 => ⟨S32x1x1, .f32⟩
  | 19 => ⟨S32, .f32⟩
  | 20 => ⟨S1x32x1x1, .f32⟩
  | 21 => ⟨S16x32x256x256, .f32⟩
  | 22 => ⟨S16x32x256x256, .f32⟩
  | 23 => ⟨S16x32x256x256, .f32⟩
  | 24 => ⟨S16x32x256x256, .f32⟩
  | 25 => ⟨S16x256x256, .f32⟩
  | 26 => ⟨S16x1x256x256, .f32⟩
  | 27 => ⟨S32x1x1, .f32⟩
  | 28 => ⟨S32, .f32⟩
  | 29 => ⟨S1x32x1x1, .f32⟩
  | 30 => ⟨S16x32x256x256, .f32⟩
  | 31 => ⟨S16x32x256x256, .f32⟩
  | 32 => ⟨S16x32x256x256, .f32⟩
  | 33 => ⟨S16x32x256x256, .f32⟩
  | 34 => ⟨S16x256x256, .f32⟩
  | 35 => ⟨S16x1x256x256, .f32⟩
  | 36 => ⟨S32x1x1, .f32⟩
  | 37 => ⟨S32, .f32⟩
  | 38 => ⟨S1x32x1x1, .f32⟩
  | 39 => ⟨S16x32x256x256, .f32⟩
  | 40 => ⟨S16x32x256x256, .f32⟩
  | 41 => ⟨S16x32x256x256, .f32⟩
  | 42 => ⟨S16x32x256x256, .f32⟩
  | 43 => ⟨S16x256x256, .f32⟩
  | 44 => ⟨S16x1x256x256, .f32⟩
  | 45 => ⟨S32x1x1, .f32⟩
  | 46 => ⟨S32, .f32⟩
  | 47 => ⟨S1x32x1x1, .f32⟩
  | 48 => ⟨S16x32x256x256, .f32⟩
  | 49 => ⟨S16x32x256x256, .f32⟩
  | 50 => ⟨S16x32x256x256, .f32⟩
  | 51 => ⟨S16x32x256x256, .f32⟩
  | 52 => ⟨S16x256x256, .f32⟩
  | 53 => ⟨S16x1x256x256, .f32⟩
  | 54 => ⟨S32x1x1, .f32⟩
  | 55 => ⟨S32, .f32⟩
  | 56 => ⟨S1x32x1x1, .f32⟩
  | 57 => ⟨S16x32x256x256, .f32⟩
  | 58 => ⟨S16x32x256x256, .f32⟩
  | 59 => ⟨S16x32x256x256, .f32⟩
  | 60 => ⟨S16x32x256x256, .f32⟩
  | 61 => ⟨S16x256x256, .f32⟩
  | 62 => ⟨S16x1x256x256, .f32⟩
  | 63 => ⟨S32x1x1, .f32⟩
  | 64 => ⟨S32, .f32⟩
  | 65 => ⟨S1x32x1x1, .f32⟩
  | 66 => ⟨S16x32x256x256, .f32⟩
  | 67 => ⟨S16x32x256x256, .f32⟩
  | 68 => ⟨S16x32x256x256, .f32⟩
  | 69 => ⟨S16x32x256x256, .f32⟩
  | 70 => ⟨S16x256x256, .f32⟩
  | 71 => ⟨S16x1x256x256, .f32⟩
  | 72 => ⟨S32x1x1, .f32⟩
  | 73 => ⟨S32, .f32⟩
  | 74 => ⟨S1x32x1x1, .f32⟩
  | 75 => ⟨S16x32x256x256, .f32⟩
  | 76 => ⟨S16x32x256x256, .f32⟩
  | 77 => ⟨S16x32x256x256, .f32⟩
  | 78 => ⟨S16x32x256x256, .f32⟩
  | 79 => ⟨S16x256x256, .f32⟩
  | 80 => ⟨S16x1x256x256, .f32⟩
  | 81 => ⟨S32x1x1, .f32⟩
  | 82 => ⟨S32, .f32⟩
  | 83 => ⟨S1x32x1x1, .f32⟩
  | 84 => ⟨S16x32x256x256, .f32⟩
  | 85 => ⟨S16x32x256x256, .f32⟩
  | 86 => ⟨S16x32x256x256, .f32⟩
  | 87 => ⟨S16x32x256x256, .f32⟩
  | 88 => ⟨S16x256x256, .f32⟩
  | 89 => ⟨S16x1x256x256, .f32⟩
  | 90 => ⟨S32x1x1, .f32⟩
  | 91 => ⟨S32, .f32⟩
  | 92 => ⟨S1x32x1x1, .f32⟩
  | 93 => ⟨S16x32x256x256, .f32⟩
  | 94 => ⟨S16x32x256x256, .f32⟩
  | 95 => ⟨S16x32x256x256, .f32⟩
  | 96 => ⟨S16x32x256x256, .f32⟩
  | 97 => ⟨S16x256x256, .f32⟩
  | 98 => ⟨S16x1x256x256, .f32⟩
  | 99 => ⟨S32x1x1, .f32⟩
  | 100 => ⟨S32, .f32⟩
  | 101 => ⟨S1x32x1x1, .f32⟩
  | 102 => ⟨S16x32x256x256, .f32⟩
  | 103 => ⟨S16x32x256x256, .f32⟩
  | 104 => ⟨S16x32x256x256, .f32⟩
  | 105 => ⟨S16x32x256x256, .f32⟩
  | _ => ⟨S16x32x256x256, .f32⟩

abbrev hbmTy (i : Nat) : BufTy := match i / 128 with
  | 0 => hbmTy0_0 i
  | 1 => hbmTy0_1 i
  | _ => ⟨S16x32x256x256, .f32⟩

abbrev bufTy : (tb : Table) → Fin (tcTables nBuf tb) → BufTy
  | .hbm, ⟨i, _⟩ => hbmTy i
  | _, _ => ⟨S16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_call0_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩

abbrev nD : Nat := 1
abbrev τ : Topo := Topo.v7x

variable {F : FTy → Type} [FloatOps F]

class Facts₀ : Prop where
  reducesTo_S16x32x256x256_S16x256x256_d1 : S16x32x256x256.ReducesTo [1] S16x256x256
  h_S_ : 0 < S_.numel
  pads_S16x256x256_S16x260x260_000_220_220 : S16x256x256.Pads (![0, 2, 2] : Fin 3 → Nat) ![0, 2, 2] ![0, 0, 0] S16x260x260
  bcast_S_S16x32x256x256 : S_.BroadcastsInDim S16x32x256x256 (![] : Fin 0 → Fin S16x32x256x256.rank)
  slices_S16x260x260_S16x256x256_0_0_0 : S16x260x260.Slices ![0, 0, 0] S16x256x256
  bcast_S16x256x256_S16x1x256x256_0_2_3 : S16x256x256.BroadcastsInDim S16x1x256x256 (![0, 2, 3] : Fin 3 → Fin S16x1x256x256.rank)
  slices_S32x5x5_S32x1x1_0_0_0 : S32x5x5.Slices ![0, 0, 0] S32x1x1
  shapeCasts_S32x1x1_S32 : S32x1x1.ShapeCasts S32
  bcast_S32_S1x32x1x1_1 : S32.BroadcastsInDim S1x32x1x1 (![1] : Fin 1 → Fin S1x32x1x1.rank)
  bcast_S16x1x256x256_S16x32x256x256_0_1_2_3 : S16x1x256x256.BroadcastsInDim S16x32x256x256 (![0, 1, 2, 3] : Fin 4 → Fin S16x32x256x256.rank)
  bcast_S1x32x1x1_S16x32x256x256_0_1_2_3 : S1x32x1x1.BroadcastsInDim S16x32x256x256 (![0, 1, 2, 3] : Fin 4 → Fin S16x32x256x256.rank)
  slices_S16x260x260_S16x256x256_0_0_1 : S16x260x260.Slices ![0, 0, 1] S16x256x256
  slices_S32x5x5_S32x1x1_0_0_1 : S32x5x5.Slices ![0, 0, 1] S32x1x1
  slices_S16x260x260_S16x256x256_0_0_2 : S16x260x260.Slices ![0, 0, 2] S16x256x256
  slices_S32x5x5_S32x1x1_0_0_2 : S32x5x5.Slices ![0, 0, 2] S32x1x1
  slices_S16x260x260_S16x256x256_0_0_3 : S16x260x260.Slices ![0, 0, 3] S16x256x256
  slices_S32x5x5_S32x1x1_0_0_3 : S32x5x5.Slices ![0, 0, 3] S32x1x1
  slices_S16x260x260_S16x256x256_0_0_4 : S16x260x260.Slices ![0, 0, 4] S16x256x256
  slices_S32x5x5_S32x1x1_0_0_4 : S32x5x5.Slices ![0, 0, 4] S32x1x1
  slices_S16x260x260_S16x256x256_0_1_0 : S16x260x260.Slices ![0, 1, 0] S16x256x256
  slices_S32x5x5_S32x1x1_0_1_0 : S32x5x5.Slices ![0, 1, 0] S32x1x1
  slices_S16x260x260_S16x256x256_0_1_1 : S16x260x260.Slices ![0, 1, 1] S16x256x256
  slices_S32x5x5_S32x1x1_0_1_1 : S32x5x5.Slices ![0, 1, 1] S32x1x1
  slices_S16x260x260_S16x256x256_0_1_2 : S16x260x260.Slices ![0, 1, 2] S16x256x256
  slices_S32x5x5_S32x1x1_0_1_2 : S32x5x5.Slices ![0, 1, 2] S32x1x1
  slices_S16x260x260_S16x256x256_0_1_3 : S16x260x260.Slices ![0, 1, 3] S16x256x256
  slices_S32x5x5_S32x1x1_0_1_3 : S32x5x5.Slices ![0, 1, 3] S32x1x1
  slices_S16x260x260_S16x256x256_0_1_4 : S16x260x260.Slices ![0, 1, 4] S16x256x256
  slices_S32x5x5_S32x1x1_0_1_4 : S32x5x5.Slices ![0, 1, 4] S32x1x1
  slices_S16x260x260_S16x256x256_0_2_0 : S16x260x260.Slices ![0, 2, 0] S16x256x256
  slices_S32x5x5_S32x1x1_0_2_0 : S32x5x5.Slices ![0, 2, 0] S32x1x1
  slices_S16x260x260_S16x256x256_0_2_1 : S16x260x260.Slices ![0, 2, 1] S16x256x256
  slices_S32x5x5_S32x1x1_0_2_1 : S32x5x5.Slices ![0, 2, 1] S32x1x1
  slices_S16x260x260_S16x256x256_0_2_2 : S16x260x260.Slices ![0, 2, 2] S16x256x256
  slices_S32x5x5_S32x1x1_0_2_2 : S32x5x5.Slices ![0, 2, 2] S32x1x1
  slices_S16x260x260_S16x256x256_0_2_3 : S16x260x260.Slices ![0, 2, 3] S16x256x256
  slices_S32x5x5_S32x1x1_0_2_3 : S32x5x5.Slices ![0, 2, 3] S32x1x1
  slices_S16x260x260_S16x256x256_0_2_4 : S16x260x260.Slices ![0, 2, 4] S16x256x256
  slices_S32x5x5_S32x1x1_0_2_4 : S32x5x5.Slices ![0, 2, 4] S32x1x1
  slices_S16x260x260_S16x256x256_0_3_0 : S16x260x260.Slices ![0, 3, 0] S16x256x256
  slices_S32x5x5_S32x1x1_0_3_0 : S32x5x5.Slices ![0, 3, 0] S32x1x1
  slices_S16x260x260_S16x256x256_0_3_1 : S16x260x260.Slices ![0, 3, 1] S16x256x256
  slices_S32x5x5_S32x1x1_0_3_1 : S32x5x5.Slices ![0, 3, 1] S32x1x1
  slices_S16x260x260_S16x256x256_0_3_2 : S16x260x260.Slices ![0, 3, 2] S16x256x256
  slices_S32x5x5_S32x1x1_0_3_2 : S32x5x5.Slices ![0, 3, 2] S32x1x1
  slices_S16x260x260_S16x256x256_0_3_3 : S16x260x260.Slices ![0, 3, 3] S16x256x256
  slices_S32x5x5_S32x1x1_0_3_3 : S32x5x5.Slices ![0, 3, 3] S32x1x1
  slices_S16x260x260_S16x256x256_0_3_4 : S16x260x260.Slices ![0, 3, 4] S16x256x256
  slices_S32x5x5_S32x1x1_0_3_4 : S32x5x5.Slices ![0, 3, 4] S32x1x1
  slices_S16x260x260_S16x256x256_0_4_0 : S16x260x260.Slices ![0, 4, 0] S16x256x256
  slices_S32x5x5_S32x1x1_0_4_0 : S32x5x5.Slices ![0, 4, 0] S32x1x1
  slices_S16x260x260_S16x256x256_0_4_1 : S16x260x260.Slices ![0, 4, 1] S16x256x256
  slices_S32x5x5_S32x1x1_0_4_1 : S32x5x5.Slices ![0, 4, 1] S32x1x1
  slices_S16x260x260_S16x256x256_0_4_2 : S16x260x260.Slices ![0, 4, 2] S16x256x256
  slices_S32x5x5_S32x1x1_0_4_2 : S32x5x5.Slices ![0, 4, 2] S32x1x1
  slices_S16x260x260_S16x256x256_0_4_3 : S16x260x260.Slices ![0, 4, 3] S16x256x256
  slices_S32x5x5_S32x1x1_0_4_3 : S32x5x5.Slices ![0, 4, 3] S32x1x1
  slices_S16x260x260_S16x256x256_0_4_4 : S16x260x260.Slices ![0, 4, 4] S16x256x256
  slices_S32x5x5_S32x1x1_0_4_4 : S32x5x5.Slices ![0, 4, 4] S32x1x1

variable [Facts₀]

class Facts : Prop extends Facts₀ where

variable [Facts]
-- ==== Proof.MaxMin.lean ====
/-
  The function both programs compute, stated once over the extended reals, and the order facts that let two
  differently written folds of `max` meet.

  For a batch `b`, an output channel `oc` and a pixel `(i, j)` the result is

      max over the 25 taps (dy, dx) of  min (P (i + dy) (j + dx)) (K oc dy dx),

  folded from the value `z` in row-major tap order, where `P` is the channel maximum of the input (the 32 channels
  folded from `z`), padded by two rows and two columns of `z` on every side. Nothing here needs `z` to be the bottom
  element, nor any finiteness: both programs fold in the same order from the same word.
-/
import Mathlib.Data.EReal.Basic
import Mathlib.Algebra.Order.BigOperators.Group.Finset
import Mathlib.Data.Finset.Fold
import Mathlib.Data.Fin.Basic

noncomputable section

namespace Cert.MaxMin

/-- The 25 taps of the 5 × 5 structuring element, in the order both programs visit them. -/
def taps : List (ℕ × ℕ) :=
  [(0, 0), (0, 1), (0, 2), (0, 3), (0, 4),
   (1, 0), (1, 1), (1, 2), (1, 3), (1, 4),
   (2, 0), (2, 1), (2, 2), (2, 3), (2, 4),
   (3, 0), (3, 1), (3, 2), (3, 3), (3, 4),
   (4, 0), (4, 1), (4, 2), (4, 3), (4, 4)]

/-- One tap's contribution joined onto the running maximum. -/
def tapStep (P K : ℕ → ℕ → EReal) (acc : EReal) (d : ℕ × ℕ) : EReal :=
  max acc (min (P d.1 d.2) (K d.1 d.2))

/-- The max–min convolution at one pixel: the taps folded from `z`, `P dy dx` the padded image at the pixel shifted by
    the tap, `K dy dx` the structuring element's entry. -/
def tapFold (z : EReal) (P K : ℕ → ℕ → EReal) : EReal :=
  taps.foldl (tapStep P K) z

/-- The maximum of `f 0, …, f (n - 1)` folded from `z`, one more term at a time. -/
def maxUpTo (z : EReal) (f : ℕ → EReal) : ℕ → EReal
  | 0 => z
  | n + 1 => max (maxUpTo z f n) (f n)

/-- Folding `max` over `Fin n` in any order is the left-to-right fold. -/
theorem fold_univ_eq_maxUpTo (z : EReal) (f : ℕ → EReal) (n : ℕ) :
    (Finset.univ : Finset (Fin n)).fold max z (fun k => f k.val) = maxUpTo z f n := by
  induction n with
  | zero => simp [maxUpTo]
  | succ n ih =>
    rw [show (Finset.univ : Finset (Fin (n + 1))) = Finset.cons (Fin.last n) (Finset.univ.map Fin.castSuccEmb)
        (by simp) from by
      ext k; simp only [Finset.mem_univ, Finset.mem_cons, Finset.mem_map, Fin.coe_castSuccEmb, true_and, true_iff]
      exact (Fin.eq_castSucc_or_eq_last k).elim (fun ⟨j, hj⟩ => Or.inr ⟨j, hj.symm⟩) Or.inl]
    rw [Finset.fold_cons, Finset.fold_map]
    show max (f n) ((Finset.univ : Finset (Fin n)).fold max z (fun k => f k.val)) = max (maxUpTo z f n) (f n)
    rw [ih, max_comm]

/-- The padded image read at row `r`, column `s` of the 260 × 260 frame: the image inside, `z` on the border. -/
def padded (z : EReal) (f : ℕ → ℕ → EReal) (r s : ℕ) : EReal :=
  if 2 ≤ r ∧ r < 258 ∧ 2 ≤ s ∧ s < 258 then f (r - 2) (s - 2) else z

end Cert.MaxMin

end
-- ==== Proof.Spec.lean ====
/-
  The result array as ONE function of the two argument arrays, index by index, over the extended reals.

  `A0` is the input [n, 32, 256, 256] (n = 16 for the whole array, n = 1 for the block one grid point handles), `A1` the structuring element [32, 5, 5]. At `(b, oc, i, j)` the result is the
  25 taps folded from `z` (Proof/MaxMin.lean `tapFold`) of `min (P (i + dy) (j + dx)) (A1 (oc, dy, dx))`, where `P` is the
  image `img A0 z b` — the 32 channels of batch `b` folded by `max` from `z`, pixel by pixel — padded by two rows and two
  columns of `z` on every side.
-/
import Idealize.ShloMosaic.PureOps.Ideal
import Idealize.ShloMosaic.Lib.ValueIdx
import proofs.«152960_j1606317768738_2_alg».proof.Proof.MaxMin

noncomputable section

namespace Cert.MaxMin

open Idealize.ShloMosaic Idealize.ShloMosaic.ValueIdx

/-- The shape of `n` batches of the input (the whole array has 16; one grid point's block has 1), and the structuring
    element's. -/
abbrev ShIn (n : ℕ) : Shape := ⟨4, ![n, 32, 256, 256]⟩
abbrev ShK : Shape := ⟨3, ![32, 5, 5]⟩

variable {n : ℕ}

/-- Channel `ch` of batch `b` at pixel `(r, s)`, as a total function of natural numbers (`z` outside the array). -/
def chan (A0 : (ShIn n).Idx → EReal) (z : EReal) (b : Fin n) (r s ch : ℕ) : EReal :=
  if h : ch < 32 ∧ r < 256 ∧ s < 256 then A0 (ix4 b ⟨ch, h.1⟩ ⟨r, h.2.1⟩ ⟨s, h.2.2⟩) else z

/-- The channel maximum of batch `b` at pixel `(r, s)`: the 32 channels folded by `max` from `z`. -/
def img (A0 : (ShIn n).Idx → EReal) (z : EReal) (b : Fin n) (r s : ℕ) : EReal :=
  maxUpTo z (chan A0 z b r s) 32

/-- Entry `(oc, dy, dx)` of the structuring element, as a total function of the tap (`z` outside the array). -/
def ker (A1 : ShK.Idx → EReal) (z : EReal) (oc : Fin 32) (dy dx : ℕ) : EReal :=
  if h : dy < 5 ∧ dx < 5 then A1 (ix3 oc ⟨dy, h.1⟩ ⟨dx, h.2⟩) else z

/-- THE RESULT: the max–min convolution of the padded channel maximum with the structuring element. -/
def G (z : EReal) (A0 : (ShIn n).Idx → EReal) (A1 : ShK.Idx → EReal) : (ShIn n).Idx → EReal := fun y =>
  tapFold z (fun dy dx => padded z (img A0 z (y 0)) ((y 2).val + dy) ((y 3).val + dx)) (ker A1 z (y 1))

/-- The result on batch `b` of an array only depends on that batch: it is the result on the one-batch block holding it. -/
theorem G_of_block (z : EReal) {m : ℕ} (A0 : (ShIn n).Idx → EReal) (X0 : (ShIn m).Idx → EReal) (A1 : ShK.Idx → EReal)
    (b : Fin n) (b' : Fin m) (hX : ∀ (ch : Fin 32) (r s : Fin 256), X0 (ix4 b' ch r s) = A0 (ix4 b ch r s))
    (oc : Fin 32) (i j : Fin 256) : G z A0 A1 (ix4 b oc i j) = G z X0 A1 (ix4 b' oc i j) := by
  have hc : chan A0 z b = chan X0 z b' := by
    funext r s ch
    unfold chan
    split_ifs with h
    · exact (hX ⟨ch, h.1⟩ ⟨r, h.2.1⟩ ⟨s, h.2.2⟩).symm
    · rfl
  show tapFold z (fun dy dx => padded z (img A0 z b) (i.val + dy) (j.val + dx)) (ker A1 z oc)
    = tapFold z (fun dy dx => padded z (img X0 z b') (i.val + dy) (j.val + dx)) (ker A1 z oc)
  have hi : img A0 z b = img X0 z b' := by funext r s; unfold img; rw [hc]
  rw [hi]

end Cert.MaxMin

end
-- ==== Proof.KernelOps.lean ====
/-
  The vector operations of the kernel's body read at an index, over the literal shapes of this kernel, and a list of
  stores read at an index.

  One tap of the body is  acc ↦ max acc (min patch tap)  on [8, 256, 256] vectors, where `patch` is the 256 × 256 window
  of the padded image at offset (dy, dx), repeated over the 8 channels of the chunk, and `tap` is entry (·, dy, dx) of the
  chunk's structuring element, repeated over the pixels. Each lemma names what one of these vectors holds at
  (o, r, s): the window at (r + dy, s + dx); the entry (o, dy, dx).
-/
import proofs.«152960_j1606317768738_2_alg».proof.KernelIdeal
import Idealize.ShloMosaic.Lib.Pipeline.Value
import Idealize.ShloMosaic.Lib.ValueIdx

noncomputable section

namespace Cert.KernelIdeal.Ops

open Idealize.ShloMosaic Idealize.ShloMosaic.ValueIdx Cert.KernelIdeal

variable {α : Type}

/-- A [8, 256, 256] vector stored as a [1, 8, 256, 256] block: entry (a, o, r, s) is entry (o, r, s). -/
theorem cast_addUnit (v : S8x256x256.Idx → α) (h : S8x256x256.ShapeCasts S1x8x256x256) (a : Fin 1) (o : Fin 8) (r s : Fin 256) :
    shapeCast S1x8x256x256 v h (ix4 a o r s) = v (ix3 o r s) := by
  refine shapeCast_apply v h _ _ ?_
  rw [Shape.rowMajor_val_three, Shape.rowMajor_val_four]
  have := a.isLt
  show (o.val * 256 + r.val) * 256 + s.val = ((a.val * 8 + o.val) * 256 + r.val) * 256 + s.val
  omega

/-- A [1, 8, 256, 256] block read as a [8, 256, 256] vector: entry (o, r, s) is entry (0, o, r, s). -/
theorem cast_dropUnit (v : S1x8x256x256.Idx → α) (h : S1x8x256x256.ShapeCasts S8x256x256) (o : Fin 8) (r s : Fin 256) :
    shapeCast S8x256x256 v h (ix3 o r s) = v (ix4 0 o r s) := by
  refine shapeCast_apply v h _ _ ?_
  rw [Shape.rowMajor_val_three, Shape.rowMajor_val_four]
  show (((0 : Fin 1).val * 8 + o.val) * 256 + r.val) * 256 + s.val = (o.val * 256 + r.val) * 256 + s.val
  simp

/-- A window of the padded image fits: its offsets are at most 4. -/
theorem window_le {dy dx : ℕ} (h : S260x260.Slices ![dy, dx] S256x256) : dy + 256 ≤ 260 ∧ dx + 256 ≤ 260 :=
  ⟨h.2 0, h.2 1⟩

/-- A tap of the structuring element is one of the 5 × 5. -/
theorem tap_le {dy dx : ℕ} (h : S8x5x5.Slices ![0, dy, dx] S8x1x1) : dy + 1 ≤ 5 ∧ dx + 1 ≤ 5 :=
  ⟨h.2 1, h.2 2⟩

/-- The 256 × 256 window of the padded image at offset (dy, dx), repeated over the 8 channels, holds at (o, r, s) the
    padded image at (r + dy, s + dx). -/
theorem window_apply (dy dx : ℕ) (V : S260x260.Idx → α) (h2 : S260x260.Slices ![dy, dx] S256x256)
    (h3 : S256x256.ShapeCasts S1x256x256) (h4 : S1x256x256.Broadcasts S8x256x256) (o : Fin 8) (r s : Fin 256) :
    broadcastTo S8x256x256 (shapeCast S1x256x256 (extractStridedSlice S256x256 ![dy, dx] V h2) h3) h4 (ix3 o r s)
      = V (ix2 ⟨r.val + dy, by have := (window_le h2).1; omega⟩ ⟨s.val + dx, by have := (window_le h2).2; omega⟩) := by
  rw [broadcastTo_apply _ h4 (ix3 o r s) (ix3 0 r s) (fun a => by
    match a with
    | ⟨0, _⟩ => rfl
    | ⟨1, _⟩ => rfl
    | ⟨2, _⟩ => rfl)]
  rw [shapeCast_apply _ h3 (ix3 0 r s) (ix2 r s) (by
    rw [Shape.rowMajor_val_two, Shape.rowMajor_val_three]
    show r.val * 256 + s.val = ((0 : Fin 1).val * 256 + r.val) * 256 + s.val
    simp)]
  exact extractStridedSlice_apply _ V h2 (ix2 r s) _ (fun a => by
    match a with
    | ⟨0, _⟩ => show r.val + dy = dy + r.val; omega
    | ⟨1, _⟩ => show s.val + dx = dx + s.val; omega)

/-- Entry (·, dy, dx) of the chunk's structuring element, repeated over the pixels, holds at (o, r, s) the entry
    (o, dy, dx). -/
theorem tap_apply (dy dx : ℕ) (K : S8x5x5.Idx → α) (h5 : S8x5x5.Slices ![0, dy, dx] S8x1x1) (h6 : S8x1x1.ShapeCasts S8)
    (h7 : S8.ShapeCasts S8x1x1) (h8 : S8x1x1.Broadcasts S8x256x256) (o : Fin 8) (r s : Fin 256) :
    broadcastTo S8x256x256 (shapeCast S8x1x1 (shapeCast S8 (extractStridedSlice S8x1x1 ![0, dy, dx] K h5) h6) h7) h8 (ix3 o r s)
      = K (ix3 o ⟨dy, by have := (tap_le h5).1; omega⟩ ⟨dx, by have := (tap_le h5).2; omega⟩) := by
  rw [broadcastTo_apply _ h8 (ix3 o r s) (ix3 o 0 0) (fun a => by
    match a with
    | ⟨0, _⟩ => rfl
    | ⟨1, _⟩ => rfl
    | ⟨2, _⟩ => rfl)]
  rw [shapeCast_apply _ h7 (ix3 o 0 0) (ix1 o) (by
    rw [Shape.rowMajor_val_one, Shape.rowMajor_val_three]
    show o.val = (o.val * 1 + (0 : Fin 1).val) * 1 + (0 : Fin 1).val
    simp)]
  rw [shapeCast_apply _ h6 (ix1 o) (ix3 o 0 0) (by
    rw [Shape.rowMajor_val_one, Shape.rowMajor_val_three]
    show (o.val * 1 + (0 : Fin 1).val) * 1 + (0 : Fin 1).val = o.val
    simp)]
  exact extractStridedSlice_apply _ K h5 (ix3 o 0 0) _ (fun a => by
    match a with
    | ⟨0, _⟩ => show o.val = 0 + o.val; omega
    | ⟨1, _⟩ => show dy = dy + (0 : Fin 1).val; simp
    | ⟨2, _⟩ => show dx = dx + (0 : Fin 1).val; simp)

end Cert.KernelIdeal.Ops

end
-- ==== Proof.KernelImage.lean ====
/-
  The padded channel maximum the kernel's body computes before its taps, read at an index.

  The body folds the 32 channels of its input block into a running maximum, one channel per trip of a counted loop, from
  minus infinity; it then frames the 256 × 256 result with two rows and two columns of minus infinity on every side. So the
  framed image at (a, b) is the channel maximum at (a - 2, b - 2) inside the frame and minus infinity on it.
-/
import proofs.«152960_j1606317768738_2_alg».proof.Proof.Gen.KernelIdeal.Frame
import proofs.«152960_j1606317768738_2_alg».proof.Proof.Spec
import proofs.«152960_j1606317768738_2_alg».proof.Proof.KernelOps
import Idealize.ShloMosaic.Lib.Pipeline.Value
import Idealize.ShloMosaic.Lib.ValueIdx

set_option maxRecDepth 16384

noncomputable section

namespace Cert.KernelIdeal.Image

open Idealize.ShloMosaic Idealize.ShloMosaic.TcCoe Idealize.SL.Sem Idealize.ShloMosaic.ValueIdx
open Cert.KernelIdeal Cert.KernelIdeal.Gen Cert.MaxMin

/-- The word both programs fold from: minus infinity. -/
abbrev z : EReal := FloatOps.ofBits (F := Ideal) .f32 0xFF800000#32

variable (c : Dev nD) (i : grid0.Coords) (arg1 : Memref sig .tc .vmem S1x32x256x256 .f32) (harg1 : arg1.IsWhole) (arg2 : Memref sig .tc .vmem S32x5x5 .f32) (harg2 : arg2.IsWhole) (arg3 : Memref sig .tc .vmem S1x32x256x256 .f32) (harg3 : arg3.IsWhole)
variable (x0 : Vec Ideal S1x32x256x256 .f32)

theorem trips_le : k0_t1_loop.trips ≤ 32 := k0_t1_abs.2.1

/-- One trip of the channel loop joins channel `k` of the block onto the running maximum, pixel by pixel. -/
theorem trip_apply (k : Fin k0_t1_loop.trips) (acc : FVec Ideal S256x256 .f32) (a b : Fin 256) :
    tripR_k0_t1 (F := Ideal) Variants.none c none i arg1 harg1 arg2 harg2 arg3 harg3 (harg1.unread x0) k acc (ix2 a b)
      = max (acc (ix2 a b)) (x0 (ix4 0 ⟨k.val, Nat.lt_of_lt_of_le k.isLt trips_le⟩ a b)) := by
  unfold tripR_k0_t1 trip_k0_t1
  dsimp only
  unfold k0_pay3
  simp only [maximumf_apply]
  congr 1
  rw [shapeCast_apply _ _ (ix2 a b) (ix4 0 0 a b) (by
    rw [Shape.rowMajor_val_two, Shape.rowMajor_val_four]
    show ((((0 : Fin 1).val * 1 + (0 : Fin 1).val) * 256 + a.val) * 256 + b.val) = a.val * 256 + b.val
    simp)]
  rw [View.readAt_apply, harg1.read_unread]
  congr 1
  funext d
  apply Fin.ext
  rw [LoadRect.idx_apply]
  simp only [Rect.off_unit, Rect.stride_unit, k0_off1_eq]
  match d with
  | ⟨0, _⟩ => rfl
  | ⟨1, _⟩ => show k.val + 1 * (0 : Fin 1).val = k.val; simp
  | ⟨2, _⟩ => show 0 + 1 * a.val = a.val; omega
  | ⟨3, _⟩ => show 0 + 1 * b.val = b.val; omega

/-- A column-wise concatenation of widths 2, 256, 2 read at column `b`: the piece the column falls in. -/
theorem cols_apply (X : S260x2.Idx → EReal) (Y : S260x256.Idx → EReal) (Z : S260x2.Idx → EReal) (a b : ℕ) (ha : a < 260) (hb : b < 260) :
    concatenate S260x260 1 [⟨S260x2, X⟩, ⟨S260x256, Y⟩, ⟨S260x2, Z⟩] concatenates_S260x2_S260x256_S260x2_S260x260_d1 (ix2 ⟨a, ha⟩ ⟨b, hb⟩)
      = if h1 : b < 2 then X (ix2 ⟨a, ha⟩ ⟨b, h1⟩)
        else if h2 : b < 258 then Y (ix2 ⟨a, ha⟩ ⟨b - 2, by omega⟩)
        else Z (ix2 ⟨a, ha⟩ ⟨b - 258, by omega⟩) := by
  split_ifs with h1 h2
  · exact concatenate_apply_piece (t := S260x260) (1 : Fin 2) [⟨S260x2, X⟩, ⟨S260x256, Y⟩, ⟨S260x2, Z⟩] concatenates_S260x2_S260x256_S260x2_S260x260_d1
      (ix2 ⟨a, ha⟩ ⟨b, hb⟩) 0 (by simp) S260x2 X rfl rfl 0 rfl (ix2 ⟨a, ha⟩ ⟨b, h1⟩)
      (fun d hd => by match d with | ⟨0, _⟩ => rfl | ⟨1, _⟩ => exact absurd rfl hd) (by show 0 + b = b; omega)
  · exact concatenate_apply_piece (t := S260x260) (1 : Fin 2) [⟨S260x2, X⟩, ⟨S260x256, Y⟩, ⟨S260x2, Z⟩] concatenates_S260x2_S260x256_S260x2_S260x260_d1
      (ix2 ⟨a, ha⟩ ⟨b, hb⟩) 1 (by simp) S260x256 Y rfl rfl 2 rfl (ix2 ⟨a, ha⟩ ⟨b - 2, by omega⟩)
      (fun d hd => by match d with | ⟨0, _⟩ => rfl | ⟨1, _⟩ => exact absurd rfl hd) (by show 2 + (b - 2) = b; omega)
  · exact concatenate_apply_piece (t := S260x260) (1 : Fin 2) [⟨S260x2, X⟩, ⟨S260x256, Y⟩, ⟨S260x2, Z⟩] concatenates_S260x2_S260x256_S260x2_S260x260_d1
      (ix2 ⟨a, ha⟩ ⟨b, hb⟩) 2 (by simp) S260x2 Z rfl rfl 258 rfl (ix2 ⟨a, ha⟩ ⟨b - 258, by omega⟩)
      (fun d hd => by match d with | ⟨0, _⟩ => rfl | ⟨1, _⟩ => exact absurd rfl hd) (by show 258 + (b - 258) = b; omega)

/-- A row-wise concatenation of heights 2, 256, 2 read at row `a`: the piece the row falls in. -/
theorem rows_apply (X : S2x256.Idx → EReal) (Y : S256x256.Idx → EReal) (Z : S2x256.Idx → EReal) (a b : ℕ) (ha : a < 260) (hb : b < 256) :
    concatenate S260x256 0 [⟨S2x256, X⟩, ⟨S256x256, Y⟩, ⟨S2x256, Z⟩] concatenates_S2x256_S256x256_S2x256_S260x256_d0 (ix2 ⟨a, ha⟩ ⟨b, hb⟩)
      = if h1 : a < 2 then X (ix2 ⟨a, h1⟩ ⟨b, hb⟩)
        else if h2 : a < 258 then Y (ix2 ⟨a - 2, by omega⟩ ⟨b, hb⟩)
        else Z (ix2 ⟨a - 258, by omega⟩ ⟨b, hb⟩) := by
  split_ifs with h1 h2
  · exact concatenate_apply_piece (t := S260x256) (0 : Fin 2) [⟨S2x256, X⟩, ⟨S256x256, Y⟩, ⟨S2x256, Z⟩] concatenates_S2x256_S256x256_S2x256_S260x256_d0
      (ix2 ⟨a, ha⟩ ⟨b, hb⟩) 0 (by simp) S2x256 X rfl rfl 0 rfl (ix2 ⟨a, h1⟩ ⟨b, hb⟩)
      (fun d hd => by match d with | ⟨0, _⟩ => exact absurd rfl hd | ⟨1, _⟩ => rfl) (by show 0 + a = a; omega)
  · exact concatenate_apply_piece (t := S260x256) (0 : Fin 2) [⟨S2x256, X⟩, ⟨S256x256, Y⟩, ⟨S2x256, Z⟩] concatenates_S2x256_S256x256_S2x256_S260x256_d0
      (ix2 ⟨a, ha⟩ ⟨b, hb⟩) 1 (by simp) S256x256 Y rfl rfl 2 rfl (ix2 ⟨a - 2, by omega⟩ ⟨b, hb⟩)
      (fun d hd => by match d with | ⟨0, _⟩ => exact absurd rfl hd | ⟨1, _⟩ => rfl) (by show 2 + (a - 2) = a; omega)
  · exact concatenate_apply_piece (t := S260x256) (0 : Fin 2) [⟨S2x256, X⟩, ⟨S256x256, Y⟩, ⟨S2x256, Z⟩] concatenates_S2x256_S256x256_S2x256_S260x256_d0
      (ix2 ⟨a, ha⟩ ⟨b, hb⟩) 2 (by simp) S2x256 Z rfl rfl 258 rfl (ix2 ⟨a - 258, by omega⟩ ⟨b, hb⟩)
      (fun d hd => by match d with | ⟨0, _⟩ => exact absurd rfl hd | ⟨1, _⟩ => rfl) (by show 258 + (a - 258) = a; omega)

/-- The framed image at (a, b): the image at (a - 2, b - 2) inside the frame, minus infinity on the frame. -/
theorem frame_apply (V : FVec Ideal S256x256 .f32) (a b : ℕ) (ha : a < 260) (hb : b < 260) :
    k0_pay4 (F := Ideal) V (ix2 ⟨a, ha⟩ ⟨b, hb⟩)
      = padded z (fun r s => if h : r < 256 ∧ s < 256 then V (ix2 ⟨r, h.1⟩ ⟨s, h.2⟩) else z) a b := by
  unfold k0_pay4 padded
  dsimp only
  rw [cols_apply]
  by_cases hin : 2 ≤ a ∧ a < 258 ∧ 2 ≤ b ∧ b < 258
  · obtain ⟨h1, h2, h3, h4⟩ := hin
    have e1 : ¬ b < 2 := by omega
    have e2 : ¬ a < 2 := by omega
    rw [if_pos ⟨h1, h2, h3, h4⟩, dif_neg e1, dif_pos h4, rows_apply, dif_neg e2, dif_pos h2,
      dif_pos (⟨by omega, by omega⟩ : a - 2 < 256 ∧ b - 2 < 256)]
  · rw [if_neg hin]
    split_ifs with hb1 hb2
    · rfl
    · rw [rows_apply]
      split_ifs with ha1 ha2
      · rfl
      · exact absurd ⟨by omega, ha2, by omega, hb2⟩ hin
      · rfl
    · rfl

theorem trips_eq : k0_t1_loop.trips = 32 := by decide

/-- The channel loop's carried value before trip `k`, pixel by pixel: the first `k` channels folded from minus infinity. -/
theorem st_apply (k : ℕ) (hk : k ≤ k0_t1_loop.trips) (a b : Fin 256) :
    st_k0_t1 (F := Ideal) Variants.none c none i arg1 harg1 arg2 harg2 arg3 harg3 (harg1.unread x0) k0_pay2 k (ix2 a b)
      = maxUpTo z (chan x0 z 0 a.val b.val) k := by
  induction k with
  | zero => rfl
  | succ k ih =>
    have hk' : k < k0_t1_loop.trips := hk
    have e := st_k0_t1_succ (F := Ideal) Variants.none c none i arg1 harg1 arg2 harg2 arg3 harg3 (harg1.unread x0) k0_pay2 ⟨k, hk'⟩
    rw [show (⟨k, hk'⟩ : Fin k0_t1_loop.trips).val + 1 = k + 1 from rfl] at e
    rw [e, trip_apply, ih (Nat.le_of_lt hk')]
    show max _ _ = max (maxUpTo z (chan x0 z 0 a.val b.val) k) (chan x0 z 0 a.val b.val k)
    congr 1
    unfold chan
    rw [dif_pos ⟨Nat.lt_of_lt_of_le hk' trips_le, a.isLt, b.isLt⟩]

/-- The padding only reads the image inside the 256 × 256 square. -/
theorem padded_congr (f g : ℕ → ℕ → EReal) (h : ∀ r s, r < 256 → s < 256 → f r s = g r s) (a b : ℕ) :
    padded z f a b = padded z g a b := by
  unfold padded
  split_ifs with hh
  · exact h _ _ (by omega) (by omega)
  · rfl

/-- THE FRAMED CHANNEL MAXIMUM the taps read: at (a, b) the specification's padded image of the block. -/
theorem padimg_apply (a b : ℕ) (ha : a < 260) (hb : b < 260) :
    k0_pay4 (F := Ideal) (st_k0_t1 (F := Ideal) Variants.none c none i arg1 harg1 arg2 harg2 arg3 harg3 (harg1.unread x0) k0_pay2 k0_t1_loop.trips)
        (ix2 ⟨a, ha⟩ ⟨b, hb⟩)
      = padded z (img x0 z 0) a b := by
  rw [frame_apply]
  refine padded_congr _ _ (fun r s hr hs => ?_) a b
  rw [dif_pos ⟨hr, hs⟩]
  rw [st_apply c i arg1 harg1 arg2 harg2 arg3 harg3 x0 _ (Nat.le_refl _) ⟨r, hr⟩ ⟨s, hs⟩, trips_eq]
  rfl

/-- The framed channel maximum with the loop's trip count spelt as the number 32. -/
theorem padimg32_apply (a b : ℕ) (ha : a < 260) (hb : b < 260) :
    k0_pay4 (F := Ideal) (st_k0_t1 (F := Ideal) Variants.none c none i arg1 harg1 arg2 harg2 arg3 harg3 (harg1.unread x0) k0_pay2 32)
        (ix2 ⟨a, ha⟩ ⟨b, hb⟩)
      = padded z (img x0 z 0) a b := by
  have h := padimg_apply c i arg1 harg1 arg2 harg2 arg3 harg3 x0 a b ha hb
  rwa [trips_eq] at h

/-- The chunk of the structuring element the body loads for output channels `c8 … c8 + 7`, at (o, dy, dx): the
    specification's entry (c8 + o, dy, dx). -/
theorem ker_apply (x1 : Vec Ideal S32x5x5 .f32) (c8 : ℕ)
    (inb : ∀ a, (![c8, 0, 0] : Fin 3 → ℕ) a + (![8, 5, 5] : Fin 3 → ℕ) a ≤ S32x5x5.size a) (o : Fin 8) (dy dx : ℕ) (hdy : dy < 5) (hdx : dx < 5) :
    View.readAt (Elt Ideal) arg2.view (Rect.unit (s := S32x5x5) ![c8, 0, 0] ![8, 5, 5] inb).toLoadRect (harg2.unread x1)
        (ix3 o ⟨dy, hdy⟩ ⟨dx, hdx⟩)
      = ker x1 z ⟨c8 + o.val, by have h0 : c8 + 8 ≤ 32 := inb 0; omega⟩ dy dx := by
  rw [View.readAt_apply, harg2.read_unread]
  unfold ker
  rw [dif_pos ⟨hdy, hdx⟩]
  congr 1
  funext d
  apply Fin.ext
  rw [LoadRect.idx_apply]
  match d with
  | ⟨0, _⟩ => show c8 + 1 * o.val = c8 + o.val; omega
  | ⟨1, _⟩ => show 0 + 1 * dy = dy; omega
  | ⟨2, _⟩ => show 0 + 1 * dx = dx; omega

end Cert.KernelIdeal.Image

end
-- ==== Proof.KernelBlock.lean ====
/-
  What the kernel's body leaves in its output block, index by index: the specification's function of the two input
  blocks.

  The body treats the 32 output channels in four chunks of 8. For a chunk it stores minus infinity, and then, tap by
  tap, loads the chunk back, joins  min (window of the framed image at the tap) (the tap's entry)  onto it by max, and
  stores it again: 26 stores per chunk, each through the chunk's own rectangle, each load reading what the store before
  it wrote. So the last store of a chunk holds the 25 taps folded from minus infinity in the order the body visits them,
  and later chunks never touch it.
-/
import proofs.«152960_j1606317768738_2_alg».proof.Proof.Gen.KernelIdeal.Frame
import proofs.«152960_j1606317768738_2_alg».proof.Proof.Spec
import proofs.«152960_j1606317768738_2_alg».proof.Proof.KernelOps
import proofs.«152960_j1606317768738_2_alg».proof.Proof.KernelImage
import Idealize.ShloMosaic.Lib.Pipeline.Value
import Idealize.ShloMosaic.Lib.ValueIdx
import Lean

set_option maxRecDepth 16384

open Lean Elab Tactic Meta in
/-- One round: every name the body's run introduced for an intermediate value (a constant `….sl.<name>`) is replaced in
    the goal by its definition; the definition's own such names are left for the next round. -/
elab "unfold_run_names_once" : tactic => do
  let g ← getMainGoal
  let isRunName (n : Name) : Bool := n.components.dropLast.any (· == `sl)
  let t ← instantiateMVars (← g.getType)
  let t' ← Core.transform t (pre := fun e => do
    match (← Meta.delta? e isRunName) with
    | some e' => return .done e'
    | none => return .continue)
  replaceMainGoal [← g.replaceTargetDefEq t']

open Lean Elab Tactic Meta in
/-- Every payload of the body (`k0_payN`; not the three that make the framed image, `k0_pay2`, `k0_pay3`, `k0_pay4`) is
    replaced in the goal by its definition. -/
elab "unfold_payloads" : tactic => do
  let g ← getMainGoal
  let keep : List String := ["k0_pay2", "k0_pay3", "k0_pay4"]
  let isPay (n : Name) : Bool := match n with
    | .str _ last => last.startsWith "k0_pay" && !keep.contains last
    | _ => false
  let t ← instantiateMVars (← g.getType)
  let t' ← Meta.deltaExpand t isPay
  replaceMainGoal [← g.replaceTargetDefEq t']

noncomputable section

namespace Cert.KernelIdeal.Block

open Idealize.ShloMosaic Idealize.ShloMosaic.TcCoe Idealize.SL.Sem Idealize.ShloMosaic.ValueIdx
open Cert.KernelIdeal Cert.KernelIdeal.Gen Cert.KernelIdeal.Ops Cert.KernelIdeal.Image Cert.MaxMin

/-- The contents a list of stores leaves, at an index the LAST store covers: that store's value there. -/
theorem canon_head {S : Shape} {e : EltTy} {Val : EltTy → Type} [∀ e, Nonempty (Val e)] (off sz : Fin S.rank → ℕ) (inb : ∀ a, off a + sz a ≤ S.size a)
    (w : (Rect.unit off sz inb).shape.Idx → Val e) (L : List (View.Piece Val S e)) (x : (Rect.unit off sz inb).shape.Idx) (y : S.Idx)
    (hy : ∀ a, (y a : ℕ) = off a + (x a : ℕ)) : View.canon (⟨Rect.unit off sz inb, w⟩ :: L) y = w x := by
  have : y = (Rect.unit off sz inb).emb x := funext fun a => Fin.ext (by rw [hy a, Rect.emb_apply]; simp)
  rw [this]; exact View.canon_cons_emb _ w L x

/-- … and at an index below the last store's rectangle on some axis: what the stores before it left. -/
theorem canon_skip {S : Shape} {e : EltTy} {Val : EltTy → Type} [∀ e, Nonempty (Val e)] (off sz : Fin S.rank → ℕ) (inb : ∀ a, off a + sz a ≤ S.size a)
    (w : (Rect.unit off sz inb).shape.Idx → Val e) (L : List (View.Piece Val S e)) (y : S.Idx) (a : Fin S.rank)
    (h : (y a : ℕ) < off a) : View.canon (⟨Rect.unit off sz inb, w⟩ :: L) y = View.canon L y :=
  View.canon_cons_of_not_mem _ L (fun hm => by
    have hm' : y ∈ (Rect.unit off sz inb).set := hm
    have := (Rect.mem_set_unit (inb := inb)).mp hm' a
    omega)

/-- The specification at a block index, spelt over its coordinates. -/
theorem G_apply (x0 : Vec Ideal S1x32x256x256 .f32) (x1 : Vec Ideal S32x5x5 .f32) (b : Fin 1) (oc : Fin 32) (r s : Fin 256) :
    G z x0 x1 (ix4 b oc r s) = tapFold z (fun dy dx => padded z (img x0 z b) (r.val + dy) (s.val + dx)) (ker x1 z oc) := rfl

/-- Peel the stores of one chunk, last first: a load through the rectangle of the store before it reads that store's value,
    and each value is read at the index. -/
macro "peel_step" : tactic => `(tactic| (unfold_run_names_once; unfold_payloads; simp only [cast_addUnit, cast_dropUnit, maximumf_apply, minimumf_apply, window_apply, tap_apply, broadcast_apply, View.readCov_cons_toLoadRect]))

variable (c : Dev nD) (i : grid0.Coords) (arg1 : Memref sig .tc .vmem S1x32x256x256 .f32) (harg1 : arg1.IsWhole) (arg2 : Memref sig .tc .vmem S32x5x5 .f32) (harg2 : arg2.IsWhole) (arg3 : Memref sig .tc .vmem S1x32x256x256 .f32) (harg3 : arg3.IsWhole)
variable (x0 : Vec Ideal S1x32x256x256 .f32) (x1 : Vec Ideal S32x5x5 .f32)

/-- The last chunk (output channels 24 … 31): its 26 stores are the last 26 of the body. -/
theorem out_chunk3 (o : Fin 8) (r s : Fin 256) :
    out0_A_2 (F := Ideal) c i arg1 harg1 arg2 harg2 arg3 harg3 x0 x1 (ix4 0 ⟨24 + o.val, by omega⟩ r s)
      = G z x0 x1 (ix4 0 ⟨24 + o.val, by omega⟩ r s) := by
  unfold out0_A_2
  rw [View.read_writes_eq_canon _ _ _ (cover0_A_2 c i arg1 harg1 arg2 harg2 arg3 harg3 x0 x1)]
  unfold kernelRun0_A
  dsimp only
  first
    | refine (canon_head _ _ _ _ _ (ix4 0 o r s) _ (fun a => by
          match a with
          | ⟨0, _⟩ => rfl
          | ⟨1, _⟩ => rfl
          | ⟨2, _⟩ => show r.val = 0 + r.val; omega
          | ⟨3, _⟩ => show s.val = 0 + s.val; omega)).trans ?_
    | (unfold_run_names_once
       refine (canon_head _ _ _ _ _ (ix4 0 o r s) _ (fun a => by
           match a with
           | ⟨0, _⟩ => rfl
           | ⟨1, _⟩ => rfl
           | ⟨2, _⟩ => show r.val = 0 + r.val; omega
           | ⟨3, _⟩ => show s.val = 0 + s.val; omega)).trans ?_)
  repeat peel_step
  rw [show Scf.trips (0#32) (Scalar.addi 0#32 32#32) 1#32 = 32 from by decide]
  have key := padimg32_apply c i arg1 harg1 arg2 harg2 arg3 harg3 x0
  simp only [ker_apply, key]
  rw [G_apply]
  simp only [tapFold, taps, List.foldl, tapStep]

/-- The third chunk (output channels 16 … 23): the 26 stores of the last chunk lie above it and are passed over. -/
theorem out_chunk2 (o : Fin 8) (r s : Fin 256) :
    out0_A_2 (F := Ideal) c i arg1 harg1 arg2 harg2 arg3 harg3 x0 x1 (ix4 0 ⟨16 + o.val, by omega⟩ r s)
      = G z x0 x1 (ix4 0 ⟨16 + o.val, by omega⟩ r s) := by
  unfold out0_A_2
  rw [View.read_writes_eq_canon _ _ _ (cover0_A_2 c i arg1 harg1 arg2 harg2 arg3 harg3 x0 x1)]
  unfold kernelRun0_A
  dsimp only
  iterate 26 (first
    | refine (canon_skip _ _ _ _ _ _ (1 : Fin 4) (by omega : 16 + o.val < 24)).trans ?_
    | (unfold_run_names_once; refine (canon_skip _ _ _ _ _ _ (1 : Fin 4) (by omega : 16 + o.val < 24)).trans ?_))
  first
    | refine (canon_head _ _ _ _ _ (ix4 0 o r s) _ (fun a => by
          match a with
          | ⟨0, _⟩ => rfl
          | ⟨1, _⟩ => rfl
          | ⟨2, _⟩ => show r.val = 0 + r.val; omega
          | ⟨3, _⟩ => show s.val = 0 + s.val; omega)).trans ?_
    | (unfold_run_names_once
       refine (canon_head _ _ _ _ _ (ix4 0 o r s) _ (fun a => by
           match a with
           | ⟨0, _⟩ => rfl
           | ⟨1, _⟩ => rfl
           | ⟨2, _⟩ => show r.val = 0 + r.val; omega
           | ⟨3, _⟩ => show s.val = 0 + s.val; omega)).trans ?_)
  repeat peel_step
  rw [show Scf.trips (0#32) (Scalar.addi 0#32 32#32) 1#32 = 32 from by decide]
  have key := padimg32_apply c i arg1 harg1 arg2 harg2 arg3 harg3 x0
  simp only [ker_apply, key]
  rw [G_apply]
  simp only [tapFold, taps, List.foldl, tapStep]

/-- The second chunk (output channels 8 … 15): the 52 stores of the two chunks above it are passed over. -/
theorem out_chunk1 (o : Fin 8) (r s : Fin 256) :
    out0_A_2 (F := Ideal) c i arg1 harg1 arg2 harg2 arg3 harg3 x0 x1 (ix4 0 ⟨8 + o.val, by omega⟩ r s)
      = G z x0 x1 (ix4 0 ⟨8 + o.val, by omega⟩ r s) := by
  unfold out0_A_2
  rw [View.read_writes_eq_canon _ _ _ (cover0_A_2 c i arg1 harg1 arg2 harg2 arg3 harg3 x0 x1)]
  unfold kernelRun0_A
  dsimp only
  iterate 26 (first
    | refine (canon_skip _ _ _ _ _ _ (1 : Fin 4) (by omega : 8 + o.val < 24)).trans ?_
    | (unfold_run_names_once; refine (canon_skip _ _ _ _ _ _ (1 : Fin 4) (by omega : 8 + o.val < 24)).trans ?_))
  iterate 26 (first
    | refine (canon_skip _ _ _ _ _ _ (1 : Fin 4) (by omega : 8 + o.val < 16)).trans ?_
    | (unfold_run_names_once; refine (canon_skip _ _ _ _ _ _ (1 : Fin 4) (by omega : 8 + o.val < 16)).trans ?_))
  first
    | refine (canon_head _ _ _ _ _ (ix4 0 o r s) _ (fun a => by
          match a with
          | ⟨0, _⟩ => rfl
          | ⟨1, _⟩ => rfl
          | ⟨2, _⟩ => show r.val = 0 + r.val; omega
          | ⟨3, _⟩ => show s.val = 0 + s.val; omega)).trans ?_
    | (unfold_run_names_once
       refine (canon_head _ _ _ _ _ (ix4 0 o r s) _ (fun a => by
           match a with
           | ⟨0, _⟩ => rfl
           | ⟨1, _⟩ => rfl
           | ⟨2, _⟩ => show r.val = 0 + r.val; omega
           | ⟨3, _⟩ => show s.val = 0 + s.val; omega)).trans ?_)
  repeat peel_step
  rw [show Scf.trips (0#32) (Scalar.addi 0#32 32#32) 1#32 = 32 from by decide]
  have key := padimg32_apply c i arg1 harg1 arg2 harg2 arg3 harg3 x0
  simp only [ker_apply, key]
  rw [G_apply]
  simp only [tapFold, taps, List.foldl, tapStep]

/-- The first chunk (output channels 0 … 7): the 78 stores of the three chunks above it are passed over. -/
theorem out_chunk0 (o : Fin 8) (r s : Fin 256) :
    out0_A_2 (F := Ideal) c i arg1 harg1 arg2 harg2 arg3 harg3 x0 x1 (ix4 0 ⟨0 + o.val, by omega⟩ r s)
      = G z x0 x1 (ix4 0 ⟨0 + o.val, by omega⟩ r s) := by
  unfold out0_A_2
  rw [View.read_writes_eq_canon _ _ _ (cover0_A_2 c i arg1 harg1 arg2 harg2 arg3 harg3 x0 x1)]
  unfold kernelRun0_A
  dsimp only
  iterate 26 (first
    | refine (canon_skip _ _ _ _ _ _ (1 : Fin 4) (by omega : 0 + o.val < 24)).trans ?_
    | (unfold_run_names_once; refine (canon_skip _ _ _ _ _ _ (1 : Fin 4) (by omega : 0 + o.val < 24)).trans ?_))
  iterate 26 (first
    | refine (canon_skip _ _ _ _ _ _ (1 : Fin 4) (by omega : 0 + o.val < 16)).trans ?_
    | (unfold_run_names_once; refine (canon_skip _ _ _ _ _ _ (1 : Fin 4) (by omega : 0 + o.val < 16)).trans ?_))
  iterate 26 (first
    | refine (canon_skip _ _ _ _ _ _ (1 : Fin 4) (by omega : 0 + o.val < 8)).trans ?_
    | (unfold_run_names_once; refine (canon_skip _ _ _ _ _ _ (1 : Fin 4) (by omega : 0 + o.val < 8)).trans ?_))
  first
    | refine (canon_head _ _ _ _ _ (ix4 0 o r s) _ (fun a => by
          match a with
          | ⟨0, _⟩ => rfl
          | ⟨1, _⟩ => rfl
          | ⟨2, _⟩ => show r.val = 0 + r.val; omega
          | ⟨3, _⟩ => show s.val = 0 + s.val; omega)).trans ?_
    | (unfold_run_names_once
       refine (canon_head _ _ _ _ _ (ix4 0 o r s) _ (fun a => by
           match a with
           | ⟨0, _⟩ => rfl
           | ⟨1, _⟩ => rfl
           | ⟨2, _⟩ => show r.val = 0 + r.val; omega
           | ⟨3, _⟩ => show s.val = 0 + s.val; omega)).trans ?_)
  repeat peel_step
  rw [show Scf.trips (0#32) (Scalar.addi 0#32 32#32) 1#32 = 32 from by decide]
  have key := padimg32_apply c i arg1 harg1 arg2 harg2 arg3 harg3 x0
  simp only [ker_apply, key]
  rw [G_apply]
  simp only [tapFold, taps, List.foldl, tapStep]

/-- WHAT THE BODY LEAVES IN ITS OUTPUT BLOCK: the specification's function of the two input blocks. -/
theorem out_block : out0_A_2 (F := Ideal) c i arg1 harg1 arg2 harg2 arg3 harg3 x0 x1 = G z x0 x1 := by
  funext y
  obtain ⟨a, oc, r, s, rfl⟩ : ∃ (a : Fin 1) (oc : Fin 32) (r s : Fin 256), y = ix4 a oc r s := ⟨y 0, y 1, y 2, y 3, eq_ix4 y⟩
  obtain rfl : a = 0 := Subsingleton.elim _ _
  have hoc : oc.val < 32 := oc.isLt
  by_cases h1 : oc.val < 8
  · have e : oc = ⟨0 + (⟨oc.val, h1⟩ : Fin 8).val, by omega⟩ := Fin.ext (by simp)
    rw [e]; exact out_chunk0 c i arg1 harg1 arg2 harg2 arg3 harg3 x0 x1 ⟨oc.val, h1⟩ r s
  · by_cases h2 : oc.val < 16
    · have e : oc = ⟨8 + (⟨oc.val - 8, by omega⟩ : Fin 8).val, by omega⟩ := Fin.ext (by simp; omega)
      rw [e]; exact out_chunk1 c i arg1 harg1 arg2 harg2 arg3 harg3 x0 x1 ⟨oc.val - 8, by omega⟩ r s
    · by_cases h3 : oc.val < 24
      · have e : oc = ⟨16 + (⟨oc.val - 16, by omega⟩ : Fin 8).val, by omega⟩ := Fin.ext (by simp; omega)
        rw [e]; exact out_chunk2 c i arg1 harg1 arg2 harg2 arg3 harg3 x0 x1 ⟨oc.val - 16, by omega⟩ r s
      · have e : oc = ⟨24 + (⟨oc.val - 24, by omega⟩ : Fin 8).val, by omega⟩ := Fin.ext (by simp; omega)
        rw [e]; exact out_chunk3 c i arg1 harg1 arg2 harg2 arg3 harg3 x0 x1 ⟨oc.val - 24, by omega⟩ r s

end Cert.KernelIdeal.Block

end
-- ==== Proof.KernelArray.lean ====
/-
  From what each grid point writes back to the whole result array.

  Grid point `t` stages batch `t` of the input (its block is the [1, 32, 256, 256] slab at block index (t, 0, 0, 0)) and the
  whole structuring element, and writes back batch `t` of the output. The body's output block is the specification's
  function of its input blocks (Proof/KernelBlock.lean), and that function at batch `t` only reads batch `t` of the input
  (Proof/Spec.lean `G_of_block`): so point `t` writes back block `t` of ONE array, `G` of the two arguments. The 16 blocks
  cover the array, so the array after the run is `G` of the arguments.
-/
import proofs.«152960_j1606317768738_2_alg».proof.Proof.Gen.KernelIdeal.Value
import proofs.«152960_j1606317768738_2_alg».proof.Proof.Spec
import proofs.«152960_j1606317768738_2_alg».proof.Proof.KernelImage
import proofs.«152960_j1606317768738_2_alg».proof.Proof.KernelBlock
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Image Cert.KernelIdeal.Block Cert.MaxMin

variable (m : (ℓ : Loc nD τ sig) → Buf (Elt Ideal) ℓ) (ρ : Dev nD → PrngReg)

/-- The two argument arrays of core `c`. -/
abbrev A0 (c : Dev nD) : S16x32x256x256.Idx → EReal := m ((c : Thread nD τ).loc main_arg0)
abbrev A1 (c : Dev nD) : S32x5x5.Idx → EReal := m ((c : Thread nD τ).loc main_arg1)

/-- The printed index maps, decided over the 16 grid points: point `t` stages batch `t` of the input and of the output,
    whole; the structuring element is staged whole at every point. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem t_lt (t : Fin cfg0.N) : t.val < 16 := Nat.lt_of_lt_of_le t.isLt (Nat.le_of_eq N_0)

/-- The input block of point `t` is batch `t` of the input array. -/
theorem iblk0_apply (c : Dev nD) (t : Fin cfg0.N) (ch : Fin 32) (r s : Fin 256) :
    (iblk m c 0 t : Vec Ideal S1x32x256x256 .f32) (ix4 0 ch r s) = A0 m c (ix4 ⟨t.val, t_lt t⟩ ch r s) := by
  obtain ⟨e0, e1, e2, e3, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * (0 : Fin 1).val = t.val; rw [e0]; simp
  | ⟨1, _⟩ => show win0_0.index t (1 : Fin 4) * 32 + 1 * ch.val = ch.val; rw [e1]; omega
  | ⟨2, _⟩ => show win0_0.index t (2 : Fin 4) * 256 + 1 * r.val = r.val; rw [e2]; omega
  | ⟨3, _⟩ => show win0_0.index t (3 : Fin 4) * 256 + 1 * s.val = s.val; rw [e3]; omega

/-- The structuring element's block at every point is the whole array. -/
theorem iblk1_eq (c : Dev nD) (t : Fin cfg0.N) : (iblk m c 1 t : Vec Ideal S32x5x5 .f32) = A1 m c := by
  obtain ⟨-, -, -, -, e0, e1, e2, -⟩ := idx_facts t
  funext y
  unfold iblk
  rw [View.read_apply]
  show V m c main_arg1 _ = m ((c : Thread nD τ).loc main_arg1) _
  unfold V
  congr 1
  funext a
  apply Fin.ext
  match a with
  | ⟨0, _⟩ => show win0_1.index t (0 : Fin 3) * 32 + 1 * (y 0).val = (y 0).val; rw [e0]; omega
  | ⟨1, _⟩ => show win0_1.index t (1 : Fin 3) * 5 + 1 * (y 1).val = (y 1).val; rw [e1]; omega
  | ⟨2, _⟩ => show win0_1.index t (2 : Fin 3) * 5 + 1 * (y 2).val = (y 2).val; rw [e2]; omega

/-- A block-shaped array is what the output window cuts out of a whole array as soon as the two agree along the block's
    embedding into the array. -/
theorem cut_eq_read (t : Fin cfg0.N) (X : S1x32x256x256.Idx → EReal) (Y : S16x32x256x256.Idx → EReal)
    (h : ∀ j : S1x32x256x256.Idx, X j = Y (((cfg0.win 2).blk t).view.emb j)) :
    (cfg0.win 2).cut (grid0.coords t) X = ((cfg0.win 2).blk t).view.read (Elt Ideal) Y := by
  funext j
  exact h j

/-- WHAT POINT `t` WRITES BACK is block `t` of the specification's function of the two argument arrays. -/
theorem flushed_eq (c : Dev nD) (t : Fin cfg0.N) :
    (dats m 0 c).flushed 2 t = ((cfg0.win 2).blk t).view.read (Elt Ideal) (G z (A0 m c) (A1 m c)) := by
  obtain ⟨-, -, -, -, -, -, -, e0, e1, e2, e3⟩ := idx_facts t
  rw [flushed2_A, out_block, iblk1_eq]
  refine cut_eq_read t _ _ (fun j => ?_)
  obtain ⟨a, oc, r, s, rfl⟩ : ∃ (a : Fin 1) (oc : Fin 32) (r s : Fin 256), j = ix4 a oc r s := ⟨j 0, j 1, j 2, j 3, eq_ix4 j⟩
  show G z (iblk m c 0 t : Vec Ideal S1x32x256x256 .f32) (A1 m c) (ix4 a oc r s) = G z (A0 m c) (A1 m c) (((cfg0.win 2).blk t).view.emb (ix4 a oc r s))
  obtain rfl : a = 0 := Subsingleton.elim _ _
  have hemb : ((cfg0.win 2).blk t).view.emb (ix4 0 oc r s) = ix4 ⟨t.val, t_lt t⟩ oc r s := by
    funext d
    apply Fin.ext
    match d with
    | ⟨0, _⟩ => show win0_2.index t (0 : Fin 4) * 1 + 1 * (0 : Fin 1).val = t.val; rw [e0]; simp
    | ⟨1, _⟩ => show win0_2.index t (1 : Fin 4) * 32 + 1 * oc.val = oc.val; rw [e1]; omega
    | ⟨2, _⟩ => show win0_2.index t (2 : Fin 4) * 256 + 1 * r.val = r.val; rw [e2]; omega
    | ⟨3, _⟩ => show win0_2.index t (3 : Fin 4) * 256 + 1 * s.val = s.val; rw [e3]; omega
  rw [hemb]
  exact (G_of_block z (A0 m c) (iblk m c 0 t : Vec Ideal S1x32x256x256 .f32) (A1 m c) ⟨t.val, t_lt t⟩ 0
    (fun ch r s => iblk0_apply m c t ch r s) oc r s).symm

/-- An index of the output array is in point `t`'s block iff each coordinate is in the block's range on its axis. -/
theorem mem_blk (t : Fin cfg0.N) (i : S16x32x256x256.Idx) :
    i ∈ ((cfg0.win 2).blk t).view.set ↔ ∀ a : Fin 4, win0_2.index t a * S1x32x256x256.size a ≤ (i a).val ∧ (i a).val < win0_2.index t a * S1x32x256x256.size a + S1x32x256x256.size a := by
  show i ∈ ((View.whole main_v0).slice (win0_2.rect t)).set ↔ _
  rw [View.set_slice_whole, Rect.mem_set_unit]
  exact Iff.rfl

/-- Every index of the output array is in the block of the point its batch names. -/
theorem cover (i : S16x32x256x256.Idx) : ∃ t : Fin cfg0.N, (cfg0.win 2).flush t = true ∧ i ∈ ((cfg0.win 2).blk t).view.set := by
  have h0 : (i 0).val < 16 := (i 0).isLt
  have h1 : (i 1).val < 32 := (i 1).isLt
  have h2 : (i 2).val < 256 := (i 2).isLt
  have h3 : (i 3).val < 256 := (i 3).isLt
  let t : Fin cfg0.N := ⟨(i 0).val, by rw [show cfg0.N = 16 from N_0]; exact h0⟩
  obtain ⟨-, -, -, -, -, -, -, e0, e1, e2, e3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; rw [e0]; show (i 0).val * 1 ≤ (i 0).val ∧ (i 0).val < (i 0).val * 1 + 1; omega
  | ⟨1, _⟩ => show win0_2.index t (1 : Fin 4) * 32 ≤ (i 1).val ∧ (i 1).val < win0_2.index t (1 : Fin 4) * 32 + 32; rw [e1]; omega
  | ⟨2, _⟩ => show win0_2.index t (2 : Fin 4) * 256 ≤ (i 2).val ∧ (i 2).val < win0_2.index t (2 : Fin 4) * 256 + 256; rw [e2]; omega
  | ⟨3, _⟩ => show win0_2.index t (3 : Fin 4) * 256 ≤ (i 3).val ∧ (i 3).val < win0_2.index t (3 : Fin 4) * 256 + 256; rw [e3]; omega

/-- THE ARRAY after the run is the specification's function of the argument arrays. -/
theorem final (c : Dev nD) : (dats m 0 c).arrAt 2 cfg0.N = G z (A0 m c) (A1 m c) :=
  (dats m 0 c).arrAt_eq_of_cover 2 (G z (A0 m c) (A1 m c)) (fun t _ => flushed_eq m c t) cover

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = G z (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefRun.lean ====
/-
  The reference program's run, read back.

  The reference is a straight line of 232 host operations: a reduce of the input over its channel axis by `max` from
  minus infinity, a pad of the result by two rows and two columns of minus infinity, a constant array of minus infinity,
  and then 25 groups of nine operations, one group per tap `(dy, dx)` of the 5 × 5 structuring element in row-major
  order: cut the window of the padded image shifted by the tap, cut the structuring element's entry of the tap,
  broadcast both to the result's shape, take their minimum, and join it by `max` onto the running result.

  The operations are listed group by group (`pre`, `tap0` … `tap24`; two groups are cut where the printed program
  cuts them, between its parts), the program is the line of all of them in order, and the buffer contents after the whole
  line are read one group at a time: a group leaves the padded image and the two arguments as they were and puts
  `tapTerm` of the padded image, the structuring element and the running result in its last buffer. So the result
  buffer ends at `refTerm` of the two arguments — 25 nested `tapTerm`s over the array of minus infinity.
-/
import proofs.«152960_j1606317768738_2_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure terms -/

/-- The array of minus infinity the running result starts from. -/
def zTerm : (⟨S16x32x256x256, .f32⟩ : BufTy).Contents (Elt F) :=
  broadcastInDim S16x32x256x256 ![] bcast_S_S16x32x256x256 (constant S_ .f32 0xFF800000#32)

/-- The channel maximum of the input: its 32 channels folded by `max` from minus infinity. -/
def redTerm (A0 : (⟨S16x32x256x256, .f32⟩ : BufTy).Contents (Elt F)) : (⟨S16x256x256, .f32⟩ : BufTy).Contents (Elt F) :=
  Host.reduce FloatOps.maximumf A0 (constant S_ .f32 0xFF800000#32) reducesTo_S16x32x256x256_S16x256x256_d1 h_S_

/-- The channel maximum framed by two rows and two columns of minus infinity on every side. -/
def padTerm (A0 : (⟨S16x32x256x256, .f32⟩ : BufTy).Contents (Elt F)) : (⟨S16x260x260, .f32⟩ : BufTy).Contents (Elt F) :=
  pad S16x260x260 ![0, 2, 2] ![0, 2, 2] ![0, 0, 0] (redTerm A0) (id (constant S_ .f32 0xFF800000#32)) pads_S16x256x256_S16x260x260_000_220_220 h_S_

/-- One tap joined onto the running result `acc`: the window of the padded image `P` at offset `o1` and the entry of the
    structuring element `K` at offset `o2`, both broadcast to the result's shape, their minimum, and its `max` with `acc`. -/
def tapTerm (o1 : Fin S16x260x260.rank → Nat) (o2 : Fin S32x5x5.rank → Nat)
    (h1 : S16x260x260.Slices o1 S16x256x256) (h2 : S32x5x5.Slices o2 S32x1x1)
    (P : (⟨S16x260x260, .f32⟩ : BufTy).Contents (Elt F)) (K : (⟨S32x5x5, .f32⟩ : BufTy).Contents (Elt F)) (acc : (⟨S16x32x256x256, .f32⟩ : BufTy).Contents (Elt F)) : (⟨S16x32x256x256, .f32⟩ : BufTy).Contents (Elt F) :=
  maximumf acc (minimumf
    (broadcastInDim S16x32x256x256 ![0, 1, 2, 3] bcast_S16x1x256x256_S16x32x256x256_0_1_2_3 (broadcastInDim S16x1x256x256 ![0, 2, 3] bcast_S16x256x256_S16x1x256x256_0_2_3 (extractStridedSlice S16x256x256 o1 P h1)))
    (broadcastInDim S16x32x256x256 ![0, 1, 2, 3] bcast_S1x32x1x1_S16x32x256x256_0_1_2_3 (broadcastInDim S1x32x1x1 ![1] bcast_S32_S1x32x1x1_1 (shapeCast _ (extractStridedSlice S32x1x1 o2 K h2) shapeCasts_S32x1x1_S32))))

/-- The 25 taps joined in row-major order onto the array of minus infinity, over a padded image `P` and a structuring element `K`. -/
def chainTerm (P : (⟨S16x260x260, .f32⟩ : BufTy).Contents (Elt F)) (K : (⟨S32x5x5, .f32⟩ : BufTy).Contents (Elt F)) : (⟨S16x32x256x256, .f32⟩ : BufTy).Contents (Elt F) :=
  tapTerm ![0, 4, 4] ![0, 4, 4] slices_S16x260x260_S16x256x256_0_4_4 slices_S32x5x5_S32x1x1_0_4_4 P K
    (tapTerm ![0, 4, 3] ![0, 4, 3] slices_S16x260x260_S16x256x256_0_4_3 slices_S32x5x5_S32x1x1_0_4_3 P K
    (tapTerm ![0, 4, 2] ![0, 4, 2] slices_S16x260x260_S16x256x256_0_4_2 slices_S32x5x5_S32x1x1_0_4_2 P K
    (tapTerm ![0, 4, 1] ![0, 4, 1] slices_S16x260x260_S16x256x256_0_4_1 slices_S32x5x5_S32x1x1_0_4_1 P K
    (tapTerm ![0, 4, 0] ![0, 4, 0] slices_S16x260x260_S16x256x256_0_4_0 slices_S32x5x5_S32x1x1_0_4_0 P K
    (tapTerm ![0, 3, 4] ![0, 3, 4] slices_S16x260x260_S16x256x256_0_3_4 slices_S32x5x5_S32x1x1_0_3_4 P K
    (tapTerm ![0, 3, 3] ![0, 3, 3] slices_S16x260x260_S16x256x256_0_3_3 slices_S32x5x5_S32x1x1_0_3_3 P K
    (tapTerm ![0, 3, 2] ![0, 3, 2] slices_S16x260x260_S16x256x256_0_3_2 slices_S32x5x5_S32x1x1_0_3_2 P K
    (tapTerm ![0, 3, 1] ![0, 3, 1] slices_S16x260x260_S16x256x256_0_3_1 slices_S32x5x5_S32x1x1_0_3_1 P K
    (tapTerm ![0, 3, 0] ![0, 3, 0] slices_S16x260x260_S16x256x256_0_3_0 slices_S32x5x5_S32x1x1_0_3_0 P K
    (tapTerm ![0, 2, 4] ![0, 2, 4] slices_S16x260x260_S16x256x256_0_2_4 slices_S32x5x5_S32x1x1_0_2_4 P K
    (tapTerm ![0, 2, 3] ![0, 2, 3] slices_S16x260x260_S16x256x256_0_2_3 slices_S32x5x5_S32x1x1_0_2_3 P K
    (tapTerm ![0, 2, 2] ![0, 2, 2] slices_S16x260x260_S16x256x256_0_2_2 slices_S32x5x5_S32x1x1_0_2_2 P K
    (tapTerm ![0, 2, 1] ![0, 2, 1] slices_S16x260x260_S16x256x256_0_2_1 slices_S32x5x5_S32x1x1_0_2_1 P K
    (tapTerm ![0, 2, 0] ![0, 2, 0] slices_S16x260x260_S16x256x256_0_2_0 slices_S32x5x5_S32x1x1_0_2_0 P K
    (tapTerm ![0, 1, 4] ![0, 1, 4] slices_S16x260x260_S16x256x256_0_1_4 slices_S32x5x5_S32x1x1_0_1_4 P K
    (tapTerm ![0, 1, 3] ![0, 1, 3] slices_S16x260x260_S16x256x256_0_1_3 slices_S32x5x5_S32x1x1_0_1_3 P K
    (tapTerm ![0, 1, 2] ![0, 1, 2] slices_S16x260x260_S16x256x256_0_1_2 slices_S32x5x5_S32x1x1_0_1_2 P K
    (tapTerm ![0, 1, 1] ![0, 1, 1] slices_S16x260x260_S16x256x256_0_1_1 slices_S32x5x5_S32x1x1_0_1_1 P K
    (tapTerm ![0, 1, 0] ![0, 1, 0] slices_S16x260x260_S16x256x256_0_1_0 slices_S32x5x5_S32x1x1_0_1_0 P K
    (tapTerm ![0, 0, 4] ![0, 0, 4] slices_S16x260x260_S16x256x256_0_0_4 slices_S32x5x5_S32x1x1_0_0_4 P K
    (tapTerm ![0, 0, 3] ![0, 0, 3] slices_S16x260x260_S16x256x256_0_0_3 slices_S32x5x5_S32x1x1_0_0_3 P K
    (tapTerm ![0, 0, 2] ![0, 0, 2] slices_S16x260x260_S16x256x256_0_0_2 slices_S32x5x5_S32x1x1_0_0_2 P K
    (tapTerm ![0, 0, 1] ![0, 0, 1] slices_S16x260x260_S16x256x256_0_0_1 slices_S32x5x5_S32x1x1_0_0_1 P K
    (tapTerm ![0, 0, 0] ![0, 0, 0] slices_S16x260x260_S16x256x256_0_0_0 slices_S32x5x5_S32x1x1_0_0_0 P K
    (zTerm)))))))))))))))))))))))))

/-- THE REFERENCE'S RESULT as a term of its two arguments. -/
def refTerm (A0 : (⟨S16x32x256x256, .f32⟩ : BufTy).Contents (Elt F)) (A1 : (⟨S32x5x5, .f32⟩ : BufTy).Contents (Elt F)) : (⟨S16x32x256x256, .f32⟩ : BufTy).Contents (Elt F) :=
  chainTerm (padTerm A0) A1

/-! ## The operations, group by group -/

/-- The channel maximum, its padding, and the array of minus infinity. -/
def pre : List (HloOp τ sig (Elt F)) :=
  [ nullary main_cst (constant S_ .f32 0xFF800000#32),
    binary main_arg0 main_cst main_v0 ((fun x v => Host.reduce FloatOps.maximumf x v reducesTo_S16x32x256x256_S16x256x256_d1 h_S_) : (⟨S16x32x256x256, .f32⟩ : BufTy).Contents (Elt F) → (⟨S_, .f32⟩ : BufTy).Contents (Elt F) → (⟨S16x256x256, .f32⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.binary (TRef.of (T := ⟨S16x256x256, .f32⟩) main_v0) (TRef.of (T := ⟨S_, .f32⟩) main_call0_v0) (TRef.of (T := ⟨S16x260x260, .f32⟩) main_v1) (fun x v => pad S16x260x260 ![0, 2, 2] ![0, 2, 2] ![0, 0, 0] x v pads_S16x256x256_S16x260x260_000_220_220 h_S_),
    nullary main_cst_1 (constant S_ .f32 0xFF800000#32),
    unary main_cst_1 main_v2 (broadcastInDim S16x32x256x256 ![] bcast_S_S16x32x256x256 : (⟨S_, .f32⟩ : BufTy).Contents (Elt F) → (⟨S16x32x256x256, .f32⟩ : BufTy).Contents (Elt F)) ]

/-- Tap (0, 0). -/
def tap0 : List (HloOp τ sig (Elt F)) :=
  [ unary main_v1 main_v3 ((extractStridedSlice S16x256x256 ![0, 0, 0] · slices_S16x260x260_S16x256x256_0_0_0) : (⟨S16x260x260, .f32⟩ : BufTy).Contents (Elt F) → (⟨S16x256x256, .f32⟩ : BufTy).Contents (Elt F)),
    unary main_v3 main_v4 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v5 ((extractStridedSlice S32x1x1 ![0, 0, 0] · slices_S32x5x5_S32x1x1_0_0_0) : (⟨S32x5x5, .f32⟩ : BufTy).Contents (Elt F) → (⟨S32x1x1, .f32⟩ : BufTy).Contents (Elt F)),
    reshape main_v5 main_v6 rfl shapeCasts_S32x1x1_S32,
    unary main_v6 main_v7 (broadcastInDim S1x32x1x1 ![1] bcast_S32_S1x32x1x1_1 : (⟨S32, .f32⟩ : BufTy).Contents (Elt F) → (⟨S1x32x1x1, .f32⟩ : BufTy).Contents (Elt F)),
    unary main_v4 main_v8 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v7 main_v9 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v8 main_v9 main_v10 (minimumf : (⟨S16x32x256x256, .f32⟩ : BufTy).Contents (Elt F) → (⟨S16x32x256x256, .f32⟩ : BufTy).Contents (Elt F) → (⟨S16x32x256x256, .f32⟩ : BufTy).Contents (Elt F)),
    binary main_v2 main_v10 main_v11 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (0, 1). -/
def tap1 : List (HloOp τ sig (Elt F)) :=
  [ unary main_v1 main_v12 ((extractStridedSlice S16x256x256 ![0, 0, 1] · slices_S16x260x260_S16x256x256_0_0_1) : (⟨S16x260x260, .f32⟩ : BufTy).Contents (Elt F) → (⟨S16x256x256, .f32⟩ : BufTy).Contents (Elt F)),
    unary main_v12 main_v13 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v14 ((extractStridedSlice S32x1x1 ![0, 0, 1] · slices_S32x5x5_S32x1x1_0_0_1) : (⟨S32x5x5, .f32⟩ : BufTy).Contents (Elt F) → (⟨S32x1x1, .f32⟩ : BufTy).Contents (Elt F)),
    reshape main_v14 main_v15 rfl shapeCasts_S32x1x1_S32,
    unary main_v15 main_v16 (broadcastInDim S1x32x1x1 ![1] bcast_S32_S1x32x1x1_1 : (⟨S32, .f32⟩ : BufTy).Contents (Elt F) → (⟨S1x32x1x1, .f32⟩ : BufTy).Contents (Elt F)),
    unary main_v13 main_v17 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v16 main_v18 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v17 main_v18 main_v19 (minimumf : (⟨S16x32x256x256, .f32⟩ : BufTy).Contents (Elt F) → (⟨S16x32x256x256, .f32⟩ : BufTy).Contents (Elt F) → (⟨S16x32x256x256, .f32⟩ : BufTy).Contents (Elt F)),
    binary main_v11 main_v19 main_v20 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (0, 2). -/
def tap2 : List (HloOp τ sig (Elt F)) :=
  [ unary main_v1 main_v21 ((extractStridedSlice S16x256x256 ![0, 0, 2] · slices_S16x260x260_S16x256x256_0_0_2) : (⟨S16x260x260, .f32⟩ : BufTy).Contents (Elt F) → (⟨S16x256x256, .f32⟩ : BufTy).Contents (Elt F)),
    unary main_v21 main_v22 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v23 ((extractStridedSlice S32x1x1 ![0, 0, 2] · slices_S32x5x5_S32x1x1_0_0_2) : (⟨S32x5x5, .f32⟩ : BufTy).Contents (Elt F) → (⟨S32x1x1, .f32⟩ : BufTy).Contents (Elt F)),
    reshape main_v23 main_v24 rfl shapeCasts_S32x1x1_S32,
    unary main_v24 main_v25 (broadcastInDim S1x32x1x1 ![1] bcast_S32_S1x32x1x1_1 : (⟨S32, .f32⟩ : BufTy).Contents (Elt F) → (⟨S1x32x1x1, .f32⟩ : BufTy).Contents (Elt F)),
    unary main_v22 main_v26 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v25 main_v27 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v26 main_v27 main_v28 (minimumf : (⟨S16x32x256x256, .f32⟩ : BufTy).Contents (Elt F) → (⟨S16x32x256x256, .f32⟩ : BufTy).Contents (Elt F) → (⟨S16x32x256x256, .f32⟩ : BufTy).Contents (Elt F)),
    binary main_v20 main_v28 main_v29 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (0, 3). -/
def tap3 : List (HloOp τ sig (Elt F)) :=
  [ unary main_v1 main_v30 ((extractStridedSlice S16x256x256 ![0, 0, 3] · slices_S16x260x260_S16x256x256_0_0_3) : (⟨S16x260x260, .f32⟩ : BufTy).Contents (Elt F) → (⟨S16x256x256, .f32⟩ : BufTy).Contents (Elt F)),
    unary main_v30 main_v31 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v32 ((extractStridedSlice S32x1x1 ![0, 0, 3] · slices_S32x5x5_S32x1x1_0_0_3) : (⟨S32x5x5, .f32⟩ : BufTy).Contents (Elt F) → (⟨S32x1x1, .f32⟩ : BufTy).Contents (Elt F)),
    reshape main_v32 main_v33 rfl shapeCasts_S32x1x1_S32,
    unary main_v33 main_v34 (broadcastInDim S1x32x1x1 ![1] bcast_S32_S1x32x1x1_1 : (⟨S32, .f32⟩ : BufTy).Contents (Elt F) → (⟨S1x32x1x1, .f32⟩ : BufTy).Contents (Elt F)),
    unary main_v31 main_v35 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v34 main_v36 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v35 main_v36 main_v37 (minimumf : (⟨S16x32x256x256, .f32⟩ : BufTy).Contents (Elt F) → (⟨S16x32x256x256, .f32⟩ : BufTy).Contents (Elt F) → (⟨S16x32x256x256, .f32⟩ : BufTy).Contents (Elt F)),
    binary main_v29 main_v37 main_v38 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (0, 4). -/
def tap4 : List (HloOp τ sig (Elt F)) :=
  [ unary main_v1 main_v39 ((extractStridedSlice S16x256x256 ![0, 0, 4] · slices_S16x260x260_S16x256x256_0_0_4) : (⟨S16x260x260, .f32⟩ : BufTy).Contents (Elt F) → (⟨S16x256x256, .f32⟩ : BufTy).Contents (Elt F)),
    unary main_v39 main_v40 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v41 ((extractStridedSlice S32x1x1 ![0, 0, 4] · slices_S32x5x5_S32x1x1_0_0_4) : (⟨S32x5x5, .f32⟩ : BufTy).Contents (Elt F) → (⟨S32x1x1, .f32⟩ : BufTy).Contents (Elt F)),
    reshape main_v41 main_v42 rfl shapeCasts_S32x1x1_S32,
    unary main_v42 main_v43 (broadcastInDim S1x32x1x1 ![1] bcast_S32_S1x32x1x1_1 : (⟨S32, .f32⟩ : BufTy).Contents (Elt F) → (⟨S1x32x1x1, .f32⟩ : BufTy).Contents (Elt F)),
    unary main_v40 main_v44 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v43 main_v45 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v44 main_v45 main_v46 (minimumf : (⟨S16x32x256x256, .f32⟩ : BufTy).Contents (Elt F) → (⟨S16x32x256x256, .f32⟩ : BufTy).Contents (Elt F) → (⟨S16x32x256x256, .f32⟩ : BufTy).Contents (Elt F)),
    binary main_v38 main_v46 main_v47 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (1, 0). -/
def tap5 : List (HloOp τ sig (Elt F)) :=
  [ unary main_v1 main_v48 ((extractStridedSlice S16x256x256 ![0, 1, 0] · slices_S16x260x260_S16x256x256_0_1_0) : (⟨S16x260x260, .f32⟩ : BufTy).Contents (Elt F) → (⟨S16x256x256, .f32⟩ : BufTy).Contents (Elt F)),
    unary main_v48 main_v49 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v50 ((extractStridedSlice S32x1x1 ![0, 1, 0] · slices_S32x5x5_S32x1x1_0_1_0) : (⟨S32x5x5, .f32⟩ : BufTy).Contents (Elt F) → (⟨S32x1x1, .f32⟩ : BufTy).Contents (Elt F)),
    reshape main_v50 main_v51 rfl shapeCasts_S32x1x1_S32,
    unary main_v51 main_v52 (broadcastInDim S1x32x1x1 ![1] bcast_S32_S1x32x1x1_1 : (⟨S32, .f32⟩ : BufTy).Contents (Elt F) → (⟨S1x32x1x1, .f32⟩ : BufTy).Contents (Elt F)),
    unary main_v49 main_v53 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v52 main_v54 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v53 main_v54 main_v55 (minimumf : (⟨S16x32x256x256, .f32⟩ : BufTy).Contents (Elt F) → (⟨S16x32x256x256, .f32⟩ : BufTy).Contents (Elt F) → (⟨S16x32x256x256, .f32⟩ : BufTy).Contents (Elt F)),
    binary main_v47 main_v55 main_v56 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (1, 1). -/
def tap6 : List (HloOp τ sig (Elt F)) :=
  [ unary main_v1 main_v57 ((extractStridedSlice S16x256x256 ![0, 1, 1] · slices_S16x260x260_S16x256x256_0_1_1) : (⟨S16x260x260, .f32⟩ : BufTy).Contents (Elt F) → (⟨S16x256x256, .f32⟩ : BufTy).Contents (Elt F)),
    unary main_v57 main_v58 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v59 ((extractStridedSlice S32x1x1 ![0, 1, 1] · slices_S32x5x5_S32x1x1_0_1_1) : (⟨S32x5x5, .f32⟩ : BufTy).Contents (Elt F) → (⟨S32x1x1, .f32⟩ : BufTy).Contents (Elt F)),
    reshape main_v59 main_v60 rfl shapeCasts_S32x1x1_S32,
    unary main_v60 main_v61 (broadcastInDim S1x32x1x1 ![1] bcast_S32_S1x32x1x1_1 : (⟨S32, .f32⟩ : BufTy).Contents (Elt F) → (⟨S1x32x1x1, .f32⟩ : BufTy).Contents (Elt F)),
    unary main_v58 main_v62 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v61 main_v63 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v62 main_v63 main_v64 (minimumf : (⟨S16x32x256x256, .f32⟩ : BufTy).Contents (Elt F) → (⟨S16x32x256x256, .f32⟩ : BufTy).Contents (Elt F) → (⟨S16x32x256x256, .f32⟩ : BufTy).Contents (Elt F)),
    binary main_v56 main_v64 main_v65 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (1, 2). -/
def tap7 : List (HloOp τ sig (Elt F)) :=
  [ unary main_v1 main_v66 ((extractStridedSlice S16x256x256 ![0, 1, 2] · slices_S16x260x260_S16x256x256_0_1_2) : (⟨S16x260x260, .f32⟩ : BufTy).Contents (Elt F) → (⟨S16x256x256, .f32⟩ : BufTy).Contents (Elt F)),
    unary main_v66 main_v67 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v68 ((extractStridedSlice S32x1x1 ![0, 1, 2] · slices_S32x5x5_S32x1x1_0_1_2) : (⟨S32x5x5, .f32⟩ : BufTy).Contents (Elt F) → (⟨S32x1x1, .f32⟩ : BufTy).Contents (Elt F)),
    reshape main_v68 main_v69 rfl shapeCasts_S32x1x1_S32,
    unary main_v69 main_v70 (broadcastInDim S1x32x1x1 ![1] bcast_S32_S1x32x1x1_1 : (⟨S32, .f32⟩ : BufTy).Contents (Elt F) → (⟨S1x32x1x1, .f32⟩ : BufTy).Contents (Elt F)),
    unary main_v67 main_v71 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v70 main_v72 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v71 main_v72 main_v73 (minimumf : (⟨S16x32x256x256, .f32⟩ : BufTy).Contents (Elt F) → (⟨S16x32x256x256, .f32⟩ : BufTy).Contents (Elt F) → (⟨S16x32x256x256, .f32⟩ : BufTy).Contents (Elt F)),
    binary main_v65 main_v73 main_v74 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (1, 3). -/
def tap8 : List (HloOp τ sig (Elt F)) :=
  [ unary main_v1 main_v75 ((extractStridedSlice S16x256x256 ![0, 1, 3] · slices_S16x260x260_S16x256x256_0_1_3) : (⟨S16x260x260, .f32⟩ : BufTy).Contents (Elt F) → (⟨S16x256x256, .f32⟩ : BufTy).Contents (Elt F)),
    unary main_v75 main_v76 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v77 ((extractStridedSlice S32x1x1 ![0, 1, 3] · slices_S32x5x5_S32x1x1_0_1_3) : (⟨S32x5x5, .f32⟩ : BufTy).Contents (Elt F) → (⟨S32x1x1, .f32⟩ : BufTy).Contents (Elt F)),
    reshape main_v77 main_v78 rfl shapeCasts_S32x1x1_S32,
    unary main_v78 main_v79 (broadcastInDim S1x32x1x1 ![1] bcast_S32_S1x32x1x1_1 : (⟨S32, .f32⟩ : BufTy).Contents (Elt F) → (⟨S1x32x1x1, .f32⟩ : BufTy).Contents (Elt F)),
    unary main_v76 main_v80 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v79 main_v81 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v80 main_v81 main_v82 (minimumf : (⟨S16x32x256x256, .f32⟩ : BufTy).Contents (Elt F) → (⟨S16x32x256x256, .f32⟩ : BufTy).Contents (Elt F) → (⟨S16x32x256x256, .f32⟩ : BufTy).Contents (Elt F)),
    binary main_v74 main_v82 main_v83 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (1, 4). -/
def tap9 : List (HloOp τ sig (Elt F)) :=
  [ unary main_v1 main_v84 ((extractStridedSlice S16x256x256 ![0, 1, 4] · slices_S16x260x260_S16x256x256_0_1_4) : (⟨S16x260x260, .f32⟩ : BufTy).Contents (Elt F) → (⟨S16x256x256, .f32⟩ : BufTy).Contents (Elt F)),
    unary main_v84 main_v85 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v86 ((extractStridedSlice S32x1x1 ![0, 1, 4] · slices_S32x5x5_S32x1x1_0_1_4) : (⟨S32x5x5, .f32⟩ : BufTy).Contents (Elt F) → (⟨S32x1x1, .f32⟩ : BufTy).Contents (Elt F)),
    reshape main_v86 main_v87 rfl shapeCasts_S32x1x1_S32,
    unary main_v87 main_v88 (broadcastInDim S1x32x1x1 ![1] bcast_S32_S1x32x1x1_1 : (⟨S32, .f32⟩ : BufTy).Contents (Elt F) → (⟨S1x32x1x1, .f32⟩ : BufTy).Contents (Elt F)),
    unary main_v85 main_v89 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v88 main_v90 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v89 main_v90 main_v91 (minimumf : (⟨S16x32x256x256, .f32⟩ : BufTy).Contents (Elt F) → (⟨S16x32x256x256, .f32⟩ : BufTy).Contents (Elt F) → (⟨S16x32x256x256, .f32⟩ : BufTy).Contents (Elt F)),
    binary main_v83 main_v91 main_v92 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (2, 0). -/
def tap10 : List (HloOp τ sig (Elt F)) :=
  [ unary main_v1 main_v93 ((extractStridedSlice S16x256x256 ![0, 2, 0] · slices_S16x260x260_S16x256x256_0_2_0) : (⟨S16x260x260, .f32⟩ : BufTy).Contents (Elt F) → (⟨S16x256x256, .f32⟩ : BufTy).Contents (Elt F)),
    unary main_v93 main_v94 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v95 ((extractStridedSlice S32x1x1 ![0, 2, 0] · slices_S32x5x5_S32x1x1_0_2_0) : (⟨S32x5x5, .f32⟩ : BufTy).Contents (Elt F) → (⟨S32x1x1, .f32⟩ : BufTy).Contents (Elt F)),
    reshape main_v95 main_v96 rfl shapeCasts_S32x1x1_S32,
    unary main_v96 main_v97 (broadcastInDim S1x32x1x1 ![1] bcast_S32_S1x32x1x1_1 : (⟨S32, .f32⟩ : BufTy).Contents (Elt F) → (⟨S1x32x1x1, .f32⟩ : BufTy).Contents (Elt F)),
    unary main_v94 main_v98 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v97 main_v99 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v98 main_v99 main_v100 (minimumf : (⟨S16x32x256x256, .f32⟩ : BufTy).Contents (Elt F) → (⟨S16x32x256x256, .f32⟩ : BufTy).Contents (Elt F) → (⟨S16x32x256x256, .f32⟩ : BufTy).Contents (Elt F)),
    binary main_v92 main_v100 main_v101 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (2, 1). -/
def tap11 : List (HloOp τ sig (Elt F)) :=
  [ unary main_v1 main_v102 ((extractStridedSlice S16x256x256 ![0, 2, 1] · slices_S16x260x260_S16x256x256_0_2_1) : (⟨S16x260x260, .f32⟩ : BufTy).Contents (Elt F) → (⟨S16x256x256, .f32⟩ : BufTy).Contents (Elt F)),
    unary main_v102 main_v103 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v104 ((extractStridedSlice S32x1x1 ![0, 2, 1] · slices_S32x5x5_S32x1x1_0_2_1) : (⟨S32x5x5, .f32⟩ : BufTy).Contents (Elt F) → (⟨S32x1x1, .f32⟩ : BufTy).Contents (Elt F)),
    reshape main_v104 main_v105 rfl shapeCasts_S32x1x1_S32,
    unary main_v105 main_v106 (broadcastInDim S1x32x1x1 ![1] bcast_S32_S1x32x1x1_1 : (⟨S32, .f32⟩ : BufTy).Contents (Elt F) → (⟨S1x32x1x1, .f32⟩ : BufTy).Contents (Elt F)),
    unary main_v103 main_v107 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v106 main_v108 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v107 main_v108 main_v109 (minimumf : (⟨S16x32x256x256, .f32⟩ : BufTy).Contents (Elt F) → (⟨S16x32x256x256, .f32⟩ : BufTy).Contents (Elt F) → (⟨S16x32x256x256, .f32⟩ : BufTy).Contents (Elt F)),
    binary main_v101 main_v109 main_v110 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (2, 2), the operations before the printed program's cut. -/
def tap12a : List (HloOp τ sig (Elt F)) :=
  [ unary main_v1 main_v111 ((extractStridedSlice S16x256x256 ![0, 2, 2] · slices_S16x260x260_S16x256x256_0_2_2) : (⟨S16x260x260, .f32⟩ : BufTy).Contents (Elt F) → (⟨S16x256x256, .f32⟩ : BufTy).Contents (Elt F)),
    unary main_v111 main_v112 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v113 ((extractStridedSlice S32x1x1 ![0, 2, 2] · slices_S32x5x5_S32x1x1_0_2_2) : (⟨S32x5x5, .f32⟩ : BufTy).Contents (Elt F) → (⟨S32x1x1, .f32⟩ : BufTy).Contents (Elt F)),
    reshape main_v113 main_v114 rfl shapeCasts_S32x1x1_S32,
    unary main_v114 main_v115 (broadcastInDim S1x32x1x1 ![1] bcast_S32_S1x32x1x1_1 : (⟨S32, .f32⟩ : BufTy).Contents (Elt F) → (⟨S1x32x1x1, .f32⟩ : BufTy).Contents (Elt F)),
    unary main_v112 main_v116 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)) ]

/-- Tap (2, 2), the operations after the printed program's cut. -/
def tap12b : List (HloOp τ sig (Elt F)) :=
  [ unary main_v115 main_v117 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v116 main_v117 main_v118 (minimumf : (⟨S16x32x256x256, .f32⟩ : BufTy).Contents (Elt F) → (⟨S16x32x256x256, .f32⟩ : BufTy).Contents (Elt F) → (⟨S16x32x256x256, .f32⟩ : BufTy).Contents (Elt F)),
    binary main_v110 main_v118 main_v119 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (2, 3). -/
def tap13 : List (HloOp τ sig (Elt F)) :=
  [ unary main_v1 main_v120 ((extractStridedSlice S16x256x256 ![0, 2, 3] · slices_S16x260x260_S16x256x256_0_2_3) : (⟨S16x260x260, .f32⟩ : BufTy).Contents (Elt F) → (⟨S16x256x256, .f32⟩ : BufTy).Contents (Elt F)),
    unary main_v120 main_v121 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v122 ((extractStridedSlice S32x1x1 ![0, 2, 3] · slices_S32x5x5_S32x1x1_0_2_3) : (⟨S32x5x5, .f32⟩ : BufTy).Contents (Elt F) → (⟨S32x1x1, .f32⟩ : BufTy).Contents (Elt F)),
    reshape main_v122 main_v123 rfl shapeCasts_S32x1x1_S32,
    unary main_v123 main_v124 (broadcastInDim S1x32x1x1 ![1] bcast_S32_S1x32x1x1_1 : (⟨S32, .f32⟩ : BufTy).Contents (Elt F) → (⟨S1x32x1x1, .f32⟩ : BufTy).Contents (Elt F)),
    unary main_v121 main_v125 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v124 main_v126 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v125 main_v126 main_v127 (minimumf : (⟨S16x32x256x256, .f32⟩ : BufTy).Contents (Elt F) → (⟨S16x32x256x256, .f32⟩ : BufTy).Contents (Elt F) → (⟨S16x32x256x256, .f32⟩ : BufTy).Contents (Elt F)),
    binary main_v119 main_v127 main_v128 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (2, 4). -/
def tap14 : List (HloOp τ sig (Elt F)) :=
  [ unary main_v1 main_v129 ((extractStridedSlice S16x256x256 ![0, 2, 4] · slices_S16x260x260_S16x256x256_0_2_4) : (⟨S16x260x260, .f32⟩ : BufTy).Contents (Elt F) → (⟨S16x256x256, .f32⟩ : BufTy).Contents (Elt F)),
    unary main_v129 main_v130 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v131 ((extractStridedSlice S32x1x1 ![0, 2, 4] · slices_S32x5x5_S32x1x1_0_2_4) : (⟨S32x5x5, .f32⟩ : BufTy).Contents (Elt F) → (⟨S32x1x1, .f32⟩ : BufTy).Contents (Elt F)),
    reshape main_v131 main_v132 rfl shapeCasts_S32x1x1_S32,
    unary main_v132 main_v133 (broadcastInDim S1x32x1x1 ![1] bcast_S32_S1x32x1x1_1 : (⟨S32, .f32⟩ : BufTy).Contents (Elt F) → (⟨S1x32x1x1, .f32⟩ : BufTy).Contents (Elt F)),
    unary main_v130 main_v134 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v133 main_v135 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v134 main_v135 main_v136 (minimumf : (⟨S16x32x256x256, .f32⟩ : BufTy).Contents (Elt F) → (⟨S16x32x256x256, .f32⟩ : BufTy).Contents (Elt F) → (⟨S16x32x256x256, .f32⟩ : BufTy).Contents (Elt F)),
    binary main_v128 main_v136 main_v137 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (3, 0). -/
def tap15 : List (HloOp τ sig (Elt F)) :=
  [ unary main_v1 main_v138 ((extractStridedSlice S16x256x256 ![0, 3, 0] · slices_S16x260x260_S16x256x256_0_3_0) : (⟨S16x260x260, .f32⟩ : BufTy).Contents (Elt F) → (⟨S16x256x256, .f32⟩ : BufTy).Contents (Elt F)),
    unary main_v138 main_v139 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v140 ((extractStridedSlice S32x1x1 ![0, 3, 0] · slices_S32x5x5_S32x1x1_0_3_0) : (⟨S32x5x5, .f32⟩ : BufTy).Contents (Elt F) → (⟨S32x1x1, .f32⟩ : BufTy).Contents (Elt F)),
    reshape main_v140 main_v141 rfl shapeCasts_S32x1x1_S32,
    unary main_v141 main_v142 (broadcastInDim S1x32x1x1 ![1] bcast_S32_S1x32x1x1_1 : (⟨S32, .f32⟩ : BufTy).Contents (Elt F) → (⟨S1x32x1x1, .f32⟩ : BufTy).Contents (Elt F)),
    unary main_v139 main_v143 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v142 main_v144 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v143 main_v144 main_v145 (minimumf : (⟨S16x32x256x256, .f32⟩ : BufTy).Contents (Elt F) → (⟨S16x32x256x256, .f32⟩ : BufTy).Contents (Elt F) → (⟨S16x32x256x256, .f32⟩ : BufTy).Contents (Elt F)),
    binary main_v137 main_v145 main_v146 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (3, 1). -/
def tap16 : List (HloOp τ sig (Elt F)) :=
  [ unary main_v1 main_v147 ((extractStridedSlice S16x256x256 ![0, 3, 1] · slices_S16x260x260_S16x256x256_0_3_1) : (⟨S16x260x260, .f32⟩ : BufTy).Contents (Elt F) → (⟨S16x256x256, .f32⟩ : BufTy).Contents (Elt F)),
    unary main_v147 main_v148 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v149 ((extractStridedSlice S32x1x1 ![0, 3, 1] · slices_S32x5x5_S32x1x1_0_3_1) : (⟨S32x5x5, .f32⟩ : BufTy).Contents (Elt F) → (⟨S32x1x1, .f32⟩ : BufTy).Contents (Elt F)),
    reshape main_v149 main_v150 rfl shapeCasts_S32x1x1_S32,
    unary main_v150 main_v151 (broadcastInDim S1x32x1x1 ![1] bcast_S32_S1x32x1x1_1 : (⟨S32, .f32⟩ : BufTy).Contents (Elt F) → (⟨S1x32x1x1, .f32⟩ : BufTy).Contents (Elt F)),
    unary main_v148 main_v152 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v151 main_v153 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v152 main_v153 main_v154 (minimumf : (⟨S16x32x256x256, .f32⟩ : BufTy).Contents (Elt F) → (⟨S16x32x256x256, .f32⟩ : BufTy).Contents (Elt F) → (⟨S16x32x256x256, .f32⟩ : BufTy).Contents (Elt F)),
    binary main_v146 main_v154 main_v155 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (3, 2). -/
def tap17 : List (HloOp τ sig (Elt F)) :=
  [ unary main_v1 main_v156 ((extractStridedSlice S16x256x256 ![0, 3, 2] · slices_S16x260x260_S16x256x256_0_3_2) : (⟨S16x260x260, .f32⟩ : BufTy).Contents (Elt F) → (⟨S16x256x256, .f32⟩ : BufTy).Contents (Elt F)),
    unary main_v156 main_v157 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v158 ((extractStridedSlice S32x1x1 ![0, 3, 2] · slices_S32x5x5_S32x1x1_0_3_2) : (⟨S32x5x5, .f32⟩ : BufTy).Contents (Elt F) → (⟨S32x1x1, .f32⟩ : BufTy).Contents (Elt F)),
    reshape main_v158 main_v159 rfl shapeCasts_S32x1x1_S32,
    unary main_v159 main_v160 (broadcastInDim S1x32x1x1 ![1] bcast_S32_S1x32x1x1_1 : (⟨S32, .f32⟩ : BufTy).Contents (Elt F) → (⟨S1x32x1x1, .f32⟩ : BufTy).Contents (Elt F)),
    unary main_v157 main_v161 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v160 main_v162 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v161 main_v162 main_v163 (minimumf : (⟨S16x32x256x256, .f32⟩ : BufTy).Contents (Elt F) → (⟨S16x32x256x256, .f32⟩ : BufTy).Contents (Elt F) → (⟨S16x32x256x256, .f32⟩ : BufTy).Contents (Elt F)),
    binary main_v155 main_v163 main_v164 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (3, 3). -/
def tap18 : List (HloOp τ sig (Elt F)) :=
  [ unary main_v1 main_v165 ((extractStridedSlice S16x256x256 ![0, 3, 3] · slices_S16x260x260_S16x256x256_0_3_3) : (⟨S16x260x260, .f32⟩ : BufTy).Contents (Elt F) → (⟨S16x256x256, .f32⟩ : BufTy).Contents (Elt F)),
    unary main_v165 main_v166 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v167 ((extractStridedSlice S32x1x1 ![0, 3, 3] · slices_S32x5x5_S32x1x1_0_3_3) : (⟨S32x5x5, .f32⟩ : BufTy).Contents (Elt F) → (⟨S32x1x1, .f32⟩ : BufTy).Contents (Elt F)),
    reshape main_v167 main_v168 rfl shapeCasts_S32x1x1_S32,
    unary main_v168 main_v169 (broadcastInDim S1x32x1x1 ![1] bcast_S32_S1x32x1x1_1 : (⟨S32, .f32⟩ : BufTy).Contents (Elt F) → (⟨S1x32x1x1, .f32⟩ : BufTy).Contents (Elt F)),
    unary main_v166 main_v170 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v169 main_v171 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v170 main_v171 main_v172 (minimumf : (⟨S16x32x256x256, .f32⟩ : BufTy).Contents (Elt F) → (⟨S16x32x256x256, .f32⟩ : BufTy).Contents (Elt F) → (⟨S16x32x256x256, .f32⟩ : BufTy).Contents (Elt F)),
    binary main_v164 main_v172 main_v173 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (3, 4), the operations before the printed program's cut. -/
def tap19a : List (HloOp τ sig (Elt F)) :=
  [ unary main_v1 main_v174 ((extractStridedSlice S16x256x256 ![0, 3, 4] · slices_S16x260x260_S16x256x256_0_3_4) : (⟨S16x260x260, .f32⟩ : BufTy).Contents (Elt F) → (⟨S16x256x256, .f32⟩ : BufTy).Contents (Elt F)),
    unary main_v174 main_v175 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v176 ((extractStridedSlice S32x1x1 ![0, 3, 4] · slices_S32x5x5_S32x1x1_0_3_4) : (⟨S32x5x5, .f32⟩ : BufTy).Contents (Elt F) → (⟨S32x1x1, .f32⟩ : BufTy).Contents (Elt F)) ]

/-- Tap (3, 4), the operations after the printed program's cut. -/
def tap19b : List (HloOp τ sig (Elt F)) :=
  [ reshape main_v176 main_v177 rfl shapeCasts_S32x1x1_S32,
    unary main_v177 main_v178 (broadcastInDim S1x32x1x1 ![1] bcast_S32_S1x32x1x1_1 : (⟨S32, .f32⟩ : BufTy).Contents (Elt F) → (⟨S1x32x1x1, .f32⟩ : BufTy).Contents (Elt F)),
    unary main_v175 main_v179 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v178 main_v180 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v179 main_v180 main_v181 (minimumf : (⟨S16x32x256x256, .f32⟩ : BufTy).Contents (Elt F) → (⟨S16x32x256x256, .f32⟩ : BufTy).Contents (Elt F) → (⟨S16x32x256x256, .f32⟩ : BufTy).Contents (Elt F)),
    binary main_v173 main_v181 main_v182 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (4, 0). -/
def tap20 : List (HloOp τ sig (Elt F)) :=
  [ unary main_v1 main_v183 ((extractStridedSlice S16x256x256 ![0, 4, 0] · slices_S16x260x260_S16x256x256_0_4_0) : (⟨S16x260x260, .f32⟩ : BufTy).Contents (Elt F) → (⟨S16x256x256, .f32⟩ : BufTy).Contents (Elt F)),
    unary main_v183 main_v184 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v185 ((extractStridedSlice S32x1x1 ![0, 4, 0] · slices_S32x5x5_S32x1x1_0_4_0) : (⟨S32x5x5, .f32⟩ : BufTy).Contents (Elt F) → (⟨S32x1x1, .f32⟩ : BufTy).Contents (Elt F)),
    reshape main_v185 main_v186 rfl shapeCasts_S32x1x1_S32,
    unary main_v186 main_v187 (broadcastInDim S1x32x1x1 ![1] bcast_S32_S1x32x1x1_1 : (⟨S32, .f32⟩ : BufTy).Contents (Elt F) → (⟨S1x32x1x1, .f32⟩ : BufTy).Contents (Elt F)),
    unary main_v184 main_v188 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v187 main_v189 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v188 main_v189 main_v190 (minimumf : (⟨S16x32x256x256, .f32⟩ : BufTy).Contents (Elt F) → (⟨S16x32x256x256, .f32⟩ : BufTy).Contents (Elt F) → (⟨S16x32x256x256, .f32⟩ : BufTy).Contents (Elt F)),
    binary main_v182 main_v190 main_v191 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (4, 1). -/
def tap21 : List (HloOp τ sig (Elt F)) :=
  [ unary main_v1 main_v192 ((extractStridedSlice S16x256x256 ![0, 4, 1] · slices_S16x260x260_S16x256x256_0_4_1) : (⟨S16x260x260, .f32⟩ : BufTy).Contents (Elt F) → (⟨S16x256x256, .f32⟩ : BufTy).Contents (Elt F)),
    unary main_v192 main_v193 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v194 ((extractStridedSlice S32x1x1 ![0, 4, 1] · slices_S32x5x5_S32x1x1_0_4_1) : (⟨S32x5x5, .f32⟩ : BufTy).Contents (Elt F) → (⟨S32x1x1, .f32⟩ : BufTy).Contents (Elt F)),
    reshape main_v194 main_v195 rfl shapeCasts_S32x1x1_S32,
    unary main_v195 main_v196 (broadcastInDim S1x32x1x1 ![1] bcast_S32_S1x32x1x1_1 : (⟨S32, .f32⟩ : BufTy).Contents (Elt F) → (⟨S1x32x1x1, .f32⟩ : BufTy).Contents (Elt F)),
    unary main_v193 main_v197 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v196 main_v198 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v197 main_v198 main_v199 (minimumf : (⟨S16x32x256x256, .f32⟩ : BufTy).Contents (Elt F) → (⟨S16x32x256x256, .f32⟩ : BufTy).Contents (Elt F) → (⟨S16x32x256x256, .f32⟩ : BufTy).Contents (Elt F)),
    binary main_v191 main_v199 main_v200 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (4, 2). -/
def tap22 : List (HloOp τ sig (Elt F)) :=
  [ unary main_v1 main_v201 ((extractStridedSlice S16x256x256 ![0, 4, 2] · slices_S16x260x260_S16x256x256_0_4_2) : (⟨S16x260x260, .f32⟩ : BufTy).Contents (Elt F) → (⟨S16x256x256, .f32⟩ : BufTy).Contents (Elt F)),
    unary main_v201 main_v202 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v203 ((extractStridedSlice S32x1x1 ![0, 4, 2] · slices_S32x5x5_S32x1x1_0_4_2) : (⟨S32x5x5, .f32⟩ : BufTy).Contents (Elt F) → (⟨S32x1x1, .f32⟩ : BufTy).Contents (Elt F)),
    reshape main_v203 main_v204 rfl shapeCasts_S32x1x1_S32,
    unary main_v204 main_v205 (broadcastInDim S1x32x1x1 ![1] bcast_S32_S1x32x1x1_1 : (⟨S32, .f32⟩ : BufTy).Contents (Elt F) → (⟨S1x32x1x1, .f32⟩ : BufTy).Contents (Elt F)),
    unary main_v202 main_v206 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v205 main_v207 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v206 main_v207 main_v208 (minimumf : (⟨S16x32x256x256, .f32⟩ : BufTy).Contents (Elt F) → (⟨S16x32x256x256, .f32⟩ : BufTy).Contents (Elt F) → (⟨S16x32x256x256, .f32⟩ : BufTy).Contents (Elt F)),
    binary main_v200 main_v208 main_v209 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (4, 3). -/
def tap23 : List (HloOp τ sig (Elt F)) :=
  [ unary main_v1 main_v210 ((extractStridedSlice S16x256x256 ![0, 4, 3] · slices_S16x260x260_S16x256x256_0_4_3) : (⟨S16x260x260, .f32⟩ : BufTy).Contents (Elt F) → (⟨S16x256x256, .f32⟩ : BufTy).Contents (Elt F)),
    unary main_v210 main_v211 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v212 ((extractStridedSlice S32x1x1 ![0, 4, 3] · slices_S32x5x5_S32x1x1_0_4_3) : (⟨S32x5x5, .f32⟩ : BufTy).Contents (Elt F) → (⟨S32x1x1, .f32⟩ : BufTy).Contents (Elt F)),
    reshape main_v212 main_v213 rfl shapeCasts_S32x1x1_S32,
    unary main_v213 main_v214 (broadcastInDim S1x32x1x1 ![1] bcast_S32_S1x32x1x1_1 : (⟨S32, .f32⟩ : BufTy).Contents (Elt F) → (⟨S1x32x1x1, .f32⟩ : BufTy).Contents (Elt F)),
    unary main_v211 main_v215 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v214 main_v216 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v215 main_v216 main_v217 (minimumf : (⟨S16x32x256x256, .f32⟩ : BufTy).Contents (Elt F) → (⟨S16x32x256x256, .f32⟩ : BufTy).Contents (Elt F) → (⟨S16x32x256x256, .f32⟩ : BufTy).Contents (Elt F)),
    binary main_v209 main_v217 main_v218 (maximumf : (⟨S16x32x256x256, .f32⟩ : BufTy).Contents (Elt F) → (⟨S16x32x256x256, .f32⟩ : BufTy).Contents (Elt F) → (⟨S16x32x256x256, .f32⟩ : BufTy).Contents (Elt F)) ]

/-- Tap (4, 4). -/
def tap24 : List (HloOp τ sig (Elt F)) :=
  [ unary main_v1 main_v219 ((extractStridedSlice S16x256x256 ![0, 4, 4] · slices_S16x260x260_S16x256x256_0_4_4) : (⟨S16x260x260, .f32⟩ : BufTy).Contents (Elt F) → (⟨S16x256x256, .f32⟩ : BufTy).Contents (Elt F)),
    unary main_v219 main_v220 (broadcastInDim S16x1x256x256 ![0, 2, 3] bcast_S16x256x256_S16x1x256x256_0_2_3 : (⟨S16x256x256, .f32⟩ : BufTy).Contents (Elt F) → (⟨S16x1x256x256, .f32⟩ : BufTy).Contents (Elt F)),
    unary main_arg1 main_v221 ((extractStridedSlice S32x1x1 ![0, 4, 4] · slices_S32x5x5_S32x1x1_0_4_4) : (⟨S32x5x5, .f32⟩ : BufTy).Contents (Elt F) → (⟨S32x1x1, .f32⟩ : BufTy).Contents (Elt F)),
    reshape main_v221 main_v222 rfl shapeCasts_S32x1x1_S32,
    unary main_v222 main_v223 (broadcastInDim S1x32x1x1 ![1] bcast_S32_S1x32x1x1_1 : (⟨S32, .f32⟩ : BufTy).Contents (Elt F) → (⟨S1x32x1x1, .f32⟩ : BufTy).Contents (Elt F)),
    unary main_v220 main_v224 (broadcastInDim S16x32x256x256 ![0, 1, 2, 3] bcast_S16x1x256x256_S16x32x256x256_0_1_2_3 : (⟨S16x1x256x256, .f32⟩ : BufTy).Contents (Elt F) → (⟨S16x32x256x256, .f32⟩ : BufTy).Contents (Elt F)),
    unary main_v223 main_v225 (broadcastInDim S16x32x256x256 ![0, 1, 2, 3] bcast_S1x32x1x1_S16x32x256x256_0_1_2_3 : (⟨S1x32x1x1, .f32⟩ : BufTy).Contents (Elt F) → (⟨S16x32x256x256, .f32⟩ : BufTy).Contents (Elt F)),
    binary main_v224 main_v225 main_v226 (minimumf : (⟨S16x32x256x256, .f32⟩ : BufTy).Contents (Elt F) → (⟨S16x32x256x256, .f32⟩ : BufTy).Contents (Elt F) → (⟨S16x32x256x256, .f32⟩ : BufTy).Contents (Elt F)),
    binary main_v218 main_v226 main_v227 (maximumf : (⟨S16x32x256x256, .f32⟩ : BufTy).Contents (Elt F) → (⟨S16x32x256x256, .f32⟩ : BufTy).Contents (Elt F) → (⟨S16x32x256x256, .f32⟩ : BufTy).Contents (Elt F)) ]

/-- The printed program's four parts, each the line of its groups. -/
def w0 : List (HloOp τ sig (Elt F)) := pre ++ (tap0 ++ (tap1 ++ (tap2 ++ (tap3 ++ (tap4 ++ tap5)))))
def w1 : List (HloOp τ sig (Elt F)) := tap6 ++ (tap7 ++ (tap8 ++ (tap9 ++ (tap10 ++ (tap11 ++ tap12a)))))
def w2 : List (HloOp τ sig (Elt F)) := tap12b ++ (tap13 ++ (tap14 ++ (tap15 ++ (tap16 ++ (tap17 ++ (tap18 ++ tap19a))))))
def w3 : List (HloOp τ sig (Elt F)) := tap19b ++ (tap20 ++ (tap21 ++ (tap22 ++ (tap23 ++ tap24))))

/-- All 232 operations, in order. -/
def ops : List (HloOp τ sig (Elt F)) := w0 ++ (w1 ++ (w2 ++ w3))

/-! ## The program is that line -/

theorem part0_eq (d : Dev nD) : main_part0 (F := F) d = seq w0 := rfl
theorem part1_eq (d : Dev nD) : main_part1 (F := F) d = seq w1 := rfl
theorem part2_eq (d : Dev nD) : main_part2 (F := F) d = seq w2 := rfl
theorem part3_eq (d : Dev nD) : main_part3 (F := F) d = seq w3 := rfl

theorem main_eq (d : Dev nD) : main (F := F) d = seq ops := by
  unfold ops
  rw [seq_append, seq_append, seq_append, ← part0_eq d, ← part1_eq d, ← part2_eq d, ← part3_eq d]
  rfl

theorem scopedRefs_eq : (Finset.univ.filter fun b : Ref sig .tc => b.isScoped) = ∅ := by decide
theorem scopedSems_eq : (Finset.univ.filter fun sm : SemLoc sig => sm.isScoped .tc) = ∅ := by decide

/-! ## What the run asks of every operation -/

/-- Every buffer of the operation is a TensorCore buffer, and the operation allocates nothing. -/
def Ok (op : HloOp τ sig (Elt F)) : Prop := op.bufs ⊆ tcRefs τ sig ∧ op.fresh = ∅

theorem ok_append {l1 l2 : List (HloOp τ sig (Elt F))} (h1 : ∀ op ∈ l1, Ok op) (h2 : ∀ op ∈ l2, Ok op) :
    ∀ op ∈ l1 ++ l2, Ok op := fun op h => (List.mem_append.mp h).elim (h1 op) (h2 op)

theorem pre_ok : ∀ op ∈ (pre : List (HloOp τ sig (Elt F))), Ok op := by
  intro op h
  unfold pre at h
  (repeat (cases h with
    | head => exact ⟨by first | exact unary_bufs_sub .. | exact binary_bufs_sub .. | exact nullary_bufs_sub .. | exact reshape_bufs_sub .., rfl⟩
    | tail _ h => ?_))
  exact nomatch h
theorem tap0_ok : ∀ op ∈ (tap0 : List (HloOp τ sig (Elt F))), Ok op := by
  intro op h
  unfold tap0 at h
  (repeat (cases h with
    | head => exact ⟨by first | exact unary_bufs_sub .. | exact binary_bufs_sub .. | exact nullary_bufs_sub .. | exact reshape_bufs_sub .., rfl⟩
    | tail _ h => ?_))
  exact nomatch h
theorem tap1_ok : ∀ op ∈ (tap1 : List (HloOp τ sig (Elt F))), Ok op := by
  intro op h
  unfold tap1 at h
  (repeat (cases h with
    | head => exact ⟨by first | exact unary_bufs_sub .. | exact binary_bufs_sub .. | exact nullary_bufs_sub .. | exact reshape_bufs_sub .., rfl⟩
    | tail _ h => ?_))
  exact nomatch h
theorem tap2_ok : ∀ op ∈ (tap2 : List (HloOp τ sig (Elt F))), Ok op := by
  intro op h
  unfold tap2 at h
  (repeat (cases h with
    | head => exact ⟨by first | exact unary_bufs_sub .. | exact binary_bufs_sub .. | exact nullary_bufs_sub .. | exact reshape_bufs_sub .., rfl⟩
    | tail _ h => ?_))
  exact nomatch h
theorem tap3_ok : ∀ op ∈ (tap3 : List (HloOp τ sig (Elt F))), Ok op := by
  intro op h
  unfold tap3 at h
  (repeat (cases h with
    | head => exact ⟨by first | exact unary_bufs_sub .. | exact binary_bufs_sub .. | exact nullary_bufs_sub .. | exact reshape_bufs_sub .., rfl⟩
    | tail _ h => ?_))
  exact nomatch h
theorem tap4_ok : ∀ op ∈ (tap4 : List (HloOp τ sig (Elt F))), Ok op := by
  intro op h
  unfold tap4 at h
  (repeat (cases h with
    | head => exact ⟨by first | exact unary_bufs_sub .. | exact binary_bufs_sub .. | exact nullary_bufs_sub .. | exact reshape_bufs_sub .., rfl⟩
    | tail _ h => ?_))
  exact nomatch h
theorem tap5_ok : ∀ op ∈ (tap5 : List (HloOp τ sig (Elt F))), Ok op := by
  intro op h
  unfold tap5 at h
  (repeat (cases h with
    | head => exact ⟨by first | exact unary_bufs_sub .. | exact binary_bufs_sub .. | exact nullary_bufs_sub .. | exact reshape_bufs_sub .., rfl⟩
    | tail _ h => ?_))
  exact nomatch h
theorem tap6_ok : ∀ op ∈ (tap6 : List (HloOp τ sig (Elt F))), Ok op := by
  intro op h
  unfold tap6 at h
  (repeat (cases h with
    | head => exact ⟨by first | exact unary_bufs_sub .. | exact binary_bufs_sub .. | exact nullary_bufs_sub .. | exact reshape_bufs_sub .., rfl⟩
    | tail _ h => ?_))
  exact nomatch h
theorem tap7_ok : ∀ op ∈ (tap7 : List (HloOp τ sig (Elt F))), Ok op := by
  intro op h
  unfold tap7 at h
  (repeat (cases h with
    | head => exact ⟨by first | exact unary_bufs_sub .. | exact binary_bufs_sub .. | exact nullary_bufs_sub .. | exact reshape_bufs_sub .., rfl⟩
    | tail _ h => ?_))
  exact nomatch h
theorem tap8_ok : ∀ op ∈ (tap8 : List (HloOp τ sig (Elt F))), Ok op := by
  intro op h
  unfold tap8 at h
  (repeat (cases h with
    | head => exact ⟨by first | exact unary_bufs_sub .. | exact binary_bufs_sub .. | exact nullary_bufs_sub .. | exact reshape_bufs_sub .., rfl⟩
    | tail _ h => ?_))
  exact nomatch h
theorem tap9_ok : ∀ op ∈ (tap9 : List (HloOp τ sig (Elt F))), Ok op := by
  intro op h
  unfold tap9 at h
  (repeat (cases h with
    | head => exact ⟨by first | exact unary_bufs_sub .. | exact binary_bufs_sub .. | exact nullary_bufs_sub .. | exact reshape_bufs_sub .., rfl⟩
    | tail _ h => ?_))
  exact nomatch h
theorem tap10_ok : ∀ op ∈ (tap10 : List (HloOp τ sig (Elt F))), Ok op := by
  intro op h
  unfold tap10 at h
  (repeat (cases h with
    | head => exact ⟨by first | exact unary_bufs_sub .. | exact binary_bufs_sub .. | exact nullary_bufs_sub .. | exact reshape_bufs_sub .., rfl⟩
    | tail _ h => ?_))
  exact nomatch h
theorem tap11_ok : ∀ op ∈ (tap11 : List (HloOp τ sig (Elt F))), Ok op := by
  intro op h
  unfold tap11 at h
  (repeat (cases h with
    | head => exact ⟨by first | exact unary_bufs_sub .. | exact binary_bufs_sub .. | exact nullary_bufs_sub .. | exact reshape_bufs_sub .., rfl⟩
    | tail _ h => ?_))
  exact nomatch h
theorem tap12a_ok : ∀ op ∈ (tap12a : List (HloOp τ sig (Elt F))), Ok op := by
  intro op h
  unfold tap12a at h
  (repeat (cases h with
    | head => exact ⟨by first | exact unary_bufs_sub .. | exact binary_bufs_sub .. | exact nullary_bufs_sub .. | exact reshape_bufs_sub .., rfl⟩
    | tail _ h => ?_))
  exact nomatch h
theorem tap12b_ok : ∀ op ∈ (tap12b : List (HloOp τ sig (Elt F))), Ok op := by
  intro op h
  unfold tap12b at h
  (repeat (cases h with
    | head => exact ⟨by first | exact unary_bufs_sub .. | exact binary_bufs_sub .. | exact nullary_bufs_sub .. | exact reshape_bufs_sub .., rfl⟩
    | tail _ h => ?_))
  exact nomatch h
theorem tap13_ok : ∀ op ∈ (tap13 : List (HloOp τ sig (Elt F))), Ok op := by
  intro op h
  unfold tap13 at h
  (repeat (cases h with
    | head => exact ⟨by first | exact unary_bufs_sub .. | exact binary_bufs_sub .. | exact nullary_bufs_sub .. | exact reshape_bufs_sub .., rfl⟩
    | tail _ h => ?_))
  exact nomatch h
theorem tap14_ok : ∀ op ∈ (tap14 : List (HloOp τ sig (Elt F))), Ok op := by
  intro op h
  unfold tap14 at h
  (repeat (cases h with
    | head => exact ⟨by first | exact unary_bufs_sub .. | exact binary_bufs_sub .. | exact nullary_bufs_sub .. | exact reshape_bufs_sub .., rfl⟩
    | tail _ h => ?_))
  exact nomatch h
theorem tap15_ok : ∀ op ∈ (tap15 : List (HloOp τ sig (Elt F))), Ok op := by
  intro op h
  unfold tap15 at h
  (repeat (cases h with
    | head => exact ⟨by first | exact unary_bufs_sub .. | exact binary_bufs_sub .. | exact nullary_bufs_sub .. | exact reshape_bufs_sub .., rfl⟩
    | tail _ h => ?_))
  exact nomatch h
theorem tap16_ok : ∀ op ∈ (tap16 : List (HloOp τ sig (Elt F))), Ok op := by
  intro op h
  unfold tap16 at h
  (repeat (cases h with
    | head => exact ⟨by first | exact unary_bufs_sub .. | exact binary_bufs_sub .. | exact nullary_bufs_sub .. | exact reshape_bufs_sub .., rfl⟩
    | tail _ h => ?_))
  exact nomatch h
theorem tap17_ok : ∀ op ∈ (tap17 : List (HloOp τ sig (Elt F))), Ok op := by
  intro op h
  unfold tap17 at h
  (repeat (cases h with
    | head => exact ⟨by first | exact unary_bufs_sub .. | exact binary_bufs_sub .. | exact nullary_bufs_sub .. | exact reshape_bufs_sub .., rfl⟩
    | tail _ h => ?_))
  exact nomatch h
theorem tap18_ok : ∀ op ∈ (tap18 : List (HloOp τ sig (Elt F))), Ok op := by
  intro op h
  unfold tap18 at h
  (repeat (cases h with
    | head => exact ⟨by first | exact unary_bufs_sub .. | exact binary_bufs_sub .. | exact nullary_bufs_sub .. | exact reshape_bufs_sub .., rfl⟩
    | tail _ h => ?_))
  exact nomatch h
theorem tap19a_ok : ∀ op ∈ (tap19a : List (HloOp τ sig (Elt F))), Ok op := by
  intro op h
  unfold tap19a at h
  (repeat (cases h with
    | head => exact ⟨by first | exact unary_bufs_sub .. | exact binary_bufs_sub .. | exact nullary_bufs_sub .. | exact reshape_bufs_sub .., rfl⟩
    | tail _ h => ?_))
  exact nomatch h
theorem tap19b_ok : ∀ op ∈ (tap19b : List (HloOp τ sig (Elt F))), Ok op := by
  intro op h
  unfold tap19b at h
  (repeat (cases h with
    | head => exact ⟨by first | exact unary_bufs_sub .. | exact binary_bufs_sub .. | exact nullary_bufs_sub .. | exact reshape_bufs_sub .., rfl⟩
    | tail _ h => ?_))
  exact nomatch h
theorem tap20_ok : ∀ op ∈ (tap20 : List (HloOp τ sig (Elt F))), Ok op := by
  intro op h
  unfold tap20 at h
  (repeat (cases h with
    | head => exact ⟨by first | exact unary_bufs_sub .. | exact binary_bufs_sub .. | exact nullary_bufs_sub .. | exact reshape_bufs_sub .., rfl⟩
    | tail _ h => ?_))
  exact nomatch h
theorem tap21_ok : ∀ op ∈ (tap21 : List (HloOp τ sig (Elt F))), Ok op := by
  intro op h
  unfold tap21 at h
  (repeat (cases h with
    | head => exact ⟨by first | exact unary_bufs_sub .. | exact binary_bufs_sub .. | exact nullary_bufs_sub .. | exact reshape_bufs_sub .., rfl⟩
    | tail _ h => ?_))
  exact nomatch h
theorem tap22_ok : ∀ op ∈ (tap22 : List (HloOp τ sig (Elt F))), Ok op := by
  intro op h
  unfold tap22 at h
  (repeat (cases h with
    | head => exact ⟨by first | exact unary_bufs_sub .. | exact binary_bufs_sub .. | exact nullary_bufs_sub .. | exact reshape_bufs_sub .., rfl⟩
    | tail _ h => ?_))
  exact nomatch h
theorem tap23_ok : ∀ op ∈ (tap23 : List (HloOp τ sig (Elt F))), Ok op := by
  intro op h
  unfold tap23 at h
  (repeat (cases h with
    | head => exact ⟨by first | exact unary_bufs_sub .. | exact binary_bufs_sub .. | exact nullary_bufs_sub .. | exact reshape_bufs_sub .., rfl⟩
    | tail _ h => ?_))
  exact nomatch h
theorem tap24_ok : ∀ op ∈ (tap24 : List (HloOp τ sig (Elt F))), Ok op := by
  intro op h
  unfold tap24 at h
  (repeat (cases h with
    | head => exact ⟨by first | exact unary_bufs_sub .. | exact binary_bufs_sub .. | exact nullary_bufs_sub .. | exact reshape_bufs_sub .., rfl⟩
    | tail _ h => ?_))
  exact nomatch h
theorem w0_ok : ∀ op ∈ (w0 : List (HloOp τ sig (Elt F))), Ok op := by unfold w0; exact ok_append pre_ok (ok_append tap0_ok (ok_append tap1_ok (ok_append tap2_ok (ok_append tap3_ok (ok_append tap4_ok (tap5_ok))))))
theorem w1_ok : ∀ op ∈ (w1 : List (HloOp τ sig (Elt F))), Ok op := by unfold w1; exact ok_append tap6_ok (ok_append tap7_ok (ok_append tap8_ok (ok_append tap9_ok (ok_append tap10_ok (ok_append tap11_ok (tap12a_ok))))))
theorem w2_ok : ∀ op ∈ (w2 : List (HloOp τ sig (Elt F))), Ok op := by unfold w2; exact ok_append tap12b_ok (ok_append tap13_ok (ok_append tap14_ok (ok_append tap15_ok (ok_append tap16_ok (ok_append tap17_ok (ok_append tap18_ok (tap19a_ok)))))))
theorem w3_ok : ∀ op ∈ (w3 : List (HloOp τ sig (Elt F))), Ok op := by unfold w3; exact ok_append tap19b_ok (ok_append tap20_ok (ok_append tap21_ok (ok_append tap22_ok (ok_append tap23_ok (tap24_ok)))))
theorem ops_ok : ∀ op ∈ (ops : List (HloOp τ sig (Elt F))), Ok op := by unfold ops; exact ok_append w0_ok (ok_append w1_ok (ok_append w2_ok w3_ok))

theorem ops_sub : (ops : List (HloOp τ sig (Elt F))).Forall fun op => op.bufs ⊆ tcRefs τ sig :=
  List.forall_iff_forall_mem.mpr fun op h => (ops_ok op h).1

/-! ## The contents after the line, one group at a time -/

/-- The contents after two lines run one after the other. -/
theorem after_append (l1 l2 : List (HloOp τ sig (Elt F))) (V : Valuation τ sig (Elt F)) :
    after (l1 ++ l2) V = after l2 (after l1 V) := by
  induction l1 generalizing V with
  | nil => rfl
  | cons op l ih => simp only [List.cons_append, after_cons, ih]

/-- After the first seven operations: the padded channel maximum, the array of minus infinity, the arguments as they were. -/
theorem pre_step (V : Valuation τ sig (Elt F)) :
    after pre V (Proc.devRef .tc main_v1) = padTerm (V (Proc.devRef .tc main_arg0))
    ∧ after pre V (Proc.devRef .tc main_arg1) = V (Proc.devRef .tc main_arg1)
    ∧ after pre V (Proc.devRef .tc main_arg0) = V (Proc.devRef .tc main_arg0)
    ∧ after pre V (Proc.devRef .tc main_v2) = zTerm := by
  unfold pre
  refine ⟨?_, ?_, ?_, ?_⟩
  · after_results_simp
    unfold padTerm redTerm
    refine eq_of_heq ((cast_heq _ _).trans (heq_of_eq ?_))
    have ex : ∀ (x x' : (⟨S16x256x256, .f32⟩ : BufTy).Contents (Elt F)) (v v' : (⟨S_, .f32⟩ : BufTy).Contents (Elt F)), x = x' → v = v' →
        pad S16x260x260 ![0, 2, 2] ![0, 2, 2] ![0, 0, 0] x v pads_S16x256x256_S16x260x260_000_220_220 h_S_
          = pad S16x260x260 ![0, 2, 2] ![0, 2, 2] ![0, 0, 0] x' v' pads_S16x256x256_S16x260x260_000_220_220 h_S_ := by
      intro x x' v v' hx hv; rw [hx, hv]
    exact ex _ _ _ _ (eq_of_heq (cast_heq _ _))
      (eq_of_heq ((cast_heq _ _).trans ((cast_heq _ _).trans (heq_of_eq (congrArg id (eq_of_heq (cast_heq _ _)))))))
  · after_results_simp
  · after_results_simp
  · after_results_simp <;> (unfold zTerm; rfl)

/-- Tap (0, 0): the group keeps the padded image and the arguments and joins its tap onto the running result. -/
theorem tap0_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v2) = acc) :
    after tap0 W (Proc.devRef .tc main_v1) = P
    ∧ after tap0 W (Proc.devRef .tc main_arg1) = K
    ∧ after tap0 W (Proc.devRef .tc main_arg0) = A
    ∧ after tap0 W (Proc.devRef .tc main_v11) = tapTerm ![0, 0, 0] ![0, 0, 0] slices_S16x260x260_S16x256x256_0_0_0 slices_S32x5x5_S32x1x1_0_0_0 P K acc := by
  obtain ⟨rfl, rfl, rfl, rfl⟩ := h
  unfold tap0
  refine ⟨?_, ?_, ?_, ?_⟩
  · after_results_simp
  · after_results_simp
  · after_results_simp
  · after_results_simp <;> rfl

/-- Tap (0, 1): the group keeps the padded image and the arguments and joins its tap onto the running result. -/
theorem tap1_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v11) = acc) :
    after tap1 W (Proc.devRef .tc main_v1) = P
    ∧ after tap1 W (Proc.devRef .tc main_arg1) = K
    ∧ after tap1 W (Proc.devRef .tc main_arg0) = A
    ∧ after tap1 W (Proc.devRef .tc main_v20) = tapTerm ![0, 0, 1] ![0, 0, 1] slices_S16x260x260_S16x256x256_0_0_1 slices_S32x5x5_S32x1x1_0_0_1 P K acc := by
  obtain ⟨rfl, rfl, rfl, rfl⟩ := h
  unfold tap1
  refine ⟨?_, ?_, ?_, ?_⟩
  · after_results_simp
  · after_results_simp
  · after_results_simp
  · after_results_simp <;> rfl

/-- Tap (0, 2): the group keeps the padded image and the arguments and joins its tap onto the running result. -/
theorem tap2_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v20) = acc) :
    after tap2 W (Proc.devRef .tc main_v1) = P
    ∧ after tap2 W (Proc.devRef .tc main_arg1) = K
    ∧ after tap2 W (Proc.devRef .tc main_arg0) = A
    ∧ after tap2 W (Proc.devRef .tc main_v29) = tapTerm ![0, 0, 2] ![0, 0, 2] slices_S16x260x260_S16x256x256_0_0_2 slices_S32x5x5_S32x1x1_0_0_2 P K acc := by
  obtain ⟨rfl, rfl, rfl, rfl⟩ := h
  unfold tap2
  refine ⟨?_, ?_, ?_, ?_⟩
  · after_results_simp
  · after_results_simp
  · after_results_simp
  · after_results_simp <;> rfl

/-- Tap (0, 3): the group keeps the padded image and the arguments and joins its tap onto the running result. -/
theorem tap3_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v29) = acc) :
    after tap3 W (Proc.devRef .tc main_v1) = P
    ∧ after tap3 W (Proc.devRef .tc main_arg1) = K
    ∧ after tap3 W (Proc.devRef .tc main_arg0) = A
    ∧ after tap3 W (Proc.devRef .tc main_v38) = tapTerm ![0, 0, 3] ![0, 0, 3] slices_S16x260x260_S16x256x256_0_0_3 slices_S32x5x5_S32x1x1_0_0_3 P K acc := by
  obtain ⟨rfl, rfl, rfl, rfl⟩ := h
  unfold tap3
  refine ⟨?_, ?_, ?_, ?_⟩
  · after_results_simp
  · after_results_simp
  · after_results_simp
  · after_results_simp <;> rfl

/-- Tap (0, 4): the group keeps the padded image and the arguments and joins its tap onto the running result. -/
theorem tap4_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v38) = acc) :
    after tap4 W (Proc.devRef .tc main_v1) = P
    ∧ after tap4 W (Proc.devRef .tc main_arg1) = K
    ∧ after tap4 W (Proc.devRef .tc main_arg0) = A
    ∧ after tap4 W (Proc.devRef .tc main_v47) = tapTerm ![0, 0, 4] ![0, 0, 4] slices_S16x260x260_S16x256x256_0_0_4 slices_S32x5x5_S32x1x1_0_0_4 P K acc := by
  obtain ⟨rfl, rfl, rfl, rfl⟩ := h
  unfold tap4
  refine ⟨?_, ?_, ?_, ?_⟩
  · after_results_simp
  · after_results_simp
  · after_results_simp
  · after_results_simp <;> rfl

/-- Tap (1, 0): the group keeps the padded image and the arguments and joins its tap onto the running result. -/
theorem tap5_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v47) = acc) :
    after tap5 W (Proc.devRef .tc main_v1) = P
    ∧ after tap5 W (Proc.devRef .tc main_arg1) = K
    ∧ after tap5 W (Proc.devRef .tc main_arg0) = A
    ∧ after tap5 W (Proc.devRef .tc main_v56) = tapTerm ![0, 1, 0] ![0, 1, 0] slices_S16x260x260_S16x256x256_0_1_0 slices_S32x5x5_S32x1x1_0_1_0 P K acc := by
  obtain ⟨rfl, rfl, rfl, rfl⟩ := h
  unfold tap5
  refine ⟨?_, ?_, ?_, ?_⟩
  · after_results_simp
  · after_results_simp
  · after_results_simp
  · after_results_simp <;> rfl

/-- Tap (1, 1): the group keeps the padded image and the arguments and joins its tap onto the running result. -/
theorem tap6_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v56) = acc) :
    after tap6 W (Proc.devRef .tc main_v1) = P
    ∧ after tap6 W (Proc.devRef .tc main_arg1) = K
    ∧ after tap6 W (Proc.devRef .tc main_arg0) = A
    ∧ after tap6 W (Proc.devRef .tc main_v65) = tapTerm ![0, 1, 1] ![0, 1, 1] slices_S16x260x260_S16x256x256_0_1_1 slices_S32x5x5_S32x1x1_0_1_1 P K acc := by
  obtain ⟨rfl, rfl, rfl, rfl⟩ := h
  unfold tap6
  refine ⟨?_, ?_, ?_, ?_⟩
  · after_results_simp
  · after_results_simp
  · after_results_simp
  · after_results_simp <;> rfl

/-- Tap (1, 2): the group keeps the padded image and the arguments and joins its tap onto the running result. -/
theorem tap7_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v65) = acc) :
    after tap7 W (Proc.devRef .tc main_v1) = P
    ∧ after tap7 W (Proc.devRef .tc main_arg1) = K
    ∧ after tap7 W (Proc.devRef .tc main_arg0) = A
    ∧ after tap7 W (Proc.devRef .tc main_v74) = tapTerm ![0, 1, 2] ![0, 1, 2] slices_S16x260x260_S16x256x256_0_1_2 slices_S32x5x5_S32x1x1_0_1_2 P K acc := by
  obtain ⟨rfl, rfl, rfl, rfl⟩ := h
  unfold tap7
  refine ⟨?_, ?_, ?_, ?_⟩
  · after_results_simp
  · after_results_simp
  · after_results_simp
  · after_results_simp <;> rfl

/-- Tap (1, 3): the group keeps the padded image and the arguments and joins its tap onto the running result. -/
theorem tap8_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v74) = acc) :
    after tap8 W (Proc.devRef .tc main_v1) = P
    ∧ after tap8 W (Proc.devRef .tc main_arg1) = K
    ∧ after tap8 W (Proc.devRef .tc main_arg0) = A
    ∧ after tap8 W (Proc.devRef .tc main_v83) = tapTerm ![0, 1, 3] ![0, 1, 3] slices_S16x260x260_S16x256x256_0_1_3 slices_S32x5x5_S32x1x1_0_1_3 P K acc := by
  obtain ⟨rfl, rfl, rfl, rfl⟩ := h
  unfold tap8
  refine ⟨?_, ?_, ?_, ?_⟩
  · after_results_simp
  · after_results_simp
  · after_results_simp
  · after_results_simp <;> rfl

/-- Tap (1, 4): the group keeps the padded image and the arguments and joins its tap onto the running result. -/
theorem tap9_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v83) = acc) :
    after tap9 W (Proc.devRef .tc main_v1) = P
    ∧ after tap9 W (Proc.devRef .tc main_arg1) = K
    ∧ after tap9 W (Proc.devRef .tc main_arg0) = A
    ∧ after tap9 W (Proc.devRef .tc main_v92) = tapTerm ![0, 1, 4] ![0, 1, 4] slices_S16x260x260_S16x256x256_0_1_4 slices_S32x5x5_S32x1x1_0_1_4 P K acc := by
  obtain ⟨rfl, rfl, rfl, rfl⟩ := h
  unfold tap9
  refine ⟨?_, ?_, ?_, ?_⟩
  · after_results_simp
  · after_results_simp
  · after_results_simp
  · after_results_simp <;> rfl

/-- Tap (2, 0): the group keeps the padded image and the arguments and joins its tap onto the running result. -/
theorem tap10_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v92) = acc) :
    after tap10 W (Proc.devRef .tc main_v1) = P
    ∧ after tap10 W (Proc.devRef .tc main_arg1) = K
    ∧ after tap10 W (Proc.devRef .tc main_arg0) = A
    ∧ after tap10 W (Proc.devRef .tc main_v101) = tapTerm ![0, 2, 0] ![0, 2, 0] slices_S16x260x260_S16x256x256_0_2_0 slices_S32x5x5_S32x1x1_0_2_0 P K acc := by
  obtain ⟨rfl, rfl, rfl, rfl⟩ := h
  unfold tap10
  refine ⟨?_, ?_, ?_, ?_⟩
  · after_results_simp
  · after_results_simp
  · after_results_simp
  · after_results_simp <;> rfl

/-- Tap (2, 1): the group keeps the padded image and the arguments and joins its tap onto the running result. -/
theorem tap11_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v101) = acc) :
    after tap11 W (Proc.devRef .tc main_v1) = P
    ∧ after tap11 W (Proc.devRef .tc main_arg1) = K
    ∧ after tap11 W (Proc.devRef .tc main_arg0) = A
    ∧ after tap11 W (Proc.devRef .tc main_v110) = tapTerm ![0, 2, 1] ![0, 2, 1] slices_S16x260x260_S16x256x256_0_2_1 slices_S32x5x5_S32x1x1_0_2_1 P K acc := by
  obtain ⟨rfl, rfl, rfl, rfl⟩ := h
  unfold tap11
  refine ⟨?_, ?_, ?_, ?_⟩
  · after_results_simp
  · after_results_simp
  · after_results_simp
  · after_results_simp <;> rfl

/-- Tap (2, 2): the group keeps the padded image and the arguments and joins its tap onto the running result. -/
theorem tap12_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v110) = acc) :
    after tap12b (after tap12a W) (Proc.devRef .tc main_v1) = P
    ∧ after tap12b (after tap12a W) (Proc.devRef .tc main_arg1) = K
    ∧ after tap12b (after tap12a W) (Proc.devRef .tc main_arg0) = A
    ∧ after tap12b (after tap12a W) (Proc.devRef .tc main_v119) = tapTerm ![0, 2, 2] ![0, 2, 2] slices_S16x260x260_S16x256x256_0_2_2 slices_S32x5x5_S32x1x1_0_2_2 P K acc := by
  obtain ⟨rfl, rfl, rfl, rfl⟩ := h
  unfold tap12a tap12b
  refine ⟨?_, ?_, ?_, ?_⟩
  · after_results_simp
  · after_results_simp
  · after_results_simp
  · after_results_simp <;> rfl

/-- Tap (2, 3): the group keeps the padded image and the arguments and joins its tap onto the running result. -/
theorem tap13_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v119) = acc) :
    after tap13 W (Proc.devRef .tc main_v1) = P
    ∧ after tap13 W (Proc.devRef .tc main_arg1) = K
    ∧ after tap13 W (Proc.devRef .tc main_arg0) = A
    ∧ after tap13 W (Proc.devRef .tc main_v128) = tapTerm ![0, 2, 3] ![0, 2, 3] slices_S16x260x260_S16x256x256_0_2_3 slices_S32x5x5_S32x1x1_0_2_3 P K acc := by
  obtain ⟨rfl, rfl, rfl, rfl⟩ := h
  unfold tap13
  refine ⟨?_, ?_, ?_, ?_⟩
  · after_results_simp
  · after_results_simp
  · after_results_simp
  · after_results_simp <;> rfl

/-- Tap (2, 4): the group keeps the padded image and the arguments and joins its tap onto the running result. -/
theorem tap14_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v128) = acc) :
    after tap14 W (Proc.devRef .tc main_v1) = P
    ∧ after tap14 W (Proc.devRef .tc main_arg1) = K
    ∧ after tap14 W (Proc.devRef .tc main_arg0) = A
    ∧ after tap14 W (Proc.devRef .tc main_v137) = tapTerm ![0, 2, 4] ![0, 2, 4] slices_S16x260x260_S16x256x256_0_2_4 slices_S32x5x5_S32x1x1_0_2_4 P K acc := by
  obtain ⟨rfl, rfl, rfl, rfl⟩ := h
  unfold tap14
  refine ⟨?_, ?_, ?_, ?_⟩
  · after_results_simp
  · after_results_simp
  · after_results_simp
  · after_results_simp <;> rfl

/-- Tap (3, 0): the group keeps the padded image and the arguments and joins its tap onto the running result. -/
theorem tap15_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v137) = acc) :
    after tap15 W (Proc.devRef .tc main_v1) = P
    ∧ after tap15 W (Proc.devRef .tc main_arg1) = K
    ∧ after tap15 W (Proc.devRef .tc main_arg0) = A
    ∧ after tap15 W (Proc.devRef .tc main_v146) = tapTerm ![0, 3, 0] ![0, 3, 0] slices_S16x260x260_S16x256x256_0_3_0 slices_S32x5x5_S32x1x1_0_3_0 P K acc := by
  obtain ⟨rfl, rfl, rfl, rfl⟩ := h
  unfold tap15
  refine ⟨?_, ?_, ?_, ?_⟩
  · after_results_simp
  · after_results_simp
  · after_results_simp
  · after_results_simp <;> rfl

/-- Tap (3, 1): the group keeps the padded image and the arguments and joins its tap onto the running result. -/
theorem tap16_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v146) = acc) :
    after tap16 W (Proc.devRef .tc main_v1) = P
    ∧ after tap16 W (Proc.devRef .tc main_arg1) = K
    ∧ after tap16 W (Proc.devRef .tc main_arg0) = A
    ∧ after tap16 W (Proc.devRef .tc main_v155) = tapTerm ![0, 3, 1] ![0, 3, 1] slices_S16x260x260_S16x256x256_0_3_1 slices_S32x5x5_S32x1x1_0_3_1 P K acc := by
  obtain ⟨rfl, rfl, rfl, rfl⟩ := h
  unfold tap16
  refine ⟨?_, ?_, ?_, ?_⟩
  · after_results_simp
  · after_results_simp
  · after_results_simp
  · after_results_simp <;> rfl

/-- Tap (3, 2): the group keeps the padded image and the arguments and joins its tap onto the running result. -/
theorem tap17_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v155) = acc) :
    after tap17 W (Proc.devRef .tc main_v1) = P
    ∧ after tap17 W (Proc.devRef .tc main_arg1) = K
    ∧ after tap17 W (Proc.devRef .tc main_arg0) = A
    ∧ after tap17 W (Proc.devRef .tc main_v164) = tapTerm ![0, 3, 2] ![0, 3, 2] slices_S16x260x260_S16x256x256_0_3_2 slices_S32x5x5_S32x1x1_0_3_2 P K acc := by
  obtain ⟨rfl, rfl, rfl, rfl⟩ := h
  unfold tap17
  refine ⟨?_, ?_, ?_, ?_⟩
  · after_results_simp
  · after_results_simp
  · after_results_simp
  · after_results_simp <;> rfl

/-- Tap (3, 3): the group keeps the padded image and the arguments and joins its tap onto the running result. -/
theorem tap18_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v164) = acc) :
    after tap18 W (Proc.devRef .tc main_v1) = P
    ∧ after tap18 W (Proc.devRef .tc main_arg1) = K
    ∧ after tap18 W (Proc.devRef .tc main_arg0) = A
    ∧ after tap18 W (Proc.devRef .tc main_v173) = tapTerm ![0, 3, 3] ![0, 3, 3] slices_S16x260x260_S16x256x256_0_3_3 slices_S32x5x5_S32x1x1_0_3_3 P K acc := by
  obtain ⟨rfl, rfl, rfl, rfl⟩ := h
  unfold tap18
  refine ⟨?_, ?_, ?_, ?_⟩
  · after_results_simp
  · after_results_simp
  · after_results_simp
  · after_results_simp <;> rfl

/-- Tap (3, 4): the group keeps the padded image and the arguments and joins its tap onto the running result. -/
theorem tap19_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v173) = acc) :
    after tap19b (after tap19a W) (Proc.devRef .tc main_v1) = P
    ∧ after tap19b (after tap19a W) (Proc.devRef .tc main_arg1) = K
    ∧ after tap19b (after tap19a W) (Proc.devRef .tc main_arg0) = A
    ∧ after tap19b (after tap19a W) (Proc.devRef .tc main_v182) = tapTerm ![0, 3, 4] ![0, 3, 4] slices_S16x260x260_S16x256x256_0_3_4 slices_S32x5x5_S32x1x1_0_3_4 P K acc := by
  obtain ⟨rfl, rfl, rfl, rfl⟩ := h
  unfold tap19a tap19b
  refine ⟨?_, ?_, ?_, ?_⟩
  · after_results_simp
  · after_results_simp
  · after_results_simp
  · after_results_simp <;> rfl

/-- Tap (4, 0): the group keeps the padded image and the arguments and joins its tap onto the running result. -/
theorem tap20_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v182) = acc) :
    after tap20 W (Proc.devRef .tc main_v1) = P
    ∧ after tap20 W (Proc.devRef .tc main_arg1) = K
    ∧ after tap20 W (Proc.devRef .tc main_arg0) = A
    ∧ after tap20 W (Proc.devRef .tc main_v191) = tapTerm ![0, 4, 0] ![0, 4, 0] slices_S16x260x260_S16x256x256_0_4_0 slices_S32x5x5_S32x1x1_0_4_0 P K acc := by
  obtain ⟨rfl, rfl, rfl, rfl⟩ := h
  unfold tap20
  refine ⟨?_, ?_, ?_, ?_⟩
  · after_results_simp
  · after_results_simp
  · after_results_simp
  · after_results_simp <;> rfl

/-- Tap (4, 1): the group keeps the padded image and the arguments and joins its tap onto the running result. -/
theorem tap21_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v191) = acc) :
    after tap21 W (Proc.devRef .tc main_v1) = P
    ∧ after tap21 W (Proc.devRef .tc main_arg1) = K
    ∧ after tap21 W (Proc.devRef .tc main_arg0) = A
    ∧ after tap21 W (Proc.devRef .tc main_v200) = tapTerm ![0, 4, 1] ![0, 4, 1] slices_S16x260x260_S16x256x256_0_4_1 slices_S32x5x5_S32x1x1_0_4_1 P K acc := by
  obtain ⟨rfl, rfl, rfl, rfl⟩ := h
  unfold tap21
  refine ⟨?_, ?_, ?_, ?_⟩
  · after_results_simp
  · after_results_simp
  · after_results_simp
  · after_results_simp <;> rfl

/-- Tap (4, 2): the group keeps the padded image and the arguments and joins its tap onto the running result. -/
theorem tap22_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v200) = acc) :
    after tap22 W (Proc.devRef .tc main_v1) = P
    ∧ after tap22 W (Proc.devRef .tc main_arg1) = K
    ∧ after tap22 W (Proc.devRef .tc main_arg0) = A
    ∧ after tap22 W (Proc.devRef .tc main_v209) = tapTerm ![0, 4, 2] ![0, 4, 2] slices_S16x260x260_S16x256x256_0_4_2 slices_S32x5x5_S32x1x1_0_4_2 P K acc := by
  obtain ⟨rfl, rfl, rfl, rfl⟩ := h
  unfold tap22
  refine ⟨?_, ?_, ?_, ?_⟩
  · after_results_simp
  · after_results_simp
  · after_results_simp
  · after_results_simp <;> rfl

/-- Tap (4, 3): the group keeps the padded image and the arguments and joins its tap onto the running result. -/
theorem tap23_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v209) = acc) :
    after tap23 W (Proc.devRef .tc main_v1) = P
    ∧ after tap23 W (Proc.devRef .tc main_arg1) = K
    ∧ after tap23 W (Proc.devRef .tc main_arg0) = A
    ∧ after tap23 W (Proc.devRef .tc main_v218) = tapTerm ![0, 4, 3] ![0, 4, 3] slices_S16x260x260_S16x256x256_0_4_3 slices_S32x5x5_S32x1x1_0_4_3 P K acc := by
  obtain ⟨rfl, rfl, rfl, rfl⟩ := h
  unfold tap23
  refine ⟨?_, ?_, ?_, ?_⟩
  · after_results_simp
  · after_results_simp
  · after_results_simp
  · after_results_simp <;> rfl

/-- Tap (4, 4): the group keeps the padded image and the arguments and joins its tap onto the running result. -/
theorem tap24_next (W : Valuation τ sig (Elt F)) {P : (⟨S16x260x260, .f32⟩ : BufTy).Contents (Elt F)} {K : (⟨S32x5x5, .f32⟩ : BufTy).Contents (Elt F)} {A : (⟨S16x32x256x256, .f32⟩ : BufTy).Contents (Elt F)} {acc : (⟨S16x32x256x256, .f32⟩ : BufTy).Contents (Elt F)}
    (h : W (Proc.devRef .tc main_v1) = P ∧ W (Proc.devRef .tc main_arg1) = K ∧ W (Proc.devRef .tc main_arg0) = A ∧ W (Proc.devRef .tc main_v218) = acc) :
    after tap24 W (Proc.devRef .tc main_v1) = P
    ∧ after tap24 W (Proc.devRef .tc main_arg1) = K
    ∧ after tap24 W (Proc.devRef .tc main_arg0) = A
    ∧ after tap24 W (Proc.devRef .tc main_v227) = tapTerm ![0, 4, 4] ![0, 4, 4] slices_S16x260x260_S16x256x256_0_4_4 slices_S32x5x5_S32x1x1_0_4_4 P K acc := by
  obtain ⟨rfl, rfl, rfl, rfl⟩ := h
  unfold tap24
  refine ⟨?_, ?_, ?_, ?_⟩
  · after_results_simp
  · after_results_simp
  · after_results_simp
  · after_results_simp <;> rfl

/-- THE CONTENTS AFTER ALL 232 OPERATIONS: the result buffer at `refTerm` of the arguments, the arguments as they were. -/
theorem ops_read (V : Valuation τ sig (Elt F)) :
    after ops V (Proc.devRef .tc main_v227) = refTerm (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  have h0 := pre_step V
  have h1 := tap0_next _ h0
  have h2 := tap1_next _ h1
  have h3 := tap2_next _ h2
  have h4 := tap3_next _ h3
  have h5 := tap4_next _ h4
  have h6 := tap5_next _ h5
  have h7 := tap6_next _ h6
  have h8 := tap7_next _ h7
  have h9 := tap8_next _ h8
  have h10 := tap9_next _ h9
  have h11 := tap10_next _ h10
  have h12 := tap11_next _ h11
  have h13 := tap12_next _ h12
  have h14 := tap13_next _ h13
  have h15 := tap14_next _ h14
  have h16 := tap15_next _ h15
  have h17 := tap16_next _ h16
  have h18 := tap17_next _ h17
  have h19 := tap18_next _ h18
  have h20 := tap19_next _ h19
  have h21 := tap20_next _ h20
  have h22 := tap21_next _ h21
  have h23 := tap22_next _ h22
  have h24 := tap23_next _ h23
  have h25 := tap24_next _ h24
  unfold ops w0 w1 w2 w3
  simp only [after_append]
  exact ⟨h25.2.2.2, h25.2.2.1, h25.2.1⟩

/-! ## The run -/

/-- On every device, for any float values, from any memory with zero counters: every weakly fair execution of the
    reference terminates with its result buffer at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v227) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v227).trans (ops_read (launchContents m c)).1,
      (h c main_arg0).trans (ops_read (launchContents m c)).2.1,
      (h c main_arg1).trans (ops_read (launchContents m c)).2.2⟩)
    (run_seq scopedRefs_eq scopedSems_eq defs main (fun _ => ops) main_eq (fun _ => ops_sub) m ρ (fun _ op h => (ops_ok op h).2))

end Cert.ReferenceIdeal.RefRun

end
-- ==== Proof.RefValue.lean ====
/-
  The reference program computes the max–min convolution `G`.

  The reference first folds the 32 channels of each batch by `max` from the value `z` (a reduce over axis 1), pads the
  result by two rows and two columns of `z` on every side, and then, tap by tap in row-major order, cuts the window of
  the padded image shifted by the tap, takes its minimum with the structuring element's entry of the tap, and joins it by
  `max` onto the running result, which starts as `z` everywhere (Proof/RefRun.lean `refTerm`). Read at one index
  `y = (b, oc, i, j)` each tap is one step of the fold that `G` states: the window entry is the padded channel maximum at
  `(i + dy, j + dx)`, the structuring entry is `A1 (oc, dy, dx)`, and `z` stays the same unevaluated word on both sides.
-/
import proofs.«152960_j1606317768738_2_alg».proof.Proof.RefRun
import proofs.«152960_j1606317768738_2_alg».proof.Proof.Spec
import Idealize.ShloMosaic.Lib.KernelVsHost
import Idealize.ShloMosaic.Lib.ValueIdx
import Idealize.ShloMosaic.Lib.Pipeline.Value
import Idealize.ShloMosaic.PureOps.Reduce
import Idealize.ShloMosaic.PureOps.Ideal.Laws

set_option maxRecDepth 8192

noncomputable section

namespace Cert.ReferenceIdeal.RefValue

open Cert.ReferenceIdeal Cert.ReferenceIdeal.Gen Cert.ReferenceIdeal.RefRun Cert.MaxMin
open Idealize.ShloMosaic Idealize.ShloMosaic.ValueIdx

/-- The value both folds start from and the padding is made of: the word of minus infinity, never evaluated. -/
local notation "negInf" => (Ideal.ofBits FTy.f32 0xFF800000#32 : EReal)

/-! ## The channel maximum -/

/-- The index of the input over the reduced index `(b, i, j)` with channel `k` put back is `(b, k, i, j)`. -/
theorem lift_chan (h : S16x32x256x256.Reduces [1] S16x256x256) (b : Fin 16) (i j : Fin 256)
    (k : Fin (S16x32x256x256.size 1)) :
    h.lift (ix3 b i j) k = ix4 b (⟨k.val, k.isLt⟩ : Fin 32) i j := by
  funext c; apply Fin.ext
  fin_cases c <;> rfl

/-- The reduce over the channel axis, read at `(b, i, j)`, is the 32 channels folded by `max` from `z`. -/
theorem red_at (A0 : (ShIn 16).Idx → EReal) (b : Fin 16) (i j : Fin 256) :
    redTerm (F := Ideal) A0 (ix3 b i j) = img A0 negInf b i.val j.val := by
  unfold redTerm
  have h : S16x32x256x256.Reduces [1] S16x256x256 := by decide
  have e := Host.reduce_eq_fold_single (FloatOps.maximumf (F := Ideal) (φ := .f32)) A0 (constant (F := Ideal) S_ .f32 0xFF800000#32)
    reducesTo_S16x32x256x256_S16x256x256_d1 h h_S_ (ix3 b i j)
  refine e.trans ?_
  have hf : (A0 ∘ h.lift (ix3 b i j)) = fun k : Fin 32 => chan A0 negInf b i.val j.val k.val := by
    funext k
    unfold chan
    rw [dif_pos ⟨k.isLt, i.isLt, j.isLt⟩]
    exact congrArg A0 (lift_chan h b i j k)
  unfold img
  rw [← fold_univ_eq_maxUpTo]
  exact congrArg (fun f => Finset.fold max negInf f (Finset.univ : Finset (Fin 32))) hf

/-! ## The padded image -/

/-- The padded channel maximum read at `q = (b, r, s)` of the 260 × 260 frame: the channel maximum at
    `(r - 2, s - 2)` inside, `z` on the border of width two. -/
theorem pad_at (A0 : (ShIn 16).Idx → EReal) (q : S16x260x260.Idx) :
    padTerm (F := Ideal) A0 q
      = padded negInf (img A0 negInf (⟨(q 0).val, (q 0).isLt⟩ : Fin 16)) (q 1).val (q 2).val := by
  unfold padTerm padded
  by_cases h : 2 ≤ (q 1).val ∧ (q 1).val < 258 ∧ 2 ≤ (q 2).val ∧ (q 2).val < 258
  · rw [if_pos h]
    have hk := pad_apply_of_inside (![0, 2, 2] : Fin 3 → Nat) ![0, 2, 2] ![0, 0, 0] (redTerm (F := Ideal) A0)
      (id (constant (F := Ideal) S_ .f32 0xFF800000#32)) pads_S16x256x256_S16x260x260_000_220_220 h_S_ q
      (ix3 (⟨(q 0).val, (q 0).isLt⟩ : Fin 16) (⟨(q 1).val - 2, by omega⟩ : Fin 256) (⟨(q 2).val - 2, by omega⟩ : Fin 256))
      (fun a => match a with
        | ⟨0, _⟩ => by show (q 0).val = 0 + (q 0).val * (0 + 1); omega
        | ⟨1, _⟩ => by show (q 1).val = 2 + ((q 1).val - 2) * (0 + 1); omega
        | ⟨2, _⟩ => by show (q 2).val = 2 + ((q 2).val - 2) * (0 + 1); omega)
    exact hk.trans (red_at A0 _ _ _)
  · rw [if_neg h]
    by_cases h1 : 2 ≤ (q 1).val ∧ (q 1).val < 258
    · exact pad_apply_of_not_inside (![0, 2, 2] : Fin 3 → Nat) ![0, 2, 2] ![0, 0, 0] (redTerm (F := Ideal) A0)
        (id (constant (F := Ideal) S_ .f32 0xFF800000#32)) pads_S16x256x256_S16x260x260_000_220_220 h_S_ q (2 : Fin 3) (by
          intro hin
          have e1 : 2 ≤ (q 2).val := hin.1
          have e2 : ((q 2).val - 2) / (0 + 1) < 256 := hin.2.2
          omega)
    · exact pad_apply_of_not_inside (![0, 2, 2] : Fin 3 → Nat) ![0, 2, 2] ![0, 0, 0] (redTerm (F := Ideal) A0)
        (id (constant (F := Ideal) S_ .f32 0xFF800000#32)) pads_S16x256x256_S16x260x260_000_220_220 h_S_ q (1 : Fin 3) (by
          intro hin
          have e1 : 2 ≤ (q 1).val := hin.1
          have e2 : ((q 1).val - 2) / (0 + 1) < 256 := hin.2.2
          omega)

/-- The same at an index whose coordinates are known: batch `b`, row `r + dy`, column `s + dx`. -/
theorem padded_at (A0 : (ShIn 16).Idx → EReal) (q : S16x260x260.Idx) (b : Fin 16) (r s dy dx : ℕ)
    (hb : (q 0).val = b.val) (hr : (q 1).val = r + dy) (hs : (q 2).val = s + dx) :
    padTerm (F := Ideal) A0 q = padded negInf (img A0 negInf b) (r + dy) (s + dx) := by
  rw [pad_at, hr, hs]
  have e : (⟨(q 0).val, (q 0).isLt⟩ : Fin 16) = b := Fin.ext hb
  rw [e]

/-! ## The structuring element -/

/-- The structuring element read at an index whose coordinates are known is the entry of the tap. -/
theorem ker_at (A1 : ShK.Idx → EReal) (zz : EReal) (q : ShK.Idx) (oc : Fin 32) (dy dx : ℕ) (h : dy < 5 ∧ dx < 5)
    (h0 : (q 0).val = oc.val) (h1 : (q 1).val = dy) (h2 : (q 2).val = dx) :
    A1 q = ker A1 zz oc dy dx := by
  unfold ker
  rw [dif_pos h]
  refine congrArg A1 (funext fun a => Fin.ext ?_)
  match a with
  | ⟨0, _⟩ => exact h0
  | ⟨1, _⟩ => exact h1
  | ⟨2, _⟩ => exact h2

/-- One tap joined onto the running maximum, factor by factor. -/
theorem step_eq {a a' p p' k k' : EReal} (ha : a = a') (hp : p = p') (hk : k = k') :
    max a (min p k) = max a' (min p' k') := by
  rw [ha, hp, hk]

/-! ## One tap at an index -/

/-- The window of the padded image at offset `(0, dy, dx)`, broadcast over the output channels, read at `y = (b, oc, i, j)`,
    is the image at `(b, i + dy, j + dx)`. -/
theorem window_at (dy dx : ℕ) (hdy : dy < 5) (hdx : dx < 5) (h1 : S16x260x260.Slices ![0, dy, dx] S16x256x256)
    (P : S16x260x260.Idx → EReal) (y : S16x32x256x256.Idx) :
    (broadcastInDim S16x32x256x256 ![0, 1, 2, 3] bcast_S16x1x256x256_S16x32x256x256_0_1_2_3
      (broadcastInDim S16x1x256x256 ![0, 2, 3] bcast_S16x256x256_S16x1x256x256_0_2_3
        (extractStridedSlice S16x256x256 ![0, dy, dx] P h1)) : S16x32x256x256.Idx → EReal) y
      = P (ix3 (⟨(y 0).val, (y 0).isLt⟩ : Fin 16)
            (⟨(y 2).val + dy, by have h := (y 2).isLt; show (y 2).val + dy < 260; have h' : (y 2).val < 256 := h; omega⟩ : Fin 260)
            (⟨(y 3).val + dx, by have h := (y 3).isLt; show (y 3).val + dx < 260; have h' : (y 3).val < 256 := h; omega⟩ : Fin 260)) := by
  refine (broadcastInDim_apply _ bcast_S16x1x256x256_S16x32x256x256_0_1_2_3 _ y
    (ix4 (⟨(y 0).val, (y 0).isLt⟩ : Fin 16) (0 : Fin 1) (⟨(y 2).val, (y 2).isLt⟩ : Fin 256) (⟨(y 3).val, (y 3).isLt⟩ : Fin 256))
    (fun a => match a with
      | ⟨0, _⟩ => by show (y 0).val = if (16 : Nat) = 1 then 0 else (y 0).val; rw [if_neg (by decide)]
      | ⟨1, _⟩ => by show 0 = if (1 : Nat) = 1 then 0 else (y 1).val; rw [if_pos rfl]
      | ⟨2, _⟩ => by show (y 2).val = if (256 : Nat) = 1 then 0 else (y 2).val; rw [if_neg (by decide)]
      | ⟨3, _⟩ => by show (y 3).val = if (256 : Nat) = 1 then 0 else (y 3).val; rw [if_neg (by decide)])).trans ?_
  refine (broadcastInDim_apply _ bcast_S16x256x256_S16x1x256x256_0_2_3 _ _
    (ix3 (⟨(y 0).val, (y 0).isLt⟩ : Fin 16) (⟨(y 2).val, (y 2).isLt⟩ : Fin 256) (⟨(y 3).val, (y 3).isLt⟩ : Fin 256))
    (fun a => match a with
      | ⟨0, _⟩ => by show (y 0).val = if (16 : Nat) = 1 then 0 else (y 0).val; rw [if_neg (by decide)]
      | ⟨1, _⟩ => by show (y 2).val = if (256 : Nat) = 1 then 0 else (y 2).val; rw [if_neg (by decide)]
      | ⟨2, _⟩ => by show (y 3).val = if (256 : Nat) = 1 then 0 else (y 3).val; rw [if_neg (by decide)])).trans ?_
  exact extractStridedSlice_apply ![0, dy, dx] P h1 _ _ (fun a => match a with
    | ⟨0, _⟩ => by show (y 0).val = 0 + (y 0).val; omega
    | ⟨1, _⟩ => by show (y 2).val + dy = dy + (y 2).val; omega
    | ⟨2, _⟩ => by show (y 3).val + dx = dx + (y 3).val; omega)

/-- The structuring element's entry at offset `(0, dy, dx)`, broadcast over batches and pixels, read at
    `y = (b, oc, i, j)`, is the entry `(oc, dy, dx)`. -/
theorem entry_at (dy dx : ℕ) (hdy : dy < 5) (hdx : dx < 5) (h2 : S32x5x5.Slices ![0, dy, dx] S32x1x1)
    (K : S32x5x5.Idx → EReal) (y : S16x32x256x256.Idx) :
    (broadcastInDim S16x32x256x256 ![0, 1, 2, 3] bcast_S1x32x1x1_S16x32x256x256_0_1_2_3
      (broadcastInDim S1x32x1x1 ![1] bcast_S32_S1x32x1x1_1
        (shapeCast _ (extractStridedSlice S32x1x1 ![0, dy, dx] K h2) shapeCasts_S32x1x1_S32)) : S16x32x256x256.Idx → EReal) y
      = K (ix3 (⟨(y 1).val, (y 1).isLt⟩ : Fin 32) (⟨dy, hdy⟩ : Fin 5) (⟨dx, hdx⟩ : Fin 5)) := by
  refine (broadcastInDim_apply _ bcast_S1x32x1x1_S16x32x256x256_0_1_2_3 _ y
    (ix4 (0 : Fin 1) (⟨(y 1).val, (y 1).isLt⟩ : Fin 32) (0 : Fin 1) (0 : Fin 1))
    (fun a => match a with
      | ⟨0, _⟩ => by show 0 = if (1 : Nat) = 1 then 0 else (y 0).val; rw [if_pos rfl]
      | ⟨1, _⟩ => by show (y 1).val = if (32 : Nat) = 1 then 0 else (y 1).val; rw [if_neg (by decide)]
      | ⟨2, _⟩ => by show 0 = if (1 : Nat) = 1 then 0 else (y 2).val; rw [if_pos rfl]
      | ⟨3, _⟩ => by show 0 = if (1 : Nat) = 1 then 0 else (y 3).val; rw [if_pos rfl])).trans ?_
  refine (broadcastInDim_apply _ bcast_S32_S1x32x1x1_1 _ _ (ix1 (⟨(y 1).val, (y 1).isLt⟩ : Fin 32))
    (fun a => match a with
      | ⟨0, _⟩ => by show (y 1).val = if (32 : Nat) = 1 then 0 else (y 1).val; rw [if_neg (by decide)])).trans ?_
  refine (shapeCast_apply _ shapeCasts_S32x1x1_S32 _
    (ix3 (⟨(y 1).val, (y 1).isLt⟩ : Fin 32) (0 : Fin 1) (0 : Fin 1))
    (by rewrite [Shape.rowMajor_val_three, Shape.rowMajor_val_one]; show ((y 1).val * 1 + 0) * 1 + 0 = (y 1).val; omega)).trans ?_
  exact extractStridedSlice_apply ![0, dy, dx] K h2 _ _ (fun a => match a with
    | ⟨0, _⟩ => by show (y 1).val = 0 + (y 1).val; omega
    | ⟨1, _⟩ => by show dy = dy + 0; omega
    | ⟨2, _⟩ => by show dx = dx + 0; omega)

/-- ONE TAP AT AN INDEX: a `tapTerm` over the reference's padded image, read at `y = (b, oc, i, j)`, is one step of the
    specification's fold — the running value joined by `max` with the minimum of the padded channel maximum at
    `(i + dy, j + dx)` and the structuring element's entry `(oc, dy, dx)`. -/
theorem tap_at (A0 : (ShIn 16).Idx → EReal) (A1 : ShK.Idx → EReal) (dy dx : ℕ) (hdy : dy < 5) (hdx : dx < 5)
    (h1 : S16x260x260.Slices ![0, dy, dx] S16x256x256) (h2 : S32x5x5.Slices ![0, dy, dx] S32x1x1)
    (acc : S16x32x256x256.Idx → EReal) (y : (ShIn 16).Idx) :
    tapTerm (F := Ideal) ![0, dy, dx] ![0, dy, dx] h1 h2 (padTerm (F := Ideal) A0) A1 acc y
      = tapStep (fun dy dx => padded negInf (img A0 negInf (y 0)) ((y 2).val + dy) ((y 3).val + dx)) (ker A1 negInf (y 1))
          (acc y) (dy, dx) := by
  unfold tapStep tapTerm
  refine step_eq rfl ?_ ?_
  · exact (window_at dy dx hdy hdx h1 (padTerm (F := Ideal) A0) y).trans
      (padded_at A0 _ (y 0) (y 2).val (y 3).val dy dx rfl rfl rfl)
  · exact (entry_at dy dx hdy hdx h2 A1 y).trans (ker_at A1 negInf _ (y 1) dy dx ⟨hdy, hdx⟩ rfl rfl rfl)

/-- The array the running result starts from is `z` everywhere. -/
theorem z_at (y : S16x32x256x256.Idx) : zTerm (F := Ideal) y = negInf := by
  unfold zTerm
  exact broadcastInDim_apply _ bcast_S_S16x32x256x256 (constant (F := Ideal) S_ .f32 0xFF800000#32) y (fun a => a.elim0) (fun a => a.elim0)

/-! ## The 25 taps -/

/-- The reference's result read at one index is the 25 taps folded from `z`. -/
theorem ref_at (A0 : (ShIn 16).Idx → EReal) (A1 : ShK.Idx → EReal) (y : (ShIn 16).Idx) :
    refTerm (F := Ideal) A0 A1 y = G negInf A0 A1 y := by
  unfold refTerm chainTerm
  rw [tap_at A0 A1 4 4 (by decide) (by decide),
    tap_at A0 A1 4 3 (by decide) (by decide),
    tap_at A0 A1 4 2 (by decide) (by decide),
    tap_at A0 A1 4 1 (by decide) (by decide),
    tap_at A0 A1 4 0 (by decide) (by decide),
    tap_at A0 A1 3 4 (by decide) (by decide),
    tap_at A0 A1 3 3 (by decide) (by decide),
    tap_at A0 A1 3 2 (by decide) (by decide),
    tap_at A0 A1 3 1 (by decide) (by decide),
    tap_at A0 A1 3 0 (by decide) (by decide),
    tap_at A0 A1 2 4 (by decide) (by decide),
    tap_at A0 A1 2 3 (by decide) (by decide),
    tap_at A0 A1 2 2 (by decide) (by decide),
    tap_at A0 A1 2 1 (by decide) (by decide),
    tap_at A0 A1 2 0 (by decide) (by decide),
    tap_at A0 A1 1 4 (by decide) (by decide),
    tap_at A0 A1 1 3 (by decide) (by decide),
    tap_at A0 A1 1 2 (by decide) (by decide),
    tap_at A0 A1 1 1 (by decide) (by decide),
    tap_at A0 A1 1 0 (by decide) (by decide),
    tap_at A0 A1 0 4 (by decide) (by decide),
    tap_at A0 A1 0 3 (by decide) (by decide),
    tap_at A0 A1 0 2 (by decide) (by decide),
    tap_at A0 A1 0 1 (by decide) (by decide),
    tap_at A0 A1 0 0 (by decide) (by decide),
    z_at]
  rfl

/-- THE REFERENCE IS `G`: the array the reference program returns is the max–min convolution of the padded channel
    maximum of its first argument with its second. -/
theorem ref_eq (A0 : (⟨Cert.ReferenceIdeal.S16x32x256x256, .f32⟩ : BufTy).Contents (Elt Ideal))
    (A1 : (⟨Cert.ReferenceIdeal.S32x5x5, .f32⟩ : BufTy).Contents (Elt Ideal)) :
    refTerm (F := Ideal) A0 A1 = Cert.MaxMin.G (Ideal.ofBits .f32 0xFF800000#32) A0 A1 :=
  funext fun y => ref_at A0 A1 y

end Cert.ReferenceIdeal.RefValue

end
-- ==== Proof.lean ====
/-
  The max–min ("semifield") 5 × 5 convolution of the channel maximum, kernel against reference.

  Both programs compute, at batch `b`, output channel `oc` and pixel `(i, j)`,

      max over the 25 taps (dy, dx) of  min (P b (i + dy) (j + dx)) (k oc dy dx),

  where `P b` is the maximum over the 32 input channels of batch `b`, framed by two rows and two columns of minus infinity.
  The kernel takes one batch per grid point, folds the channels in a counted loop, and accumulates the taps through its
  output block, chunk of 8 channels by chunk; the reference reduces over the channel axis, pads, and folds the taps over
  whole arrays. Both fold `max` from minus infinity in the same tap order, so over the extended reals the two results are
  the SAME term, `Cert.MaxMin.G` (Proof/Spec.lean), and the only order fact used is that a fold of `max` over the channels
  does not depend on how it is bracketed (Proof/MaxMin.lean). No finiteness of the inputs is needed.

  Proof/KernelOps.lean, KernelImage.lean, KernelBlock.lean, KernelArray.lean read the kernel's result array as `G` of its
  arguments; Proof/RefRun.lean runs the reference's straight line of host operations, one tap's group at a time, and
  Proof/RefValue.lean reads its result as `G`; the two kernels' frames are the generated ones, the reference's frame is
  its run with the result dropped, and the idealization rewrote nothing.
-/
import proofs.«152960_j1606317768738_2_alg».proof.Defs
import proofs.«152960_j1606317768738_2_alg».proof.Proof.Gen.Kernel
import proofs.«152960_j1606317768738_2_alg».proof.Proof.Gen.Kernel.Skeleton
import proofs.«152960_j1606317768738_2_alg».proof.Proof.Gen.Kernel.Loops
import proofs.«152960_j1606317768738_2_alg».proof.Proof.Gen.Kernel.Launch
import proofs.«152960_j1606317768738_2_alg».proof.Proof.Gen.Kernel.Points
import proofs.«152960_j1606317768738_2_alg».proof.Proof.Gen.Kernel.Frame
import proofs.«152960_j1606317768738_2_alg».proof.Proof.Gen.KernelIdeal
import proofs.«152960_j1606317768738_2_alg».proof.Proof.Gen.KernelIdeal.Skeleton
import proofs.«152960_j1606317768738_2_alg».proof.Proof.Gen.KernelIdeal.Loops
import proofs.«152960_j1606317768738_2_alg».proof.Proof.Gen.KernelIdeal.Launch
import proofs.«152960_j1606317768738_2_alg».proof.Proof.Gen.KernelIdeal.Points
import proofs.«152960_j1606317768738_2_alg».proof.Proof.Gen.KernelIdeal.Frame
import proofs.«152960_j1606317768738_2_alg».proof.Proof.Gen.ReferenceIdeal
import proofs.«152960_j1606317768738_2_alg».proof.Proof.Gen.Pre_finite_inputs
import proofs.«152960_j1606317768738_2_alg».proof.Proof.Gen.KernelIdeal.Value
import proofs.«152960_j1606317768738_2_alg».proof.Proof.KernelArray
import proofs.«152960_j1606317768738_2_alg».proof.Proof.RefRun
import proofs.«152960_j1606317768738_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Over the extended reals both result arrays are the max–min convolution `G` of the arguments, which agree. -/
theorem algebraic : Cert.algebraic_KernelIdeal_ReferenceIdeal := by
  intro m ρ m' ρ' _ hagree
  refine ⟨fun c => Cert.MaxMin.G Cert.KernelIdeal.Image.z (Cert.KernelIdeal.Hand.A0 m c) (Cert.KernelIdeal.Hand.A1 m c),
    Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
